-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x16 : Shape := ⟨2, ![800000, 16]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S10 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg6 : FVec F S64x64 .f32) (main_arg7 : FVec F S64 .f32) (main_arg8 : FVec F S64x10 .f32) (main_arg9 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x10 .f32 := Host.absf main_arg8
  let main_cst_10 : FVec F S_ .f32 := constant S_ .f32 0x7F800000#32
  let main_v30 : FVec F S64x10 .f32 := broadcastInDim S64x10 ![] bcast_S_S64x10 main_cst_10
  let main_v31 : IVec S64x10 1 := cmpf .olt main_v29 main_v30
  let main_c_11 : IVec S_ 1 := constantI S_ 1 1#1
  let main_v32 : IVec S_ 1 := (fun x v => Host.reduce IntOp.andi x v reducesTo_S64x10_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x800000 32) (main_arg2 : FVec F S800000x16 .f32) (main_arg3 : IVec S50000 32) (main_arg4 : FVec F S128x64 .f32) (main_arg5 : FVec F S64 .f32) (main_arg6 : FVec F S64x64 .f32) (main_arg7 : FVec F S64 .f32) (main_arg8 : FVec F S64x10 .f32) (main_arg9 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S50000x128 : Shape := ⟨2, ![50000, 128]⟩
abbrev S2x800000 : Shape := ⟨2, ![2, 800000]⟩
abbrev S800000x16 : Shape := ⟨2, ![800000, 16]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x2 : Shape := ⟨2, ![50000, 2]⟩
abbrev S50000x64 : Shape := ⟨2, ![50000, 64]⟩
abbrev S5000x128 : Shape := ⟨2, ![5000, 128]⟩
abbrev S5000x2 : Shape := ⟨2, ![5000, 2]⟩
abbrev S5000x64 : Shape := ⟨2, ![5000, 64]⟩
abbrev S5000x1 : Shape := ⟨2, ![5000, 1]⟩
abbrev S800000x64 : Shape := ⟨2, ![800000, 64]⟩
abbrev S1x64 : Shape := ⟨2, ![1, 64]⟩
abbrev S256 : Shape := ⟨1, ![256]⟩
abbrev S256x64 : Shape := ⟨2, ![256, 64]⟩
abbrev S256x1 : Shape := ⟨2, ![256, 1]⟩
abbrev S1x10 : Shape := ⟨2, ![1, 10]⟩
abbrev S256x10 : Shape := ⟨2, ![256, 10]⟩

abbrev nBuf : Space → Nat
  | .hbm => 79
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x16, .f32⟩
  | .hbm, ⟨3, _⟩ => ⟨S50000, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x10, .f32⟩
  | .hbm, ⟨9, _⟩ => ⟨S10, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x1, .f32⟩
  | .hbm, ⟨27, _⟩ => ⟨S50000x2, .f32⟩
  | .hbm, ⟨28, _⟩ => ⟨S50000x64, .f32⟩
  | .hbm, ⟨29, _⟩ => ⟨S50000x64, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .f32⟩
  | .hbm, ⟨39, _⟩ => ⟨S_, .f32⟩
  | .hbm, ⟨40, _⟩ => ⟨S50000x64, .f32⟩
  | .hbm, ⟨41, _⟩ => ⟨S800000x1, .i32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S1x64, .f32⟩
  | .hbm, ⟨60, _⟩ => ⟨S50000x64, .f32⟩
  | .hbm, ⟨61, _⟩ => ⟨S_, .f32⟩
  | .hbm, ⟨62, _⟩ => ⟨S50000, .f32⟩
  | .hbm, ⟨63, _⟩ => ⟨S_, .f32⟩
  | .hbm, ⟨64, _⟩ => ⟨S256, .f32⟩
  | .hbm, ⟨65, _⟩ => ⟨S50000x1, .i32⟩
  | .hbm, ⟨66, _⟩ => ⟨S256, .f32⟩
  | .hbm, ⟨67, _⟩ => ⟨S_, .f32⟩
  | .hbm, ⟨68, _⟩ => ⟨S256x64, .f32⟩
  | .hbm, ⟨69, _⟩ => ⟨S50000x1, .i32⟩
  | .hbm, ⟨70, _⟩ => ⟨S256x64, .f32⟩
  | .hbm, ⟨71, _⟩ => ⟨S_, .f32⟩
  | .hbm, ⟨72, _⟩ => ⟨S256, .f32⟩
  | .hbm, ⟨73, _⟩ => ⟨S256, .f32⟩
  | .hbm, ⟨74, _⟩ => ⟨S256x1, .f32⟩
  | .hbm, ⟨75, _⟩ => ⟨S256x64, .f32⟩
  | .hbm, ⟨76, _⟩ => ⟨S256x64, .f32⟩
  | .hbm, ⟨77, _⟩ => ⟨S1x10, .f32⟩
  | .hbm, ⟨78, _⟩ => ⟨S256x10, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x2, .f32⟩
  | .local _ .vmem, ⟨4, _⟩ => ⟨S5000x2, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x2, .f32⟩
  | .local _ .vmem, ⟨14, _⟩ => ⟨S5000x2, .f32⟩
  | .local _ .vmem, ⟨15, _⟩ => ⟨S1x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x2, .f32⟩
  | .local _ .vmem, ⟨26, _⟩ => ⟨S5000x2, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S256x64, .f32⟩
  | .local _ .vmem, ⟨31, _⟩ => ⟨S64x10, .f32⟩
  | .local _ .vmem, ⟨32, _⟩ => ⟨S1x10, .f32⟩
  | .local _ .vmem, ⟨33, _⟩ => ⟨S256x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem4_1 : DmaSem sig := 29
abbrev cc3_sem0_0 : DmaSem sig := 30
abbrev cc3_sem1_0 : DmaSem sig := 31
abbrev cc3_sem2_0 : DmaSem sig := 32
abbrev cc3_sem3_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  concatenates_S50000x1_S50000x1_S50000x2_d1 : Shape.Concatenates [S50000x1, S50000x1] S50000x2 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x2_S5000x1_0_0 : ∀ a, (![0, 0] : Fin 2 → Nat) a + S5000x1.size a ≤ S5000x2.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  broadcasts_S5000x1_S5000x64 : S5000x1.Broadcasts S5000x64
  bcast_S_S50000x64 : S_.BroadcastsInDim S50000x64 (![] : Fin 0 → Fin S50000x64.rank)
  shapeCasts_S64_S1x64 : S64.ShapeCasts S1x64
  inb_S5000x2_S5000x1_0_1 : ∀ a, (![0, 1] : Fin 2 → Nat) a + S5000x1.size a ≤ S5000x2.size a
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S256 : S_.BroadcastsInDim S256 (![] : Fin 0 → Fin S256.rank)
  bcast_S_S256x64 : S_.BroadcastsInDim S256x64 (![] : Fin 0 → Fin S256x64.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S10_S1x10 : S10.ShapeCasts S1x10
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  inb_S256x10_S256x10_0_0 : ∀ a, (![0, 0] : Fin 2 → Nat) a + S256x10.size a ≤ S256x10.size a
  h_S256x10 : 0 < S256x10.numel
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  scatter_S256_S50000x1_S50000_n_0_0_1_wf : ScatterDims.WF S256 S50000x1 S50000 [] [0] [0] 1
  scatter_S256x64_S50000x1_S50000x64_1_0_0_1_wf : ScatterDims.WF S256x64 S50000x1 S50000x64 [1] [0] [0] 1
  dot_S256x64_S64x10_S256x10_1_0_0_1_n_n_wf : DotDims.WF S256x64 S64x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x2.size a ≤ S50000x2.size a
  hwx0_2 : ∀ i : grid0.Coords, EltTy.bits .f32 = 32 ∨ (Rect.block (s := S50000x2) S5000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x2.size a ≤ S50000x2.size a
  hwx1_2 : ∀ i : grid1.Coords, EltTy.bits .f32 = 32 ∨ (Rect.block (s := S50000x2) S5000x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S50000x2.size a
  hwx2_2 : ∀ i : grid2.Coords, EltTy.bits .f32 = 32 ∨ (Rect.block (s := S50000x2) S5000x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x64.size a ≤ S256x64.size a
  hwx3_0 : ∀ i : grid3.Coords, EltTy.bits .f32 = 32 ∨ (Rect.block (s := S256x64) S256x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x10.size a ≤ S64x10.size a
  hwx3_1 : ∀ i : grid3.Coords, EltTy.bits .f32 = 32 ∨ (Rect.block (s := S64x10) S64x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x10.size a ≤ S256x10.size a
  hwx3_3 : ∀ i : grid3.Coords, EltTy.bits .f32 = 32 ∨ (Rect.block (s := S256x10) S256x10.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15_0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27_0) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v27_1) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27_0) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S5000x2.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v51) S256x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S256x10.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x16 : Shape := ⟨2, ![800000, 16]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x64 : Shape := ⟨2, ![50000, 64]⟩
abbrev S800000x64 : Shape := ⟨2, ![800000, 64]⟩
abbrev S50000x1 : Shape := ⟨2, ![50000, 1]⟩
abbrev S1x64 : Shape := ⟨2, ![1, 64]⟩
abbrev S256 : Shape := ⟨1, ![256]⟩
abbrev S256x64 : Shape := ⟨2, ![256, 64]⟩
abbrev S256x1 : Shape := ⟨2, ![256, 1]⟩
abbrev S256x10 : Shape := ⟨2, ![256, 10]⟩
abbrev S1x10 : Shape := ⟨2, ![1, 10]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S2x800000, .i32⟩
  | 2 => ⟨S800000x16, .f32⟩
  | 3 => ⟨S50000, .i32⟩
  | 4 => ⟨S128x64, .f32⟩
  | 5 => ⟨S64, .f32⟩
  | 6 => ⟨S64x64, .f32⟩
  | 7 => ⟨S64, .f32⟩
  | 8 => ⟨S64x10, .f32⟩
  | 9 => ⟨S10, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S50000x64, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S800000x1, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x64, .f32⟩
  | 54 => ⟨S800000x64, .f32⟩
  | 55 => ⟨S800000x64, .f32⟩
  | 56 => ⟨S_, .f32⟩
  | 57 => ⟨S50000x64, .f32⟩
  | 58 => ⟨S800000x1, .i32⟩
  | 59 => ⟨S50000x64, .f32⟩
  | 60 => ⟨S50000, .f32⟩
  | 61 => ⟨S50000x1, .f32⟩
  | 62 => ⟨S50000x64, .f32⟩
  | 63 => ⟨S50000x64, .f32⟩
  | 64 => ⟨S50000x64, .f32⟩
  | 65 => ⟨S1x64, .f32⟩
  | 66 => ⟨S50000x64, .f32⟩
  | 67 => ⟨S50000x64, .f32⟩
  | 68 => ⟨S_, .f32⟩
  | 69 => ⟨S50000x64, .f32⟩
  | 70 => ⟨S50000x64, .f32⟩
  | 71 => ⟨S50000x64, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000, .f32⟩
  | 90 => ⟨S800000, .f32⟩
  | 91 => ⟨S800000x1, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x64, .f32⟩
  | 101 => ⟨S800000x64, .f32⟩
  | 102 => ⟨S800000x64, .f32⟩
  | 103 => ⟨S_, .f32⟩
  | 104 => ⟨S50000x64, .f32⟩
  | 105 => ⟨S800000x1, .i32⟩
  | 106 => ⟨S50000x64, .f32⟩
  | 107 => ⟨S50000, .f32⟩
  | 108 => ⟨S50000x1, .f32⟩
  | 109 => ⟨S50000x64, .f32⟩
  | 110 => ⟨S50000x64, .f32⟩
  | 111 => ⟨S50000x64, .f32⟩
  | 112 => ⟨S1x64, .f32⟩
  | 113 => ⟨S50000x64, .f32⟩
  | 114 => ⟨S50000x64, .f32⟩
  | 115 => ⟨S_, .f32⟩
  | 116 => ⟨S50000, .f32⟩
  | 117 => ⟨S_, .f32⟩
  | 118 => ⟨S256, .f32⟩
  | 119 => ⟨S50000x1, .i32⟩
  | 120 => ⟨S256, .f32⟩
  | 121 => ⟨S_, .f32⟩
  | 122 => ⟨S256x64, .f32⟩
  | 123 => ⟨S50000x1, .i32⟩
  | 124 => ⟨S256x64, .f32⟩
  | 125 => ⟨S_, .f32⟩
  | 126 => ⟨S256, .f32⟩
  | 127 => ⟨S256, .f32⟩
  | _ => ⟨S50000x128, .f32⟩

abbrev hbmTy0_1 (i : Nat) : BufTy := match i % 128 with
  | 0 => ⟨S256x1, .f32⟩
  | 1 => ⟨S256x64, .f32⟩
  | 2 => ⟨S256x64, .f32⟩
  | 3 => ⟨S256x10, .f32⟩
  | 4 => ⟨S1x10, .f32⟩
  | 5 => ⟨S256x10, .f32⟩
  | 6 => ⟨S256x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_15 : Ref sig .tc := ⟨.hbm, 115, rfl⟩
abbrev main_v86 : Ref sig .tc := ⟨.hbm, 116, rfl⟩
abbrev main_cst_16 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_17 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_18 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S256 : S_.BroadcastsInDim S256 (![] : Fin 0 → Fin S256.rank)
  bcast_S_S256x64 : S_.BroadcastsInDim S256x64 (![] : Fin 0 → Fin S256x64.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S256_S50000x1_S50000_n_0_0_1_wf : ScatterDims.WF S256 S50000x1 S50000 [] [0] [0] 1
  scatter_S256x64_S50000x1_S50000x64_1_0_0_1_wf : ScatterDims.WF S256x64 S50000x1 S50000x64 [1] [0] [0] 1
  dot_S256x64_S64x10_S256x10_1_0_0_1_n_n_wf : DotDims.WF S256x64 S64x10 S256x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

class Facts : Prop extends Facts₀ where

variable [Facts]
-- ==== Proof.KernelRun.lean ====
/-
  The idealized kernel's run with its RESULT named. The program is four kernel regions among stretches of host
  operations; its run is a chain of segments through the buffer contents at the segment boundaries, the last of which
  (`W8`) every unscoped buffer holds at the end. The frame statement reads only the argument arrays back from that final
  state; here the result array is read back as well: after every weakly fair execution it holds what the last
  boundary's contents say of it.
-/
import proofs.«175961_j41618233099022_2_alg».proof.Proof.KernelIdealFrameP

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result array at the last boundary's contents and the
    argument arrays as launched. -/
theorem run_result : θ_run defs (onTc (τ := τ) (main (F := F))) ⟨m, fun _ => 0, ρ⟩ (fun r => ∀ c : Dev nD,
      r.2.mem ((c.tc : Thread nD τ).loc main_v53) = W8 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v53 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.Value

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.KernelBlocks.lean ====
/-
  What each kernel body computes, read at one entry of its block, on the extended reals.

  A block is 5000 rows of the node arrays. Region 0's body forms the rows' products with the first weight matrix and the
  same products scaled by the first column of the block of degree factors. Region 1's body combines the aggregated rows,
  the unscaled products and the two factor columns into the first layer's output, rectifies it, and forms its products
  with the second weight matrix, plain and scaled. Region 2's body is the same combination without rectifier or product.
  Region 3's body is one product of the whole pooled array with the classifier's matrix plus its bias row. A change of
  float format is the identity on the extended reals, and a matrix-unit product into a zero accumulator is a plain sum.
-/
import proofs.«175961_j41618233099022_2_alg».proof.Proof.Gen.KernelIdeal.Skeleton
import proofs.«175961_j41618233099022_2_alg».proof.Proof.LibDense
import proofs.«175961_j41618233099022_2_alg».proof.Proof.LibRowBlocks
import Idealize.ShloMosaic.Lib.ValueIdx
import Idealize.ShloMosaic.Lib.Pipeline.Value
import Idealize.ShloMosaic.PureOps.Ideal.Laws

open scoped BigOperators

noncomputable section

namespace Cert.KernelIdeal.Blocks

open Idealize.ShloMosaic Idealize.ShloMosaic.ValueIdx Cert.KernelIdeal Cert.KernelIdeal.Gen

/-- A one-row array broadcast along the rows reads, at `(p, q)`, the row at `q`. -/
theorem broadcastTo_row_apply {α : Type} {n c : ℕ} (x : (⟨2, ![1, c]⟩ : Shape).Idx → α)
    (h : (⟨2, ![1, c]⟩ : Shape).Broadcasts ⟨2, ![n, c]⟩) (p : Fin n) (q : Fin c) :
    broadcastTo ⟨2, ![n, c]⟩ x h (ix2 p q) = x (ix2 (0 : Fin 1) q) := by
  refine broadcastTo_apply x h (ix2 p q) (ix2 (0 : Fin 1) q) fun ax => ?_
  match ax with
  | ⟨0, _⟩ => rfl
  | ⟨1, _⟩ =>
    show q.val = if c = 1 then 0 else q.val
    split
    · have := q.isLt; omega
    · rfl

/-! ## Region 0 -/

theorem pay0_lin (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) := by
  unfold k0_pay1
  exact congrFun (Dense.matmul_zero_eq_mm dot_S5000x128_S128x64_S5000x64_1_0_0_1_n_n rfl rfl rfl rfl rfl rfl none
    (truncf .bf16 x0 bitsLt_bf16_f32) (truncf .bf16 x1 bitsLt_bf16_f32)) (ix2 p q)

theorem pay0_sc (x0 : Vec Ideal S5000x128 .f32) (x1 : Vec Ideal S128x64 .f32) (x5 : Vec Ideal S5000x1 .f32)
    (p : Fin 5000) (q : Fin 64) :
    k0_pay2 (F := Ideal) x0 x1 x5 (ix2 p q) = (∑ k : Fin 128, x0 (ix2 p k) * x1 (ix2 k q)) * x5 (ix2 p (0 : Fin 1)) := by
  show mulf (k0_pay1 (F := Ideal) x0 x1)
    (broadcastTo S5000x64 (shapeCast S5000x1 x5 shapeCasts_S5000x1_S5000x1) broadcasts_S5000x1_S5000x64) (ix2 p q) = _
  rw [mulf_apply, pay0_lin, RowBlocks.broadcastTo_col_apply, shapeCast_self]

/-! ## Regions 1 and 2: the layer's combination at an entry -/

/-- Aggregate times the first factor column, plus the unscaled entry times the second, plus the bias row. -/
theorem combine_apply (a h : FVec Ideal S5000x64 .f32) (d0 d1 : FVec Ideal S5000x1 .f32) (b : FVec Ideal S1x64 .f32)
    (p : Fin 5000) (q : Fin 64) :
    addf (addf (mulf (shapeCast S5000x64 a shapeCasts_S5000x64_S5000x64)
          (broadcastTo S5000x64 (shapeCast S5000x1 d0 shapeCasts_S5000x1_S5000x1) broadcasts_S5000x1_S5000x64))
        (mulf (shapeCast S5000x64 h shapeCasts_S5000x64_S5000x64)
          (broadcastTo S5000x64 (shapeCast S5000x1 d1 shapeCasts_S5000x1_S5000x1) broadcasts_S5000x1_S5000x64)))
      (broadcastTo S5000x64 (shapeCast S1x64 b shapeCasts_S1x64_S1x64) broadcasts_S1x64_S5000x64) (ix2 p q)
      = (a (ix2 p q) * d0 (ix2 p (0 : Fin 1)) + h (ix2 p q) * d1 (ix2 p (0 : Fin 1))) + b (ix2 (0 : Fin 1) q) := by
  rw [addf_apply, addf_apply, mulf_apply, mulf_apply, RowBlocks.broadcastTo_col_apply, RowBlocks.broadcastTo_col_apply,
    broadcastTo_row_apply, shapeCast_self, shapeCast_self, shapeCast_self, shapeCast_self, shapeCast_self]

theorem pay2 (v0 v2 : Vec Ideal S5000x1 .f32) (v4 v8 : Vec Ideal S5000x64 .f32) (v13 : Vec Ideal S1x64 .f32)
    (p : Fin 5000) (q : Fin 64) :
    k2_pay1 (F := Ideal) v0 v2 v4 v8 v13 (ix2 p q)
      = (v4 (ix2 p q) * v0 (ix2 p (0 : Fin 1)) + v8 (ix2 p q) * v2 (ix2 p (0 : Fin 1))) + v13 (ix2 (0 : Fin 1) q) :=
  combine_apply v4 v8 v0 v2 v13 p q

theorem pay1_lin (v0 v2 : Vec Ideal S5000x1 .f32) (v4 v8 : Vec Ideal S5000x64 .f32) (v13 : Vec Ideal S1x64 .f32)
    (v20 : Vec Ideal S64x64 .f32) (p : Fin 5000) (q : Fin 64) :
    k1_pay2 (F := Ideal) v0 v2 v4 v8 v13 v20 (ix2 p q)
      = ∑ k : Fin 64, max ((v4 (ix2 p k) * v0 (ix2 p (0 : Fin 1)) + v8 (ix2 p k) * v2 (ix2 p (0 : Fin 1)))
          + v13 (ix2 (0 : Fin 1) k)) 0 * v20 (ix2 k q) := by
  unfold k1_pay2 k1_pay1
  refine (congrFun (Dense.matmul_zero_eq_mm dot_S5000x64_S64x64_S5000x64_1_0_0_1_n_n rfl rfl rfl rfl rfl rfl none
    _ (truncf .bf16 v20 bitsLt_bf16_f32)) (ix2 p q)).trans ?_
  rw [Dense.mm_apply]
  refine Finset.sum_congr rfl fun k _ => ?_
  congr 1
  show max (addf (addf _ _) _ (ix2 p k)) (Ideal.ofBits .f32 0x00000000#32) = _
  rw [combine_apply v4 v8 v0 v2 v13 p k, Ideal.ofBits_zero_f32]

theorem pay1_sc (v0 v2 : Vec Ideal S5000x1 .f32) (v4 v8 : Vec Ideal S5000x64 .f32) (v13 : Vec Ideal S1x64 .f32)
    (v20 : Vec Ideal S64x64 .f32) (p : Fin 5000) (q : Fin 64) :
    k1_pay3 (F := Ideal) v0 v2 v4 v8 v13 v20 (ix2 p q)
      = (∑ k : Fin 64, max ((v4 (ix2 p k) * v0 (ix2 p (0 : Fin 1)) + v8 (ix2 p k) * v2 (ix2 p (0 : Fin 1)))
          + v13 (ix2 (0 : Fin 1) k)) 0 * v20 (ix2 k q)) * v0 (ix2 p (0 : Fin 1)) := by
  show mulf (k1_pay2 (F := Ideal) v0 v2 v4 v8 v13 v20)
    (broadcastTo S5000x64 (shapeCast S5000x1 v0 shapeCasts_S5000x1_S5000x1) broadcasts_S5000x1_S5000x64) (ix2 p q) = _
  rw [mulf_apply, pay1_lin, RowBlocks.broadcastTo_col_apply, shapeCast_self]

/-! ## Region 3 -/

theorem pay3 (v0 : Vec Ideal S256x64 .f32) (v3 : Vec Ideal S64x10 .f32) (v6 : Vec Ideal S1x10 .f32)
    (g : Fin 256) (j : Fin 10) :
    k3_pay1 (F := Ideal) v0 v3 v6 (ix2 g j) = (∑ k : Fin 64, v0 (ix2 g k) * v3 (ix2 k j)) + v6 (ix2 (0 : Fin 1) j) := by
  show addf (matmul (F := Ideal) dot_S256x64_S64x10_S256x10_1_0_0_1_n_n none
      (truncf .bf16 (shapeCast S256x64 v0 shapeCasts_S256x64_S256x64) bitsLt_bf16_f32) (truncf .bf16 v3 bitsLt_bf16_f32)
      (constant S256x10 .f32 0x00000000#32))
    (broadcastTo S256x10 (shapeCast S1x10 v6 shapeCasts_S1x10_S1x10) broadcasts_S1x10_S256x10) (ix2 g j) = _
  rw [addf_apply, broadcastTo_row_apply, shapeCast_self, shapeCast_self,
    Dense.matmul_zero_eq_mm dot_S256x64_S64x10_S256x10_1_0_0_1_n_n rfl rfl rfl rfl rfl rfl none]
  rfl

end Cert.KernelIdeal.Blocks

end
-- ==== Proof.KernelRegions.lean ====
/-
  The arrays each kernel region leaves, as whole-array functions of the arrays the region finds.

  Every region's grid walks the node axis in blocks of 5000 rows (the last region has one point and whole-array blocks).
  An entry of an output block depends only on the same row of the row-blocked inputs and on the whole of the small
  operands (weights, bias row), so what point `t` writes back is block `t` of ONE function of the whole input arrays,
  and the blocks tile the output array: the array ends holding that function.
-/
import proofs.«175961_j41618233099022_2_alg».proof.Proof.KernelIdealFrameP
import proofs.«175961_j41618233099022_2_alg».proof.Proof.KernelBlocks

set_option maxRecDepth 16384

noncomputable section

namespace Cert.KernelIdeal.Regions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP
open Idealize.ShloMosaic.ValueIdx Cert.Dense

open scoped BigOperators

variable (V : (c : Dev nD) → (b : Ref sig .tc) → Buf (Elt Ideal) ((c : Thread nD τ).loc b))

theorem hz2 : (![0, 0] : Fin 2 → Nat) = fun _ => 0 := funext fun a => by fin_cases a <;> rfl

/-! ## Region 0: the first product, plain and scaled -/

/-- The rows' products with the weight matrix. -/
def lin0 (X : S50000x128.Idx → EReal) (W : S128x64.Idx → EReal) : S50000x64.Idx → EReal :=
  fun i => ∑ k : Fin 128, X (ix2 (c0 i) k) * W (ix2 k (c1 i))

/-- The same, each row times its entry of the first factor column. -/
def sc0 (X : S50000x128.Idx → EReal) (W : S128x64.Idx → EReal) (D : S50000x2.Idx → EReal) : S50000x64.Idx → EReal :=
  fun i => lin0 X W i * D (ix2 (c0 i) (0 : Fin 2))

theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0 :=
  (by decide +kernel : ∀ t : Fin grid0.N, _)

theorem flushed0_3 (c : Dev nD) (t : Fin cfg0.N) :
    (dat0 V c).flushed 3 t
      = ((cfg0.win 3).blk t).view.read (Elt Ideal) (lin0 (V c main_arg0) (V c main_arg4)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x64) hz2]
  obtain ⟨e00, e01, e10, e11, e20, e21, e30, e31, e40, e41⟩ := idx0 t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
    = lin0 (V c main_arg0) (V c main_arg4) (((cfg0.win 3).blk t).view.emb (ix2 p q))
  rw [Blocks.pay0_lin]
  unfold lin0
  refine Finset.sum_congr rfl fun k _ => ?_
  congr 1
  · show V c main_arg0 (((cfg0.win 0).blk t).view.emb (ix2 p k)) = V c main_arg0 _
    congr 1; funext a; apply Fin.ext
    match a with
    | ⟨0, _⟩ =>
      show win0_0.index t (0 : Fin 2) * 5000 + 1 * p.val = win0_3.index t (0 : Fin 2) * 5000 + 1 * p.val
      omega
    | ⟨1, _⟩ =>
      show win0_0.index t (1 : Fin 2) * 128 + 1 * k.val = k.val
      omega
  · show V c main_arg4 (((cfg0.win 1).blk t).view.emb (ix2 k q)) = V c main_arg4 _
    congr 1; funext a; apply Fin.ext
    match a with
    | ⟨0, _⟩ =>
      show win0_1.index t (0 : Fin 2) * 128 + 1 * k.val = k.val
      omega
    | ⟨1, _⟩ =>
      show win0_1.index t (1 : Fin 2) * 64 + 1 * q.val = win0_3.index t (1 : Fin 2) * 64 + 1 * q.val
      omega

theorem flushed0_4 (c : Dev nD) (t : Fin cfg0.N) :
    (dat0 V c).flushed 4 t
      = ((cfg0.win 4).blk t).view.read (Elt Ideal) (sc0 (V c main_arg0) (V c main_arg4) (V c main_v14)) := by
  show (cfg0.win 4).cut (grid0.coords t) ((dat0 V c).after 4 t) = _
  rw [after0_4]
  unfold out0_4
  rw [View.canon_unit_zero hz2]
  simp only [View.ld_unit_zero (S := S5000x128) hz2, View.ld_unit_zero (S := S128x64) hz2]
  obtain ⟨e00, e01, e10, e11, e20, e21, e30, e31, e40, e41⟩ := idx0 t
  funext j
  obtain ⟨p, q, rfl⟩ : ∃ (p : Fin 5000) (q : Fin 64), j = ix2 p q := ⟨j 0, j 1, eq_ix2 j⟩
  show k0_pay2 (F := Ideal) (iblk0 V c 0 t) (iblk0 V c 1 t) (View.ld (iblk0 V c 2 t) r0_2) (ix2 p q)
    = sc0 (V c main_arg0) (V c main_arg4) (V c main_v14) (((cfg0.win 4).blk t).view.emb (ix2 p q))
  rw [Blocks.pay0_sc]
  unfold sc0 lin0
  congr 1
  · refine Finset.sum_congr rfl fun k _ => ?_
    congr 1
    · show V c main_arg0 (((cfg0.win 0).blk t).view.emb (ix2 p k)) = V c main_arg0 _
      congr 1; funext a; apply Fin.ext
      match a with
      | ⟨0, _⟩ =>
        show win0_0.index t (0 : Fin 2) * 5000 + 1 * p.val = win0_4.index t (0 : Fin 2) * 5000 + 1 * p.val
        omega
      | ⟨1, _⟩ =>
        show win0_0.index t (1 : Fin 2) * 128 + 1 * k.val = k.val
        omega
    · show V c main_arg4 (((cfg0.win 1).blk t).view.emb (ix2 k q)) = V c main_arg4 _
      congr 1; funext a; apply Fin.ext
      match a with
      | ⟨0, _⟩ =>
        show win0_1.index t (0 : Fin 2) * 128 + 1 * k.val = k.val
        omega
      | ⟨1, _⟩ =>
        show win0_1.index t (1 : Fin 2) * 64 + 1 * q.val = win0_4.index t (1 : Fin 2) * 64 + 1 * q.val
        omega
  · show V c main_v14 (((cfg0.win 2).blk t).view.emb (r0_2.idx (ix2 p (0 : Fin 1)))) = V c main_v14 _
    congr 1; funext a; apply Fin.ext
    match a with
    | ⟨0, _⟩ =>
      show win0_2.index t (0 : Fin 2) * 5000 + 1 * (0 + 1 * p.val) = win0_4.index t (0 : Fin 2) * 5000 + 1 * p.val
      omega
    | ⟨1, _⟩ =>
      show win0_2.index t (1 : Fin 2) * 2 + 1 * (0 + 1 * 0) = 0
      omega

theorem mem_blk0_3 (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v15_0).slice (win0_3.rect t)).set ↔ _
  rw [View.set_slice_whole, Rect.mem_set_unit]
  exact Iff.rfl

theorem cover0_3 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  let t : Fin cfg0.N := ⟨(i 0).val / 5000, by show (i 0).val / 5000 < 10; omega⟩
  have ht : t.val = (i 0).val / 5000 := rfl
  obtain ⟨e00, e01, e10, e11, e20, e21, e30, e31, e40, e41⟩ := idx0 t
  refine ⟨t, flush0_3 t, ?_⟩
  rw [mem_blk0_3]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 64 ≤ (i 1).val ∧ (i 1).val < win0_3.index t (1 : Fin 2) * 64 + 64
    omega

theorem mem_blk0_4 (t : Fin cfg0.N) (i : S50000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v15_1).slice (win0_4.rect t)).set ↔ _
  rw [View.set_slice_whole, Rect.mem_set_unit]
  exact Iff.rfl

theorem cover0_4 (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  let t : Fin cfg0.N := ⟨(i 0).val / 5000, by show (i 0).val / 5000 < 10; omega⟩
  have ht : t.val = (i 0).val / 5000 := rfl
  obtain ⟨e00, e01, e10, e11, e20, e21, e30, e31, e40, e41⟩ := idx0 t
  refine ⟨t, flush0_4 t, ?_⟩
  rw [mem_blk0_4]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 64 ≤ (i 1).val ∧ (i 1).val < win0_4.index t (1 : Fin 2) * 64 + 64
    omega

/-- After region 0 the plain-product array holds the rows' products, the scaled one the same rows scaled. -/
theorem arr0_3 (c : Dev nD) : (dat0 V c).arrAt 3 cfg0.N = lin0 (V c main_arg0) (V c main_arg4) :=
  (dat0 V c).arrAt_eq_of_cover 3 _ (fun t _ => flushed0_3 V c t) cover0_3

theorem arr0_4 (c : Dev nD) : (dat0 V c).arrAt 4 cfg0.N = sc0 (V c main_arg0) (V c main_arg4) (V c main_v14) :=
  (dat0 V c).arrAt_eq_of_cover 4 _ (fun t _ => flushed0_4 V c t) cover0_4

/-! ## Regions 1 and 2: the layer's combination -/

/-- Aggregate times the factor, plus the node's own entry times the factor's square, plus the bias. -/
def hid (A H : S50000x64.Idx → EReal) (D : S50000x2.Idx → EReal) (b : S1x64.Idx → EReal) (p : Fin 50000) (k : Fin 64) : EReal :=
  (A (ix2 p k) * D (ix2 p (0 : Fin 2)) + H (ix2 p k) * D (ix2 p (1 : Fin 2))) + b (ix2 (0 : Fin 1) k)

/-- The rectified combination's products with the second weight matrix. -/
def lin1 (A H : S50000x64.Idx → EReal) (D : S50000x2.Idx → EReal) (b : S1x64.Idx → EReal) (W : S64x64.Idx → EReal) :
    S50000x64.Idx → EReal :=
  fun i => ∑ k : Fin 64, max (hid A H D b (c0 i) k) 0 * W (ix2 k (c1 i))

/-- The same, each row times its entry of the first factor column. -/
def sc1 (A H : S50000x64.Idx → EReal) (D : S50000x2.Idx → EReal) (b : S1x64.Idx → EReal) (W : S64x64.Idx → EReal) :
    S50000x64.Idx → EReal :=
  fun i => lin1 A H D b W i * D (ix2 (c0 i) (0 : Fin 2))

/-- The combination itself as an array. -/
def fin2 (A H : S50000x64.Idx → EReal) (D : S50000x2.Idx → EReal) (b : S1x64.Idx → EReal) : S50000x64.Idx → EReal :=
  fun i => hid A H D b (c0 i) (c1 i)

/-- A block row's rectified combination and products, read against the whole arrays: the row's entries of the block
    arrays are the whole arrays' entries at the row's place `P`. -/
theorem lin1_row (x0 x1 : S5000x64.Idx → EReal) (v0 v2 : S5000x1.Idx → EReal) (x3 : S1x64.Idx → EReal) (x4 : S64x64.Idx → EReal)
    (A H : S50000x64.Idx → EReal) (D : S50000x2.Idx → EReal) (b : S1x64.Idx → EReal) (W : S64x64.Idx → EReal)
    (P : Fin 50000) (p : Fin 5000) (q Q : Fin 64)
    (l0 : ∀ k : Fin 64, x0 (ix2 p k) = A (ix2 P k)) (l1 : ∀ k : Fin 64, x1 (ix2 p k) = H (ix2 P k))
    (d0 : v0 (ix2 p (0 : Fin 1)) = D (ix2 P (0 : Fin 2))) (d1 : v2 (ix2 p (0 : Fin 1)) = D (ix2 P (1 : Fin 2)))
    (l3 : ∀ k : Fin 64, x3 (ix2 (0 : Fin 1) k) = b (ix2 (0 : Fin 1) k)) (l4 : ∀ k : Fin 64, x4 (ix2 k q) = W (ix2 k Q)) :
    (∑ k : Fin 64, max ((x0 (ix2 p k) * v0 (ix2 p (0 : Fin 1)) + x1 (ix2 p k) * v2 (ix2 p (0 : Fin 1))) + x3 (ix2 (0 : Fin 1) k)) 0
        * x4 (ix2 k q))
      = ∑ k : Fin 64, max (hid A H D b P k) 0 * W (ix2 k Q) := by
  unfold hid
  refine Finset.sum_congr rfl fun k _ => ?_
  rw [l0, l1, l3, l4, d0, d1]

theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0
    ∧ win1_6.index t (0 : Fin 2) = t.val
    ∧ win1_6.index t (1 : Fin 2) = 0 :=
  (by decide +kernel : ∀ t : Fin grid1.N, _)

set_option maxHeartbeats 1600000 in
theorem flushed1_5 (c : Dev nD) (t : Fin cfg1.N) :
    (dat1 V c).flushed 5 t
      = ((cfg1.win 5).blk t).view.read (Elt Ideal) (lin1 (V c main_v25) (V c main_v15_0) (V c main_v14) (V c main_v26) (V c main_arg6)) := by
  show (cfg1.win 5).cut (grid1.coords t) ((dat1 V c).after 5 t) = _
  rw [after1_5]
  unfold out1_5
  rw [View.canon_unit_zero hz2]
  simp only [View.ld_unit_zero (S := S5000x64) hz2, View.ld_unit_zero (S := S1x64) hz2, View.ld_unit_zero (S := S64x64) hz2]
  obtain ⟨e00, e01, e10, e11, e20, e21, e30, e31, e40, e41, e50, e51, e60, e61⟩ := idx1 t
  funext j
  obtain ⟨p, q, rfl⟩ : ∃ (p : Fin 5000) (q : Fin 64), j = ix2 p q := ⟨j 0, j 1, eq_ix2 j⟩
  show k1_pay2 (F := Ideal) (View.ld (iblk1 V c 2 t) r1_0) (View.ld (iblk1 V c 2 t) r1_1) (iblk1 V c 0 t) (iblk1 V c 1 t) (iblk1 V c 3 t) (iblk1 V c 4 t) (ix2 p q)
    = lin1 (V c main_v25) (V c main_v15_0) (V c main_v14) (V c main_v26) (V c main_arg6) (((cfg1.win 5).blk t).view.emb (ix2 p q))
  rw [Blocks.pay1_lin]
  unfold lin1
  refine lin1_row _ _ _ _ _ _ _ _ _ _ _ (c0 (((cfg1.win 5).blk t).view.emb (ix2 p q))) p q (c1 (((cfg1.win 5).blk t).view.emb (ix2 p q))) ?_ ?_ ?_ ?_ ?_ ?_
  · intro k
    show V c main_v25 (((cfg1.win 0).blk t).view.emb (ix2 p k)) = V c main_v25 _
    congr 1; funext a; apply Fin.ext
    match a with
    | ⟨0, _⟩ =>
      show win1_0.index t (0 : Fin 2) * 5000 + 1 * p.val = win1_5.index t (0 : Fin 2) * 5000 + 1 * p.val
      omega
    | ⟨1, _⟩ =>
      show win1_0.index t (1 : Fin 2) * 64 + 1 * k.val = k.val
      omega
  · intro k
    show V c main_v15_0 (((cfg1.win 1).blk t).view.emb (ix2 p k)) = V c main_v15_0 _
    congr 1; funext a; apply Fin.ext
    match a with
    | ⟨0, _⟩ =>
      show win1_1.index t (0 : Fin 2) * 5000 + 1 * p.val = win1_5.index t (0 : Fin 2) * 5000 + 1 * p.val
      omega
    | ⟨1, _⟩ =>
      show win1_1.index t (1 : Fin 2) * 64 + 1 * k.val = k.val
      omega
  · show V c main_v14 (((cfg1.win 2).blk t).view.emb (r1_0.idx (ix2 p (0 : Fin 1)))) = V c main_v14 _
    congr 1; funext a; apply Fin.ext
    match a with
    | ⟨0, _⟩ =>
      show win1_2.index t (0 : Fin 2) * 5000 + 1 * (0 + 1 * p.val) = win1_5.index t (0 : Fin 2) * 5000 + 1 * p.val
      omega
    | ⟨1, _⟩ =>
      show win1_2.index t (1 : Fin 2) * 2 + 1 * (0 + 1 * 0) = 0
      omega
  · show V c main_v14 (((cfg1.win 2).blk t).view.emb (r1_1.idx (ix2 p (0 : Fin 1)))) = V c main_v14 _
    congr 1; funext a; apply Fin.ext
    match a with
    | ⟨0, _⟩ =>
      show win1_2.index t (0 : Fin 2) * 5000 + 1 * (0 + 1 * p.val) = win1_5.index t (0 : Fin 2) * 5000 + 1 * p.val
      omega
    | ⟨1, _⟩ =>
      show win1_2.index t (1 : Fin 2) * 2 + 1 * (1 + 1 * 0) = 1
      omega
  · intro k
    show V c main_v26 (((cfg1.win 3).blk t).view.emb (ix2 (0 : Fin 1) k)) = V c main_v26 _
    congr 1; funext a; apply Fin.ext
    match a with
    | ⟨0, _⟩ =>
      show win1_3.index t (0 : Fin 2) * 1 + 1 * 0 = 0
      omega
    | ⟨1, _⟩ =>
      show win1_3.index t (1 : Fin 2) * 64 + 1 * k.val = k.val
      omega
  · intro k
    show V c main_arg6 (((cfg1.win 4).blk t).view.emb (ix2 k q)) = V c main_arg6 _
    congr 1; funext a; apply Fin.ext
    match a with
    | ⟨0, _⟩ =>
      show win1_4.index t (0 : Fin 2) * 64 + 1 * k.val = k.val
      omega
    | ⟨1, _⟩ =>
      show win1_4.index t (1 : Fin 2) * 64 + 1 * q.val = win1_5.index t (1 : Fin 2) * 64 + 1 * q.val
      omega

set_option maxHeartbeats 1600000 in
theorem flushed1_6 (c : Dev nD) (t : Fin cfg1.N) :
    (dat1 V c).flushed 6 t
      = ((cfg1.win 6).blk t).view.read (Elt Ideal) (sc1 (V c main_v25) (V c main_v15_0) (V c main_v14) (V c main_v26) (V c main_arg6)) := by
  show (cfg1.win 6).cut (grid1.coords t) ((dat1 V c).after 6 t) = _
  rw [after1_6]
  unfold out1_6
  rw [View.canon_unit_zero hz2]
  simp only [View.ld_unit_zero (S := S5000x64) hz2, View.ld_unit_zero (S := S1x64) hz2, View.ld_unit_zero (S := S64x64) hz2]
  obtain ⟨e00, e01, e10, e11, e20, e21, e30, e31, e40, e41, e50, e51, e60, e61⟩ := idx1 t
  funext j
  obtain ⟨p, q, rfl⟩ : ∃ (p : Fin 5000) (q : Fin 64), j = ix2 p q := ⟨j 0, j 1, eq_ix2 j⟩
  show k1_pay3 (F := Ideal) (View.ld (iblk1 V c 2 t) r1_0) (View.ld (iblk1 V c 2 t) r1_1) (iblk1 V c 0 t) (iblk1 V c 1 t) (iblk1 V c 3 t) (iblk1 V c 4 t) (ix2 p q)
    = sc1 (V c main_v25) (V c main_v15_0) (V c main_v14) (V c main_v26) (V c main_arg6) (((cfg1.win 6).blk t).view.emb (ix2 p q))
  rw [Blocks.pay1_sc]
  unfold sc1 lin1
  congr 1
  · refine lin1_row _ _ _ _ _ _ _ _ _ _ _ (c0 (((cfg1.win 6).blk t).view.emb (ix2 p q))) p q (c1 (((cfg1.win 6).blk t).view.emb (ix2 p q))) ?_ ?_ ?_ ?_ ?_ ?_
    · intro k
      show V c main_v25 (((cfg1.win 0).blk t).view.emb (ix2 p k)) = V c main_v25 _
      congr 1; funext a; apply Fin.ext
      match a with
      | ⟨0, _⟩ =>
        show win1_0.index t (0 : Fin 2) * 5000 + 1 * p.val = win1_6.index t (0 : Fin 2) * 5000 + 1 * p.val
        omega
      | ⟨1, _⟩ =>
        show win1_0.index t (1 : Fin 2) * 64 + 1 * k.val = k.val
        omega
    · intro k
      show V c main_v15_0 (((cfg1.win 1).blk t).view.emb (ix2 p k)) = V c main_v15_0 _
      congr 1; funext a; apply Fin.ext
      match a with
      | ⟨0, _⟩ =>
        show win1_1.index t (0 : Fin 2) * 5000 + 1 * p.val = win1_6.index t (0 : Fin 2) * 5000 + 1 * p.val
        omega
      | ⟨1, _⟩ =>
        show win1_1.index t (1 : Fin 2) * 64 + 1 * k.val = k.val
        omega
    · show V c main_v14 (((cfg1.win 2).blk t).view.emb (r1_0.idx (ix2 p (0 : Fin 1)))) = V c main_v14 _
      congr 1; funext a; apply Fin.ext
      match a with
      | ⟨0, _⟩ =>
        show win1_2.index t (0 : Fin 2) * 5000 + 1 * (0 + 1 * p.val) = win1_6.index t (0 : Fin 2) * 5000 + 1 * p.val
        omega
      | ⟨1, _⟩ =>
        show win1_2.index t (1 : Fin 2) * 2 + 1 * (0 + 1 * 0) = 0
        omega
    · show V c main_v14 (((cfg1.win 2).blk t).view.emb (r1_1.idx (ix2 p (0 : Fin 1)))) = V c main_v14 _
      congr 1; funext a; apply Fin.ext
      match a with
      | ⟨0, _⟩ =>
        show win1_2.index t (0 : Fin 2) * 5000 + 1 * (0 + 1 * p.val) = win1_6.index t (0 : Fin 2) * 5000 + 1 * p.val
        omega
      | ⟨1, _⟩ =>
        show win1_2.index t (1 : Fin 2) * 2 + 1 * (1 + 1 * 0) = 1
        omega
    · intro k
      show V c main_v26 (((cfg1.win 3).blk t).view.emb (ix2 (0 : Fin 1) k)) = V c main_v26 _
      congr 1; funext a; apply Fin.ext
      match a with
      | ⟨0, _⟩ =>
        show win1_3.index t (0 : Fin 2) * 1 + 1 * 0 = 0
        omega
      | ⟨1, _⟩ =>
        show win1_3.index t (1 : Fin 2) * 64 + 1 * k.val = k.val
        omega
    · intro k
      show V c main_arg6 (((cfg1.win 4).blk t).view.emb (ix2 k q)) = V c main_arg6 _
      congr 1; funext a; apply Fin.ext
      match a with
      | ⟨0, _⟩ =>
        show win1_4.index t (0 : Fin 2) * 64 + 1 * k.val = k.val
        omega
      | ⟨1, _⟩ =>
        show win1_4.index t (1 : Fin 2) * 64 + 1 * q.val = win1_6.index t (1 : Fin 2) * 64 + 1 * q.val
        omega
  · show V c main_v14 (((cfg1.win 2).blk t).view.emb (r1_0.idx (ix2 p (0 : Fin 1)))) = V c main_v14 _
    congr 1; funext a; apply Fin.ext
    match a with
    | ⟨0, _⟩ =>
      show win1_2.index t (0 : Fin 2) * 5000 + 1 * (0 + 1 * p.val) = win1_6.index t (0 : Fin 2) * 5000 + 1 * p.val
      omega
    | ⟨1, _⟩ =>
      show win1_2.index t (1 : Fin 2) * 2 + 1 * (0 + 1 * 0) = 0
      omega

theorem mem_blk1_5 (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v27_0).slice (win1_5.rect t)).set ↔ _
  rw [View.set_slice_whole, Rect.mem_set_unit]
  exact Iff.rfl

theorem cover1_5 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  let t : Fin cfg1.N := ⟨(i 0).val / 5000, by show (i 0).val / 5000 < 10; omega⟩
  have ht : t.val = (i 0).val / 5000 := rfl
  obtain ⟨e00, e01, e10, e11, e20, e21, e30, e31, e40, e41, e50, e51, e60, e61⟩ := idx1 t
  refine ⟨t, flush1_5 t, ?_⟩
  rw [mem_blk1_5]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

theorem mem_blk1_6 (t : Fin cfg1.N) (i : S50000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v27_1).slice (win1_6.rect t)).set ↔ _
  rw [View.set_slice_whole, Rect.mem_set_unit]
  exact Iff.rfl

theorem cover1_6 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  let t : Fin cfg1.N := ⟨(i 0).val / 5000, by show (i 0).val / 5000 < 10; omega⟩
  have ht : t.val = (i 0).val / 5000 := rfl
  obtain ⟨e00, e01, e10, e11, e20, e21, e30, e31, e40, e41, e50, e51, e60, e61⟩ := idx1 t
  refine ⟨t, flush1_6 t, ?_⟩
  rw [mem_blk1_6]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 64 ≤ (i 1).val ∧ (i 1).val < win1_6.index t (1 : Fin 2) * 64 + 64
    omega

theorem arr1_5 (c : Dev nD) : (dat1 V c).arrAt 5 cfg1.N = lin1 (V c main_v25) (V c main_v15_0) (V c main_v14) (V c main_v26) (V c main_arg6) :=
  (dat1 V c).arrAt_eq_of_cover 5 _ (fun t _ => flushed1_5 V c t) cover1_5

theorem arr1_6 (c : Dev nD) : (dat1 V c).arrAt 6 cfg1.N = sc1 (V c main_v25) (V c main_v15_0) (V c main_v14) (V c main_v26) (V c main_arg6) :=
  (dat1 V c).arrAt_eq_of_cover 6 _ (fun t _ => flushed1_6 V c t) cover1_6

theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

theorem flushed2_4 (c : Dev nD) (t : Fin cfg2.N) :
    (dat2 V c).flushed 4 t
      = ((cfg2.win 4).blk t).view.read (Elt Ideal) (fin2 (V c main_v37) (V c main_v27_0) (V c main_v14) (V c main_v38)) := by
  show (cfg2.win 4).cut (grid2.coords t) ((dat2 V c).after 4 t) = _
  rw [after2_4]
  unfold out2_4
  rw [View.canon_unit_zero hz2]
  simp only [View.ld_unit_zero (S := S5000x64) hz2, View.ld_unit_zero (S := S1x64) hz2]
  obtain ⟨e00, e01, e10, e11, e20, e21, e30, e31, e40, e41⟩ := idx2 t
  funext j
  obtain ⟨p, q, rfl⟩ : ∃ (p : Fin 5000) (q : Fin 64), j = ix2 p q := ⟨j 0, j 1, eq_ix2 j⟩
  show k2_pay1 (F := Ideal) (View.ld (iblk2 V c 2 t) r2_0) (View.ld (iblk2 V c 2 t) r2_1) (iblk2 V c 0 t) (iblk2 V c 1 t) (iblk2 V c 3 t) (ix2 p q)
    = fin2 (V c main_v37) (V c main_v27_0) (V c main_v14) (V c main_v38) (((cfg2.win 4).blk t).view.emb (ix2 p q))
  rw [Blocks.pay2]
  have d0 : View.ld (iblk2 V c 2 t) r2_0 (ix2 p (0 : Fin 1)) = V c main_v14 (ix2 (c0 (((cfg2.win 4).blk t).view.emb (ix2 p q))) (0 : Fin 2)) := by
    show V c main_v14 (((cfg2.win 2).blk t).view.emb (r2_0.idx (ix2 p (0 : Fin 1)))) = V c main_v14 _
    congr 1; funext a; apply Fin.ext
    match a with
    | ⟨0, _⟩ =>
      show win2_2.index t (0 : Fin 2) * 5000 + 1 * (0 + 1 * p.val) = win2_4.index t (0 : Fin 2) * 5000 + 1 * p.val
      omega
    | ⟨1, _⟩ =>
      show win2_2.index t (1 : Fin 2) * 2 + 1 * (0 + 1 * 0) = 0
      omega
  have d1 : View.ld (iblk2 V c 2 t) r2_1 (ix2 p (0 : Fin 1)) = V c main_v14 (ix2 (c0 (((cfg2.win 4).blk t).view.emb (ix2 p q))) (1 : Fin 2)) := by
    show V c main_v14 (((cfg2.win 2).blk t).view.emb (r2_1.idx (ix2 p (0 : Fin 1)))) = V c main_v14 _
    congr 1; funext a; apply Fin.ext
    match a with
    | ⟨0, _⟩ =>
      show win2_2.index t (0 : Fin 2) * 5000 + 1 * (0 + 1 * p.val) = win2_4.index t (0 : Fin 2) * 5000 + 1 * p.val
      omega
    | ⟨1, _⟩ =>
      show win2_2.index t (1 : Fin 2) * 2 + 1 * (1 + 1 * 0) = 1
      omega
  unfold fin2 hid
  have l0 : iblk2 V c 0 t (ix2 p q) = V c main_v37 (ix2 (c0 (((cfg2.win 4).blk t).view.emb (ix2 p q))) q) := by
    show V c main_v37 (((cfg2.win 0).blk t).view.emb (ix2 p q)) = V c main_v37 _
    congr 1; funext a; apply Fin.ext
    match a with
    | ⟨0, _⟩ =>
      show win2_0.index t (0 : Fin 2) * 5000 + 1 * p.val = win2_4.index t (0 : Fin 2) * 5000 + 1 * p.val
      omega
    | ⟨1, _⟩ =>
      show win2_0.index t (1 : Fin 2) * 64 + 1 * q.val = q.val
      omega
  have l1 : iblk2 V c 1 t (ix2 p q) = V c main_v27_0 (ix2 (c0 (((cfg2.win 4).blk t).view.emb (ix2 p q))) q) := by
    show V c main_v27_0 (((cfg2.win 1).blk t).view.emb (ix2 p q)) = V c main_v27_0 _
    congr 1; funext a; apply Fin.ext
    match a with
    | ⟨0, _⟩ =>
      show win2_1.index t (0 : Fin 2) * 5000 + 1 * p.val = win2_4.index t (0 : Fin 2) * 5000 + 1 * p.val
      omega
    | ⟨1, _⟩ =>
      show win2_1.index t (1 : Fin 2) * 64 + 1 * q.val = q.val
      omega
  have l3 : iblk2 V c 3 t (ix2 (0 : Fin 1) q) = V c main_v38 (ix2 (0 : Fin 1) q) := by
    show V c main_v38 (((cfg2.win 3).blk t).view.emb (ix2 (0 : Fin 1) q)) = V c main_v38 _
    congr 1; funext a; apply Fin.ext
    match a with
    | ⟨0, _⟩ =>
      show win2_3.index t (0 : Fin 2) * 1 + 1 * 0 = 0
      omega
    | ⟨1, _⟩ =>
      show win2_3.index t (1 : Fin 2) * 64 + 1 * q.val = q.val
      omega
  have hc1 : c1 (((cfg2.win 4).blk t).view.emb (ix2 p q)) = q := by
    apply Fin.ext
    show win2_4.index t (1 : Fin 2) * 64 + 1 * q.val = q.val
    omega
  rw [l0, l1, l3, d0, d1, hc1]

theorem mem_blk2_4 (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v39).slice (win2_4.rect t)).set ↔ _
  rw [View.set_slice_whole, Rect.mem_set_unit]
  exact Iff.rfl

theorem cover2_4 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  let t : Fin cfg2.N := ⟨(i 0).val / 5000, by show (i 0).val / 5000 < 10; omega⟩
  have ht : t.val = (i 0).val / 5000 := rfl
  obtain ⟨e00, e01, e10, e11, e20, e21, e30, e31, e40, e41⟩ := idx2 t
  refine ⟨t, flush2_4 t, ?_⟩
  rw [mem_blk2_4]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 64 ≤ (i 1).val ∧ (i 1).val < win2_4.index t (1 : Fin 2) * 64 + 64
    omega

theorem arr2_4 (c : Dev nD) : (dat2 V c).arrAt 4 cfg2.N = fin2 (V c main_v37) (V c main_v27_0) (V c main_v14) (V c main_v38) :=
  (dat2 V c).arrAt_eq_of_cover 4 _ (fun t _ => flushed2_4 V c t) cover2_4

/-! ## Region 3: the classifier -/

/-- The pooled rows' products with the classifier's matrix, plus its bias row. -/
def out3 (P : S256x64.Idx → EReal) (W : S64x10.Idx → EReal) (b : S1x10.Idx → EReal) : S256x10.Idx → EReal :=
  fun i => (∑ k : Fin 64, P (ix2 (c0 i) k) * W (ix2 k (c1 i))) + b (ix2 (0 : Fin 1) (c1 i))

theorem idx3 : ∀ t : Fin cfg3.N, win3_0.index t (0 : Fin 2) = 0
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0 :=
  (by decide +kernel : ∀ t : Fin grid3.N, _)

set_option maxHeartbeats 2000000 in
theorem flushed3_3 (c : Dev nD) (t : Fin cfg3.N) :
    (dat3 V c).flushed 3 t
      = ((cfg3.win 3).blk t).view.read (Elt Ideal) (out3 (V c main_v51) (V c main_arg8) (V c main_v52)) := by
  show (cfg3.win 3).cut (grid3.coords t) ((dat3 V c).after 3 t) = _
  rw [after3_3]
  unfold out3_3
  rw [View.canon_unit_zero hz2]
  simp only [View.ld_unit_zero (S := S256x64) hz2, View.ld_unit_zero (S := S64x10) hz2, View.ld_unit_zero (S := S1x10) hz2]
  obtain ⟨e00, e01, e10, e11, e20, e21, e30, e31⟩ := idx3 t
  funext j
  obtain ⟨g, jj, rfl⟩ : ∃ (g : Fin 256) (jj : Fin 10), j = ix2 g jj := ⟨j 0, j 1, eq_ix2 j⟩
  show k3_pay1 (F := Ideal) (iblk3 V c 0 t) (iblk3 V c 1 t) (iblk3 V c 2 t) (ix2 g jj)
    = out3 (V c main_v51) (V c main_arg8) (V c main_v52) (((cfg3.win 3).blk t).view.emb (ix2 g jj))
  rw [Blocks.pay3]
  unfold out3
  congr 1
  · refine Finset.sum_congr rfl fun k _ => ?_
    congr 1
    · show V c main_v51 (((cfg3.win 0).blk t).view.emb (ix2 g k)) = V c main_v51 _
      congr 1; funext a; apply Fin.ext
      match a with
      | ⟨0, _⟩ =>
        show win3_0.index t (0 : Fin 2) * 256 + 1 * g.val = win3_3.index t (0 : Fin 2) * 256 + 1 * g.val
        omega
      | ⟨1, _⟩ =>
        show win3_0.index t (1 : Fin 2) * 64 + 1 * k.val = k.val
        omega
    · show V c main_arg8 (((cfg3.win 1).blk t).view.emb (ix2 k jj)) = V c main_arg8 _
      congr 1; funext a; apply Fin.ext
      match a with
      | ⟨0, _⟩ =>
        show win3_1.index t (0 : Fin 2) * 64 + 1 * k.val = k.val
        omega
      | ⟨1, _⟩ =>
        show win3_1.index t (1 : Fin 2) * 10 + 1 * jj.val = win3_3.index t (1 : Fin 2) * 10 + 1 * jj.val
        omega
  · show V c main_v52 (((cfg3.win 2).blk t).view.emb (ix2 (0 : Fin 1) jj)) = V c main_v52 _
    congr 1; funext a; apply Fin.ext
    match a with
    | ⟨0, _⟩ =>
      show win3_2.index t (0 : Fin 2) * 1 + 1 * 0 = 0
      omega
    | ⟨1, _⟩ =>
      show win3_2.index t (1 : Fin 2) * 10 + 1 * jj.val = win3_3.index t (1 : Fin 2) * 10 + 1 * jj.val
      omega

theorem mem_blk3_3 (t : Fin cfg3.N) (i : S256x10.Idx) :
    i ∈ ((cfg3.win 3).blk t).view.set ↔ ∀ a : Fin 2, win3_3.index t a * S256x10.size a ≤ (i a).val
      ∧ (i a).val < win3_3.index t a * S256x10.size a + S256x10.size a := by
  show i ∈ ((View.whole main_v53).slice (win3_3.rect t)).set ↔ _
  rw [View.set_slice_whole, Rect.mem_set_unit]
  exact Iff.rfl

theorem cover3_3' (i : S256x10.Idx) :
    ∃ t : Fin cfg3.N, (cfg3.win 3).flush t = true ∧ i ∈ ((cfg3.win 3).blk t).view.set := by
  have hi0 : (i 0).val < 256 := (i 0).isLt
  have hi1 : (i 1).val < 10 := (i 1).isLt
  let t : Fin cfg3.N := ⟨0, by decide⟩
  obtain ⟨e00, e01, e10, e11, e20, e21, e30, e31⟩ := idx3 t
  refine ⟨t, flush3_3 t, ?_⟩
  rw [mem_blk3_3]
  intro a
  match a with
  | ⟨0, _⟩ =>
    show win3_3.index t (0 : Fin 2) * 256 ≤ (i 0).val ∧ (i 0).val < win3_3.index t (0 : Fin 2) * 256 + 256
    omega
  | ⟨1, _⟩ =>
    show win3_3.index t (1 : Fin 2) * 10 ≤ (i 1).val ∧ (i 1).val < win3_3.index t (1 : Fin 2) * 10 + 10
    omega

theorem arr3_3 (c : Dev nD) : (dat3 V c).arrAt 3 cfg3.N = out3 (V c main_v51) (V c main_arg8) (V c main_v52) :=
  (dat3 V c).arrAt_eq_of_cover 3 _ (fun t _ => flushed3_3 V c t) cover3_3'

end Cert.KernelIdeal.Regions

end
-- ==== Proof.LibGatherVec.lean ====
/-
  A gather of single entries of a vector at a column of start indices, read at an index.

  `x[idx]` for a flat array `x : [N]` and an integer array `idx : [M]` reaches the host as a gather whose start indices are
  the column `[M, 1]`: no offset axis, the operand's one axis collapsed, slices of one entry, the index vector along the
  column's second axis. Result entry `s` is `x` at the start index `idx[s, 0]`, read as a signed integer and clamped into
  `[0, N − 1]`, as every start index of a gather is clamped.
-/
import Idealize.ShloMosaic.Lib.ValueIdx

noncomputable section

namespace Cert.GatherVec

open Idealize.ShloMosaic Idealize.ShloMosaic.ValueIdx

variable {α : Type}

/-- Those dimension numbers for an operand `[N]`, start indices `[M, 1]` and a result `[M]`. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `s`: the operand at the start index `idx[s, 0]`, read signed and clamped into `[0, N − 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (s : Fin M) :
    Host.gather (vecDims N M wf) x idx (ix1 s)
      = x (ix1 ⟨min (idx (ix2 s (0 : Fin 1))).toInt.toNat (N - 1), by omega⟩) := by
  unfold Host.gather
  congr 1
  funext a
  obtain rfl : a = 0 := Subsingleton.elim _ _
  refine Fin.ext ?_
  show (vecDims N M wf).start (ix1 s) idx 0 + (vecDims N M wf).batchCoord (ix1 s) 0 + (vecDims N M wf).offCoord (ix1 s) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 s) ⟨List.idxOf (0 : Fin 1) (vecDims N M wf).startIndexMap,
      List.idxOf_lt_length_iff.2 (List.mem_singleton.mpr rfl)⟩ = ix2 s (0 : Fin 1) := by
    funext b; refine Fin.ext ?_
    match b with
    | ⟨0, _⟩ => rfl
    | ⟨1, _⟩ => rfl
  rw [hsi]
  rfl

end Cert.GatherVec

end
-- ==== Proof.LibGatherRows.lean ====
/-
  A gather of whole rows of a rank-2 array at a column of start indices, read at an index.

  `x[idx]` for an array `x : [N, C]` and an integer array `idx : [M]` reaches the host as a gather whose start indices are
  the column `[M, 1]`: the result's second axis is the one offset axis, the operand's first axis is collapsed and is the
  one the start index names, slices are one row `[1, C]`, the index vector lies along the column's second axis. Result
  entry `(s, q)` is `x` at row `idx[s, 0]`, read as a signed integer and clamped into `[0, N − 1]` as every start index of
  a gather is clamped, and column `q`. The dimension numbers enter through their fields, so any record with these fields
  reads this way; the gather of single entries of a vector is restated in the same form.
-/
import Idealize.ShloMosaic.Lib.ValueIdx
import proofs.«175961_j41618233099022_2_alg».proof.Proof.LibGatherVec

noncomputable section

namespace Cert.GatherRows

open Idealize.ShloMosaic Idealize.ShloMosaic.ValueIdx

variable {α : Type}

/-- Two records of gather dimension numbers with the same fields are the same record. -/
theorem gatherDims_eq {s si t : Shape} (d d' : GatherDims s si t) (h1 : d.offsetDims = d'.offsetDims)
    (h2 : d.collapsedSliceDims = d'.collapsedSliceDims) (h3 : d.operandBatchingDims = d'.operandBatchingDims)
    (h4 : d.startIndicesBatchingDims = d'.startIndicesBatchingDims) (h5 : d.startIndexMap = d'.startIndexMap)
    (h6 : d.indexVectorDim = d'.indexVectorDim) (h7 : d.sliceSizes = d'.sliceSizes) : d = d' := by
  obtain ⟨od, cd, ob, sb, sm, iv, ss, wf⟩ := d
  obtain ⟨od', cd', ob', sb', sm', iv', ss', wf'⟩ := d'
  dsimp only at h1 h2 h3 h4 h5 h6 h7
  subst h1 h2 h3 h4 h5 h6 h7
  rfl

/-- THE GATHER OF ROWS READ AT `(s, q)`: the operand at row `idx[s, 0]`, read signed and clamped into `[0, N − 1]`, and
    column `q`. -/
theorem gather_rows_apply {N C M w : Nat} (hN : 0 < N) (d : GatherDims ⟨2, ![N, C]⟩ ⟨2, ![M, 1]⟩ ⟨2, ![M, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![M, 1]⟩ w) (s : Fin M) (q : Fin C) :
    Host.gather d x idx (ix2 s q)
      = x (ix2 ⟨min (idx (ix2 s (0 : Fin 1))).toInt.toNat (N - 1), by omega⟩ q) := by
  obtain ⟨od, cd, ob, sb, sm, iv, ss, wf⟩ := d
  dsimp only at h1 h2 h3 h4 h5 h6 h7
  subst h1 h2 h3 h4 h5 h6 h7
  generalize hD : (⟨[1], [0], [], [], [0], 1, ![1, C], wf⟩ : GatherDims ⟨2, ![N, C]⟩ ⟨2, ![M, 1]⟩ ⟨2, ![M, C]⟩) = D
  have hsm : D.startIndexMap = [0] := by subst hD; rfl
  have hob : D.operandBatchingDims = [] := by subst hD; rfl
  have hcd : D.collapsedSliceDims = [0] := by subst hD; rfl
  unfold Host.gather
  congr 1
  funext a
  refine Fin.ext ?_
  match a with
  | ⟨0, _⟩ =>
    show D.start (ix2 s q) idx 0 + D.batchCoord (ix2 s q) 0 + D.offCoord (ix2 s q) 0 = _
    rw [GatherDims.batchCoord_eq_zero _ _ _ (by rw [hob]; exact List.not_mem_nil),
      GatherDims.offCoord_eq_zero _ _ _ (fun h => ((GatherDims.mem_sKept _ _).mp h).1 (by rw [hcd]; exact List.mem_singleton.mpr rfl))]
    simp only [Nat.add_zero]
    subst hD
    unfold GatherDims.start
    rw [dif_pos (List.mem_singleton.mpr rfl)]
    have hsi : (⟨[1], [0], [], [], [0], 1, ![1, C], wf⟩ : GatherDims ⟨2, ![N, C]⟩ ⟨2, ![M, 1]⟩ ⟨2, ![M, C]⟩).siIdx (ix2 s q)
        ⟨List.idxOf (0 : Fin 2) [0], List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    show D.start (ix2 s q) idx 1 + D.batchCoord (ix2 s q) 1 + D.offCoord (ix2 s q) 1 = q.val
    rw [GatherDims.batchCoord_eq_zero _ _ _ (by rw [hob]; exact List.not_mem_nil)]
    have hst : D.start (ix2 s q) idx 1 = 0 := by
      unfold GatherDims.start
      rw [dif_neg (by rw [hsm]; exact fun hm => Nat.one_ne_zero (congrArg Fin.val (List.mem_singleton.mp hm)))]
    rw [hst]
    subst hD
    unfold GatherDims.offCoord
    rw [dif_pos ((GatherDims.mem_sKept _ _).mpr
      ⟨fun hm => Nat.one_ne_zero (congrArg Fin.val (List.mem_singleton.mp hm)), List.not_mem_nil⟩)]
    simp only [Nat.zero_add, Nat.add_zero]
    rfl

/-- THE GATHER OF ENTRIES OF A VECTOR READ AT `s`, the dimension numbers given by their fields: the operand at the start
    index `idx[s, 0]`, read signed and clamped into `[0, N − 1]`. -/
theorem gather_vec_apply' {N M w : Nat} (hN : 0 < N) (d : GatherDims ⟨1, ![N]⟩ ⟨2, ![M, 1]⟩ ⟨1, ![M]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![M, 1]⟩ w) (s : Fin M) :
    Host.gather d x idx (ix1 s) = x (ix1 ⟨min (idx (ix2 s (0 : Fin 1))).toInt.toNat (N - 1), by omega⟩) := by
  obtain ⟨od, cd, ob, sb, sm, iv, ss, wf⟩ := d
  dsimp only at h1 h2 h3 h4 h5 h6 h7
  subst h1 h2 h3 h4 h5 h6 h7
  exact Cert.GatherVec.gather_vec_apply hN wf x idx s

end Cert.GatherRows

end
-- ==== Proof.LibSegmentSum.lean ====
/-
  A segment sum over edges, read at one entry: the accumulating scatter as a plain sum over edges.

  A segment sum scatters one update per edge into an operand and adds. Two shapes occur. ROWS: updates `[M, C]` go into
  an operand `[N, C]` at a column `[M, 1]` of scatter indices; the updates' second axis is the one window axis, the
  operand's first axis is inserted and is the one the scatter index names, and the index vector lies along the column's
  second axis. VECTOR: updates `[M]` go into an operand `[N]` at the same column of scatter indices; there is no window
  axis, the operand's only axis is inserted and named by the scatter index.

  An update lands at start plus window coordinate on every operand axis. On the named axis the start is the edge's scatter
  index read as a SIGNED integer, not clamped, and the window coordinate is zero; on the rows' column axis the start is
  zero and the window coordinate is the update's column. An update whose landing place is outside the operand is dropped.
  Hence the update of edge `e` (in column `q`) lands on row `p` (column `q'`) exactly when the scatter index of `e`, read
  signed, equals `p` (and `q = q'`): a negative or too large index names no row and contributes nothing.

  At the exact-arithmetic instance the accumulating scatter at an entry is that entry plus the sum of all updates landing
  on it. Reindexing the landing updates by their edge (the map `e ↦ (e, q)`, resp. `e ↦ (e)`, is a bijection from the
  edges whose index is `p` onto the updates landing on the entry) gives the scatter at `(p, q)` as
  `x[p, q] + ∑ over edges e with idx[e, 0] = p of upd[e, q]`, and at `p` as `x[p] + ∑ over the same edges of upd[e]`.

  The dimension numbers enter through their fields, so the statements apply to any record with those fields.
-/
import Idealize.ShloMosaic.PureOps
import Idealize.ShloMosaic.Lib.ValueIdx
import Idealize.ShloMosaic.PureOps.Ideal

noncomputable section

namespace Cert.SegmentSum

open Idealize.ShloMosaic Idealize.ShloMosaic.ValueIdx

/-! ## Rows: updates `[M, C]` into an operand `[N, C]` -/

/-- Rows: the window start on the row axis is the scatter index of the edge, read signed. -/
theorem rows_start_zero {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C) :
    d.start (ix2 e q) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  have hsi : (⟨[1], [0], [0], 1, wf⟩ : ScatterDims ⟨2, ![N, C]⟩ ⟨2, ![M, 1]⟩ ⟨2, ![M, C]⟩).siIdx (ix2 e q)
      ⟨List.idxOf (0 : Fin 2) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Rows: the column axis is not named by the scatter index, so its window start is zero. -/
theorem rows_start_one {N C M w : Nat} (d : ScatterDims ⟨2, ![N, C]⟩ ⟨2, ![M, 1]⟩ ⟨2, ![M, C]⟩)
    (h3 : d.scatterDimsToOperandDims = [0]) (idx : IVec ⟨2, ![M, 1]⟩ w) (j : (⟨2, ![M, C]⟩ : Shape).Idx) :
    d.start j idx 1 = 0 := by
  unfold ScatterDims.start
  rw [dif_neg (by rw [h3]; simp)]

/-- Rows: the row axis is inserted, so its window coordinate is zero. -/
theorem rows_window_zero {N C M : Nat} (d : ScatterDims ⟨2, ![N, C]⟩ ⟨2, ![M, 1]⟩ ⟨2, ![M, C]⟩)
    (h2 : d.insertedWindowDims = [0]) (j : (⟨2, ![M, C]⟩ : Shape).Idx) : d.window j 0 = 0 := by
  unfold ScatterDims.window
  rw [dif_neg (by simp [ScatterDims.sKept, Shape.kept, h2])]

/-- Rows: the window coordinate on the column axis is the update's column. -/
theorem rows_window_one {N C M : Nat} (d : ScatterDims ⟨2, ![N, C]⟩ ⟨2, ![M, 1]⟩ ⟨2, ![M, C]⟩)
    (h1 : d.updateWindowDims = [1]) (h2 : d.insertedWindowDims = [0]) (e : Fin M) (q : Fin C) :
    d.window (ix2 e q) 1 = q.val := by
  obtain ⟨uw, iw, sd, iv, wf⟩ := d
  dsimp only at h1 h2
  subst h1 h2
  unfold ScatterDims.window
  rw [dif_pos (by simp [ScatterDims.sKept, Shape.kept])]
  rfl

/-- ROWS, WHERE AN UPDATE LANDS: the update at `(e, q)` lands on the entry `(p, q')` exactly when the scatter index of
    edge `e`, read signed, is the row `p`, and the columns agree. -/
theorem rows_lands_iff {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C) (p : Fin N) (q' : Fin C) :
    d.resultIdx? (ix2 e q) idx = some (ix2 p q') ↔ (idx (ix2 e (0 : Fin 1))).toInt = (p.val : Int) ∧ q = q' := by
  have hs0 := rows_start_zero d h1 h2 h3 h4 idx e q
  have hs1 := rows_start_one d h3 idx (ix2 e q)
  have hw0 := rows_window_zero d h2 (ix2 e q)
  have hw1 := rows_window_one d h1 h2 e q
  unfold ScatterDims.resultIdx?
  constructor
  · intro h
    split at h
    · rename_i hb
      have hi := Option.some.inj h
      have b0 := (hb 0).1
      have e0 : (d.start (ix2 e q) idx 0 + (d.window (ix2 e q) 0 : Int)).toNat = p.val :=
        congrArg (fun f : (⟨2, ![N, C]⟩ : Shape).Idx => (f 0).val) hi
      have e1 : (d.start (ix2 e q) idx 1 + (d.window (ix2 e q) 1 : Int)).toNat = q'.val :=
        congrArg (fun f : (⟨2, ![N, C]⟩ : Shape).Idx => (f 1).val) hi
      rw [hs0, hw0] at e0 b0
      rw [hs1, hw1] at e1
      exact ⟨by omega, Fin.ext (by omega)⟩
    · exact absurd h (by simp)
  · rintro ⟨ht, rfl⟩
    have hb : ∀ a, 0 ≤ d.start (ix2 e q) idx a + d.window (ix2 e q) a ∧
        d.start (ix2 e q) idx a + d.window (ix2 e q) a < (⟨2, ![N, C]⟩ : Shape).size a := by
      intro a
      match a with
      | ⟨0, _⟩ =>
        show 0 ≤ d.start (ix2 e q) idx 0 + (d.window (ix2 e q) 0 : Int) ∧
          d.start (ix2 e q) idx 0 + (d.window (ix2 e q) 0 : Int) < (N : Int)
        rw [hs0, hw0, ht]; have := p.isLt; omega
      | ⟨1, _⟩ =>
        show 0 ≤ d.start (ix2 e q) idx 1 + (d.window (ix2 e q) 1 : Int) ∧
          d.start (ix2 e q) idx 1 + (d.window (ix2 e q) 1 : Int) < (C : Int)
        rw [hs1, hw1]; have := q.isLt; omega
    rw [dif_pos hb]
    congr 1
    funext a; refine Fin.ext ?_
    match a with
    | ⟨0, _⟩ =>
      show (d.start (ix2 e q) idx 0 + (d.window (ix2 e q) 0 : Int)).toNat = p.val
      rw [hs0, hw0, ht]; omega
    | ⟨1, _⟩ =>
      show (d.start (ix2 e q) idx 1 + (d.window (ix2 e q) 1 : Int)).toNat = q.val
      rw [hs1, hw1]; omega

/-- ROWS, THE SEGMENT SUM AT AN ENTRY: the accumulating scatter at `(p, q)` is the operand's entry plus the sum, over the
    edges whose scatter index read signed is the row `p`, of the updates' entries in column `q`. -/
theorem segSumRows_apply {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (x : FVec Ideal ⟨2, ![N, C]⟩ .f32)
    (upd : FVec Ideal ⟨2, ![M, C]⟩ .f32) (p : Fin N) (q : Fin C) :
    Host.scatterAdd (F := Ideal) d x idx upd (ix2 p q) = x (ix2 p q) +
      ∑ e ∈ Finset.univ.filter (fun e : Fin M => (idx (ix2 e (0 : Fin 1))).toInt = (p.val : Int)), upd (ix2 e q) := by
  show x (ix2 p q) + ∑ j ∈ Finset.univ.filter (fun j => d.resultIdx? j idx = some (ix2 p q)), upd j = _
  congr 1
  symm
  refine Finset.sum_nbij' (fun e : Fin M => ix2 e q) (fun j : (⟨2, ![M, C]⟩ : Shape).Idx => (j 0 : Fin M)) ?_ ?_ ?_ ?_ ?_
  · intro e he
    exact Finset.mem_filter.2 ⟨Finset.mem_univ _,
      (rows_lands_iff d h1 h2 h3 h4 idx e q p q).2 ⟨(Finset.mem_filter.1 he).2, rfl⟩⟩
  · intro j hj
    have hj2 := (Finset.mem_filter.1 hj).2
    rw [eq_ix2 j] at hj2
    exact Finset.mem_filter.2 ⟨Finset.mem_univ _, ((rows_lands_iff d h1 h2 h3 h4 idx (j 0) (j 1) p q).1 hj2).1⟩
  · intro e _
    rfl
  · intro j hj
    have hj2 := (Finset.mem_filter.1 hj).2
    rw [eq_ix2 j] at hj2
    have hq := ((rows_lands_iff d h1 h2 h3 h4 idx (j 0) (j 1) p q).1 hj2).2
    show ix2 (j 0) q = j
    rw [← hq]
    exact (eq_ix2 j).symm
  · intro e _
    rfl

/-! ## Vector: updates `[M]` into an operand `[N]` -/

/-- Vector: the window start on the only axis is the scatter index of the edge, read signed. -/
theorem vec_start_zero {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (e : Fin M) :
    d.start (ix1 e) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  have hsi : (⟨[], [0], [0], 1, wf⟩ : ScatterDims ⟨1, ![N]⟩ ⟨2, ![M, 1]⟩ ⟨1, ![M]⟩).siIdx (ix1 e)
      ⟨List.idxOf (0 : Fin 1) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Vector: the only axis is inserted, so its window coordinate is zero. -/
theorem vec_window_zero {N M : Nat} (d : ScatterDims ⟨1, ![N]⟩ ⟨2, ![M, 1]⟩ ⟨1, ![M]⟩)
    (h2 : d.insertedWindowDims = [0]) (j : (⟨1, ![M]⟩ : Shape).Idx) : d.window j 0 = 0 := by
  unfold ScatterDims.window
  rw [dif_neg (by simp [ScatterDims.sKept, Shape.kept, h2])]

/-- VECTOR, WHERE AN UPDATE LANDS: the update of edge `e` lands on the entry `p` exactly when the scatter index of `e`,
    read signed, is `p`. -/
theorem vec_lands_iff {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (e : Fin M) (p : Fin N) :
    d.resultIdx? (ix1 e) idx = some (ix1 p) ↔ (idx (ix2 e (0 : Fin 1))).toInt = (p.val : Int) := by
  have hs0 := vec_start_zero d h1 h2 h3 h4 idx e
  have hw0 := vec_window_zero d h2 (ix1 e)
  unfold ScatterDims.resultIdx?
  constructor
  · intro h
    split at h
    · rename_i hb
      have hi := Option.some.inj h
      have b0 := (hb 0).1
      have e0 : (d.start (ix1 e) idx 0 + (d.window (ix1 e) 0 : Int)).toNat = p.val :=
        congrArg (fun f : (⟨1, ![N]⟩ : Shape).Idx => (f 0).val) hi
      rw [hs0, hw0] at e0 b0
      omega
    · exact absurd h (by simp)
  · intro ht
    have hb : ∀ a, 0 ≤ d.start (ix1 e) idx a + d.window (ix1 e) a ∧
        d.start (ix1 e) idx a + d.window (ix1 e) a < (⟨1, ![N]⟩ : Shape).size a := by
      intro a
      match a with
      | ⟨0, _⟩ =>
        show 0 ≤ d.start (ix1 e) idx 0 + (d.window (ix1 e) 0 : Int) ∧
          d.start (ix1 e) idx 0 + (d.window (ix1 e) 0 : Int) < (N : Int)
        rw [hs0, hw0, ht]; have := p.isLt; omega
    rw [dif_pos hb]
    congr 1
    funext a; refine Fin.ext ?_
    match a with
    | ⟨0, _⟩ =>
      show (d.start (ix1 e) idx 0 + (d.window (ix1 e) 0 : Int)).toNat = p.val
      rw [hs0, hw0, ht]; omega

/-- VECTOR, THE SEGMENT SUM AT AN ENTRY: the accumulating scatter at `p` is the operand's entry plus the sum, over the
    edges whose scatter index read signed is `p`, of the updates' entries. -/
theorem segSumVec_apply {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (x : FVec Ideal ⟨1, ![N]⟩ .f32)
    (upd : FVec Ideal ⟨1, ![M]⟩ .f32) (p : Fin N) :
    Host.scatterAdd (F := Ideal) d x idx upd (ix1 p) = x (ix1 p) +
      ∑ e ∈ Finset.univ.filter (fun e : Fin M => (idx (ix2 e (0 : Fin 1))).toInt = (p.val : Int)), upd (ix1 e) := by
  show x (ix1 p) + ∑ j ∈ Finset.univ.filter (fun j => d.resultIdx? j idx = some (ix1 p)), upd j = _
  congr 1
  symm
  refine Finset.sum_nbij' (fun e : Fin M => ix1 e) (fun j : (⟨1, ![M]⟩ : Shape).Idx => (j 0 : Fin M)) ?_ ?_ ?_ ?_ ?_
  · intro e he
    exact Finset.mem_filter.2 ⟨Finset.mem_univ _,
      (vec_lands_iff d h1 h2 h3 h4 idx e p).2 (Finset.mem_filter.1 he).2⟩
  · intro j hj
    have hj2 := (Finset.mem_filter.1 hj).2
    rw [eq_ix1 j] at hj2
    exact Finset.mem_filter.2 ⟨Finset.mem_univ _, (vec_lands_iff d h1 h2 h3 h4 idx (j 0) p).1 hj2⟩
  · intro e _
    rfl
  · intro j _
    exact (eq_ix1 j).symm
  · intro e _
    rfl

end Cert.SegmentSum

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«175961_j41618233099022_2_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibGcnFold.lean ====
/-
  Folding a symmetric degree normalisation out of a sum over edges, on the extended reals.

  A graph convolution scales the message of edge `e` by `d (src e) · d (dst e)` and sums the messages over the edges
  that arrive at a node `p`. On those edges `d (dst e)` is the one number `c = d p`, so it can be taken out of the sum:
  `∑ t e · (d e · c) = c · ∑ t e · d e`. On the extended reals a product distributes over a sum only under a
  condition; here the factor is a nonnegative finite number (a reciprocal square root of a count, or zero), and for such
  a factor it does, whatever the summands are. No finiteness of the messages is needed.
-/
import Mathlib.Data.EReal.Operations
import Idealize.ShloMosaic.PureOps.Ideal

noncomputable section

namespace Cert.GcnFold

open Idealize.ShloMosaic

variable {ι : Type}

/-- A nonnegative finite factor distributes over a finite sum of extended reals. -/
theorem mul_sum (s : Finset ι) (c : EReal) (h0 : 0 ≤ c) (ht : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 ht, ih]

/-- THE FOLD: the factor `c` common to the edges of the sum, taken out of it. The sums start from zero, as an
    accumulating scatter into a zero array reads. -/
theorem fold_out (s : Finset ι) (c : EReal) (h0 : 0 ≤ c) (ht : c ≠ ⊤) (t d d' : ι → EReal)
    (hd : ∀ e ∈ s, d' e = c) :
    c * (0 + ∑ e ∈ s, t e * d e) = 0 + ∑ e ∈ s, t e * (d e * d' e) := by
  rw [zero_add, zero_add, mul_sum s c h0 ht]
  refine Finset.sum_congr rfl fun e he => ?_
  rw [hd e he, mul_left_comm, mul_comm c (d e)]

/-- A guarded reciprocal square root — `1/√x` where `x > 0`, zero elsewhere — is a nonnegative finite number for every
    extended real `x`: at `+∞` the reciprocal square root is `0`, and at a positive real it is a positive real. -/
theorem guarded_rsqrt (x : EReal) :
    0 ≤ Scalar.select (Ideal.cmp .ogt x 0) (Ideal.rsqrt x) (0 : EReal) ∧
      Scalar.select (Ideal.cmp .ogt x 0) (Ideal.rsqrt x) (0 : EReal) ≠ ⊤ := by
  unfold Scalar.select Ideal.cmp
  by_cases h : (0 : EReal) < x
  · have h1 : BitVec.ofBool (decide ((0 : EReal) < x)) = 1 := by rw [decide_eq_true h]; rfl
    dsimp only
    rw [if_pos h1]
    induction x using EReal.rec with
    | bot => exact absurd h (by simp)
    | top => rw [Ideal.rsqrt_top]; exact ⟨le_refl 0, EReal.zero_ne_top⟩
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · have h1 : ¬ BitVec.ofBool (decide ((0 : EReal) < x)) = 1 := by rw [decide_eq_false h]; decide
    dsimp only
    rw [if_neg h1]
    exact ⟨le_refl 0, EReal.zero_ne_top⟩

end Cert.GcnFold

end
-- ==== Proof.LibGcnHost.lean ====
/-
  One graph-convolution layer in two host spellings, on the extended reals, read at an index.

  Nodes are numbered `0 … N-1`; an edge `e` carries a source entry, a destination entry and a weight `w e`; `d` is a
  per-node factor. The layer maps an `[N, C]` array `X` to

      out (p, q) = Σ over the edges e that arrive at p of  d (src e) · w e · d (dst e) · X (src e, q)   +   b q .

  The first spelling (`kLayer`) scales the rows of `X` by `d` before gathering them along the edges, multiplies by the
  weight, sums per destination and scales the rows of the sum by `d` once more. The second (`rLayer`) gathers the
  plain rows and multiplies each by the edge's whole coefficient `d (src e) · w e · d (dst e)` before summing. On the
  edges that arrive at `p` the factor `d (dst e)` is the one number `d p`, and a nonnegative finite factor
  distributes over a sum of extended reals whatever the summands are, so the two spellings agree wherever `d` is
  nonnegative and finite; nothing is asked of `X`, `w` or `b`.

  Integer entries are read as the host reads them: a gather clamps its (already wrapped) index into `0 … N-1`
  (`node`), a negative index counts from the end (`wrap`), and the accumulating scatter takes exactly the edges whose
  destination entry, read signed, is the row.
-/
import Idealize.ShloMosaic.PureOps.Ideal.Laws
import Idealize.ShloMosaic.Lib.ValueIdx
import proofs.«175961_j41618233099022_2_alg».proof.Proof.LibGatherRows
import proofs.«175961_j41618233099022_2_alg».proof.Proof.LibSegmentSum
import proofs.«175961_j41618233099022_2_alg».proof.Proof.LibHostLayout
import proofs.«175961_j41618233099022_2_alg».proof.Proof.LibGcnFold

open scoped BigOperators

noncomputable section

namespace Cert.GcnHost

open Idealize.ShloMosaic Idealize.ShloMosaic.ValueIdx

variable {N C M : ℕ}

/-- The node an integer entry names to a gather: read signed, clamped into `0 … N-1`. -/
def node (hN : 0 < N) (v : BitVec 32) : Fin N := ⟨min v.toInt.toNat (N - 1), by omega⟩

/-- A negative entry counts from the end: `nn` (the node count) is added to it. -/
def wrap (nn : BitVec 32) (h0 : (⟨0, ![]⟩ : Shape).BroadcastsInDim ⟨1, ![M]⟩ ![]) (r : IVec ⟨1, ![M]⟩ 32) :
    IVec ⟨1, ![M]⟩ 32 :=
  select (cmpi .slt r (broadcastInDim ⟨1, ![M]⟩ ![] h0 (constantI ⟨0, ![]⟩ 32 0#32)))
    (addi r (broadcastInDim ⟨1, ![M]⟩ ![] h0 (constantI ⟨0, ![]⟩ 32 nn))) r

/-- An entry that reads as a node number is not negative, so wrapping leaves it, and the gather's clamp finds that node. -/
theorem node_wrap (hN : 0 < N) (nn : BitVec 32) (h0 : (⟨0, ![]⟩ : Shape).BroadcastsInDim ⟨1, ![M]⟩ ![])
    (r : IVec ⟨1, ![M]⟩ 32) (e : Fin M) (p : Fin N) (h : (r (ix1 e)).toInt = (p.val : Int)) :
    node hN (wrap nn h0 r (ix1 e)) = p := by
  have hns : (r (ix1 e)).slt 0#32 = false := by
    rw [BitVec.slt, h]; simp
  have hw : wrap nn h0 r (ix1 e) = r (ix1 e) := by
    unfold wrap
    rw [select_apply]
    show Scalar.select (IntOp.cmpi .slt (r (ix1 e)) _) _ _ = _
    have : IntOp.cmpi .slt (r (ix1 e)) (broadcastInDim ⟨1, ![M]⟩ ![] h0 (constantI ⟨0, ![]⟩ 32 0#32) (ix1 e)) = 0#1 := by
      show BitVec.ofBool ((r (ix1 e)).slt 0#32) = 0#1
      rw [hns]; rfl
    rw [this, select_zero]
  rw [hw]
  apply Fin.ext
  show min (r (ix1 e)).toInt.toNat (N - 1) = p.val
  rw [h]
  have := p.isLt
  simp only [Int.toNat_natCast]
  omega

/-- A gather of rows reads row `node` of its index entry. -/
theorem gather_rows_node (hN : 0 < N) {α : Type} (gd : GatherDims ⟨2, ![N, C]⟩ ⟨2, ![M, 1]⟩ ⟨2, ![M, C]⟩)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, C]) (x : (⟨2, ![N, C]⟩ : Shape).Idx → α) (idx : IVec ⟨2, ![M, 1]⟩ 32) (s : Fin M) (q : Fin C) :
    Host.gather gd x idx (ix2 s q) = x (ix2 (node hN (idx (ix2 s (0 : Fin 1)))) q) :=
  GatherRows.gather_rows_apply hN gd g1 g2 g3 g4 g5 g6 g7 x idx s q

/-- A gather from a vector reads entry `node` of its index entry. -/
theorem gather_vec_node (hN : 0 < N) {α : Type} (gv : GatherDims ⟨1, ![N]⟩ ⟨2, ![M, 1]⟩ ⟨1, ![M]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1]) (x : (⟨1, ![N]⟩ : Shape).Idx → α) (idx : IVec ⟨2, ![M, 1]⟩ 32) (s : Fin M) :
    Host.gather gv x idx (ix1 s) = x (ix1 (node hN (idx (ix2 s (0 : Fin 1))))) :=
  GatherRows.gather_vec_apply' hN gv v1 v2 v3 v4 v5 v6 v7 x idx s

section Layers

variable (gd : GatherDims ⟨2, ![N, C]⟩ ⟨2, ![M, 1]⟩ ⟨2, ![M, C]⟩) (sd : ScatterDims ⟨2, ![N, C]⟩ ⟨2, ![M, 1]⟩ ⟨2, ![M, C]⟩)
  (gv : GatherDims ⟨1, ![N]⟩ ⟨2, ![M, 1]⟩ ⟨1, ![M]⟩)
  (hv : (⟨1, ![N]⟩ : Shape).BroadcastsInDim ⟨2, ![N, 1]⟩ ![0])
  (hc : (⟨2, ![N, 1]⟩ : Shape).BroadcastsInDim ⟨2, ![N, C]⟩ ![0, 1])
  (hi : (⟨1, ![M]⟩ : Shape).BroadcastsInDim ⟨2, ![M, 1]⟩ ![0])
  (hwc : (⟨2, ![M, 1]⟩ : Shape).BroadcastsInDim ⟨2, ![M, C]⟩ ![0, 1])
  (hz : (⟨0, ![]⟩ : Shape).BroadcastsInDim ⟨2, ![N, C]⟩ ![])
  (hb1 : (⟨1, ![C]⟩ : Shape).BroadcastsInDim ⟨2, ![1, C]⟩ ![1])
  (hb2 : (⟨2, ![1, C]⟩ : Shape).BroadcastsInDim ⟨2, ![N, C]⟩ ![0, 1])
  (d : FVec Ideal ⟨1, ![N]⟩ .f32) (rw cw col : IVec ⟨1, ![M]⟩ 32) (w : FVec Ideal ⟨1, ![M]⟩ .f32)
  (X : FVec Ideal ⟨2, ![N, C]⟩ .f32) (b : FVec Ideal ⟨1, ![C]⟩ .f32)

/-- The first spelling: rows scaled by `d`, gathered along the edges (`rw`: the source entries, wrapped), weighted,
    summed per destination (`col`) into a zero array, rows scaled by `d` again, the bias row added. -/
def kLayer : FVec Ideal ⟨2, ![N, C]⟩ .f32 :=
  addf (mulf (broadcastInDim ⟨2, ![N, C]⟩ ![0, 1] hc (broadcastInDim ⟨2, ![N, 1]⟩ ![0] hv d))
      (Host.scatterAdd sd (broadcastInDim ⟨2, ![N, C]⟩ ![] hz (constant ⟨0, ![]⟩ .f32 0x00000000#32))
        (broadcastInDim ⟨2, ![M, 1]⟩ ![0] hi col)
        (mulf (Host.gather gd (mulf (broadcastInDim ⟨2, ![N, C]⟩ ![0, 1] hc (broadcastInDim ⟨2, ![N, 1]⟩ ![0] hv d)) X)
            (broadcastInDim ⟨2, ![M, 1]⟩ ![0] hi rw))
          (broadcastInDim ⟨2, ![M, C]⟩ ![0, 1] hwc (broadcastInDim ⟨2, ![M, 1]⟩ ![0] hi w)))))
    (broadcastInDim ⟨2, ![N, C]⟩ ![0, 1] hb2 (broadcastInDim ⟨2, ![1, C]⟩ ![1] hb1 b))

/-- The edge coefficient of the second spelling: `d` at the source, the weight, `d` at the destination (`cw`: the
    destination entries, wrapped). -/
def coef : FVec Ideal ⟨1, ![M]⟩ .f32 :=
  mulf (mulf (Host.gather gv d (broadcastInDim ⟨2, ![M, 1]⟩ ![0] hi rw)) w)
    (Host.gather gv d (broadcastInDim ⟨2, ![M, 1]⟩ ![0] hi cw))

/-- The second spelling: plain rows gathered along the edges, each times its edge's coefficient `nrm`, summed per
    destination into a zero array, the bias row added. -/
def rLayer (nrm : FVec Ideal ⟨1, ![M]⟩ .f32) : FVec Ideal ⟨2, ![N, C]⟩ .f32 :=
  addf (Host.scatterAdd sd (broadcastInDim ⟨2, ![N, C]⟩ ![] hz (constant ⟨0, ![]⟩ .f32 0x00000000#32))
      (broadcastInDim ⟨2, ![M, 1]⟩ ![0] hi col)
      (mulf (Host.gather gd X (broadcastInDim ⟨2, ![M, 1]⟩ ![0] hi rw))
        (broadcastInDim ⟨2, ![M, C]⟩ ![0, 1] hwc (broadcastInDim ⟨2, ![M, 1]⟩ ![0] hi nrm))))
    (broadcastInDim ⟨2, ![N, C]⟩ ![0, 1] hb2 (broadcastInDim ⟨2, ![1, C]⟩ ![1] hb1 b))

variable (hN : 0 < N)
  (g1 : gd.offsetDims = [1]) (g2 : gd.collapsedSliceDims = [0]) (g3 : gd.operandBatchingDims = [])
  (g4 : gd.startIndicesBatchingDims = []) (g5 : gd.startIndexMap = [0]) (g6 : gd.indexVectorDim = 1)
  (g7 : gd.sliceSizes = ![1, C])
  (s1 : sd.updateWindowDims = [1]) (s2 : sd.insertedWindowDims = [0]) (s3 : sd.scatterDimsToOperandDims = [0])
  (s4 : sd.indexVectorDim = 1)
  (v1 : gv.offsetDims = []) (v2 : gv.collapsedSliceDims = [0]) (v3 : gv.operandBatchingDims = [])
  (v4 : gv.startIndicesBatchingDims = []) (v5 : gv.startIndexMap = [0]) (v6 : gv.indexVectorDim = 1)
  (v7 : gv.sliceSizes = ![1])

/-- The edges that arrive at node `p`: the destination entry, read signed, is `p`. -/
def arriving (col : IVec ⟨1, ![M]⟩ 32) (p : Fin N) : Finset (Fin M) :=
  Finset.univ.filter fun e : Fin M => (col (ix1 e)).toInt = (p.val : Int)

include g1 g2 g3 g4 g5 g6 g7 s1 s2 s3 s4 in
/-- The first spelling at `(p, q)`. -/
theorem kLayer_apply (p : Fin N) (q : Fin C) :
    kLayer gd sd hv hc hi hwc hz hb1 hb2 d rw col w X b (ix2 p q)
      = d (ix1 p) * (0 + ∑ e ∈ arriving col p,
          (d (ix1 (node hN (rw (ix1 e)))) * X (ix2 (node hN (rw (ix1 e))) q)) * w (ix1 e)) + b (ix1 q) := by
  unfold kLayer arriving
  rw [addf_apply, mulf_apply, HostLayout.bcast_col_mat, HostLayout.bcast_vec_col, HostLayout.bcast_vec_mat,
    SegmentSum.segSumRows_apply sd s1 s2 s3 s4, HostLayout.bcast_scalar_mat, constant_apply, Ideal.ofBits_zero_f32]
  congr 3
  refine Finset.sum_congr ?_ fun e _ => ?_
  · ext e
    simp only [Finset.mem_filter, Finset.mem_univ, true_and]
    rw [HostLayout.bcast_vec_col]
  · rw [mulf_apply, gather_rows_node hN gd g1 g2 g3 g4 g5 g6 g7, mulf_apply, HostLayout.bcast_col_mat,
      HostLayout.bcast_vec_col, HostLayout.bcast_col_mat, HostLayout.bcast_vec_col, HostLayout.bcast_vec_col]

include v1 v2 v3 v4 v5 v6 v7 in
/-- The edge coefficient at edge `e`. -/
theorem coef_apply (e : Fin M) :
    coef gv hi d rw cw w (ix1 e)
      = (d (ix1 (node hN (rw (ix1 e)))) * w (ix1 e)) * d (ix1 (node hN (cw (ix1 e)))) := by
  unfold coef
  rw [mulf_apply, mulf_apply, gather_vec_node hN gv v1 v2 v3 v4 v5 v6 v7,
    gather_vec_node hN gv v1 v2 v3 v4 v5 v6 v7, HostLayout.bcast_vec_col, HostLayout.bcast_vec_col]

include g1 g2 g3 g4 g5 g6 g7 s1 s2 s3 s4 in
/-- The second spelling at `(p, q)`. -/
theorem rLayer_apply (nrm : FVec Ideal ⟨1, ![M]⟩ .f32) (p : Fin N) (q : Fin C) :
    rLayer gd sd hi hwc hz hb1 hb2 rw col X b nrm (ix2 p q)
      = (0 + ∑ e ∈ arriving col p, X (ix2 (node hN (rw (ix1 e))) q) * nrm (ix1 e)) + b (ix1 q) := by
  unfold rLayer arriving
  rw [addf_apply, HostLayout.bcast_vec_mat, SegmentSum.segSumRows_apply sd s1 s2 s3 s4, HostLayout.bcast_scalar_mat,
    constant_apply, Ideal.ofBits_zero_f32]
  congr 2
  refine Finset.sum_congr ?_ fun e _ => ?_
  · ext e
    simp only [Finset.mem_filter, Finset.mem_univ, true_and]
    rw [HostLayout.bcast_vec_col]
  · rw [mulf_apply, gather_rows_node hN gd g1 g2 g3 g4 g5 g6 g7, HostLayout.bcast_col_mat,
      HostLayout.bcast_vec_col, HostLayout.bcast_vec_col]

end Layers

/-! ## The two spellings agree -/

/-- THE BRIDGE. The first spelling at width `C'`, read at a column `emb q`, is the second spelling at width `C` read at
    column `q`, when the first's array and bias row restricted to the columns `emb ·` are the second's, the per-node
    factor is nonnegative and finite, and the wrapped destination entry of an edge that arrives at `p` names `p`:
    on those edges the destination factor is the one number `d p`, which distributes over the sum. -/
theorem layer_bridge {C' : ℕ} (hN : 0 < N)
    (gd' : GatherDims ⟨2, ![N, C']⟩ ⟨2, ![M, 1]⟩ ⟨2, ![M, C']⟩) (sd' : ScatterDims ⟨2, ![N, C']⟩ ⟨2, ![M, 1]⟩ ⟨2, ![M, C']⟩)
    (gd : GatherDims ⟨2, ![N, C]⟩ ⟨2, ![M, 1]⟩ ⟨2, ![M, C]⟩) (sd : ScatterDims ⟨2, ![N, C]⟩ ⟨2, ![M, 1]⟩ ⟨2, ![M, C]⟩)
    (gv : GatherDims ⟨1, ![N]⟩ ⟨2, ![M, 1]⟩ ⟨1, ![M]⟩)
    (hv : (⟨1, ![N]⟩ : Shape).BroadcastsInDim ⟨2, ![N, 1]⟩ ![0])
    (hc' : (⟨2, ![N, 1]⟩ : Shape).BroadcastsInDim ⟨2, ![N, C']⟩ ![0, 1])
    (hi hi' : (⟨1, ![M]⟩ : Shape).BroadcastsInDim ⟨2, ![M, 1]⟩ ![0])
    (hwc' : (⟨2, ![M, 1]⟩ : Shape).BroadcastsInDim ⟨2, ![M, C']⟩ ![0, 1])
    (hwc : (⟨2, ![M, 1]⟩ : Shape).BroadcastsInDim ⟨2, ![M, C]⟩ ![0, 1])
    (hz' : (⟨0, ![]⟩ : Shape).BroadcastsInDim ⟨2, ![N, C']⟩ ![])
    (hz : (⟨0, ![]⟩ : Shape).BroadcastsInDim ⟨2, ![N, C]⟩ ![])
    (hb1' : (⟨1, ![C']⟩ : Shape).BroadcastsInDim ⟨2, ![1, C']⟩ ![1])
    (hb2' : (⟨2, ![1, C']⟩ : Shape).BroadcastsInDim ⟨2, ![N, C']⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (g1' : gd'.offsetDims = [1]) (g2' : gd'.collapsedSliceDims = [0]) (g3' : gd'.operandBatchingDims = [])
    (g4' : gd'.startIndicesBatchingDims = []) (g5' : gd'.startIndexMap = [0]) (g6' : gd'.indexVectorDim = 1)
    (g7' : gd'.sliceSizes = ![1, C'])
    (s1' : sd'.updateWindowDims = [1]) (s2' : sd'.insertedWindowDims = [0]) (s3' : sd'.scatterDimsToOperandDims = [0])
    (s4' : sd'.indexVectorDim = 1)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, C])
    (s1 : sd.updateWindowDims = [1]) (s2 : sd.insertedWindowDims = [0]) (s3 : sd.scatterDimsToOperandDims = [0])
    (s4 : sd.indexVectorDim = 1)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (d : FVec Ideal ⟨1, ![N]⟩ .f32) (rw cw col : IVec ⟨1, ![M]⟩ 32) (w : FVec Ideal ⟨1, ![M]⟩ .f32)
    (X' : FVec Ideal ⟨2, ![N, C']⟩ .f32) (b' : FVec Ideal ⟨1, ![C']⟩ .f32)
    (X : FVec Ideal ⟨2, ![N, C]⟩ .f32) (b : FVec Ideal ⟨1, ![C]⟩ .f32)
    (hd : ∀ i, 0 ≤ d i ∧ d i ≠ ⊤)
    (hcw : ∀ (e : Fin M) (p : Fin N), (col (ix1 e)).toInt = (p.val : Int) → node hN (cw (ix1 e)) = p)
    (emb : Fin C → Fin C') (hX : ∀ j q, X' (ix2 j (emb q)) = X (ix2 j q)) (hb : ∀ q, b' (ix1 (emb q)) = b (ix1 q))
    (p : Fin N) (q : Fin C) :
    kLayer gd' sd' hv hc' hi' hwc' hz' hb1' hb2' d rw col w X' b' (ix2 p (emb q))
      = rLayer gd sd hi hwc hz hb1 hb2 rw col X b (coef gv hi d rw cw w) (ix2 p q) := by
  rw [kLayer_apply gd' sd' hv hc' hi' hwc' hz' hb1' hb2' d rw col w X' b' hN g1' g2' g3' g4' g5' g6' g7' s1' s2' s3' s4',
    rLayer_apply gd sd hi hwc hz hb1 hb2 rw col X b hN g1 g2 g3 g4 g5 g6 g7 s1 s2 s3 s4, hb]
  congr 1
  have e1 : ∀ e ∈ arriving col p,
      (d (ix1 (node hN (rw (ix1 e)))) * X' (ix2 (node hN (rw (ix1 e))) (emb q))) * w (ix1 e)
        = X (ix2 (node hN (rw (ix1 e))) q) * (d (ix1 (node hN (rw (ix1 e)))) * w (ix1 e)) := by
    intro e _
    rw [hX, mul_comm (d _) (X _), mul_assoc]
  have e2 : ∀ e ∈ arriving col p,
      X (ix2 (node hN (rw (ix1 e))) q) * coef gv hi d rw cw w (ix1 e)
        = X (ix2 (node hN (rw (ix1 e))) q) * ((d (ix1 (node hN (rw (ix1 e)))) * w (ix1 e)) * d (ix1 (node hN (cw (ix1 e))))) := by
    intro e _
    rw [coef_apply gv hi d rw cw w hN v1 v2 v3 v4 v5 v6 v7]
  rw [Finset.sum_congr rfl e1, Finset.sum_congr rfl e2]
  exact GcnFold.fold_out (arriving col p) (d (ix1 p)) (hd _).1 (hd _).2
    (fun e => X (ix2 (node hN (rw (ix1 e))) q)) (fun e => d (ix1 (node hN (rw (ix1 e)))) * w (ix1 e))
    (fun e => d (ix1 (node hN (cw (ix1 e)))))
    (fun e he => by rw [hcw e p (Finset.mem_filter.mp he).2])

end Cert.GcnHost

end
-- ==== Proof.LibGcnSelf.lean ====
/-
  A graph-convolution layer WITH SELF-LOOPS, on the extended reals, and the two host spellings of its edge sum.

  Nodes are `0 … N-1`. `A p` is the set of edges that arrive at node `p`, `sN e` the node an edge leaves, `d` a per-node
  factor (the reciprocal square root of the degree). For an `[N, C]` array `H` and a bias `b` the layer is

      out (p, q) = Σ over e ∈ A p of  H (sN e, q) · d (sN e) · d p   +   H (p, q) · d p · d p   +   b q .

  `layerK` sums the rows already scaled at the source, `H (sN e, q) · d (sN e)`, and multiplies the whole sum by `d p`
  afterwards; `layerR` multiplies every summand by the edge's own coefficient `d (sN e) · d (dN e)`, where `dN e` is the node
  the edge's destination entry names. On the edges of `A p` that node is `p`, and a nonnegative finite factor distributes
  over a sum of extended reals whatever the summands are: the two agree wherever `d` is nonnegative and finite. Nothing is
  asked of `H` or `b`.

  The host readings: the degree vector (ones summed per destination, plus one, reciprocal square root) with the two facts
  the law needs of it; the sum over arriving edges of gathered rows (`aggK_apply`), and of gathered rows times a per-edge
  coefficient made of two vector gathers (`aggR_apply`).
-/
import Idealize.ShloMosaic.PureOps.Ideal.Laws
import Idealize.ShloMosaic.Lib.ValueIdx
import proofs.«175961_j41618233099022_2_alg».proof.Proof.LibGcnHost

open scoped BigOperators

noncomputable section

namespace Cert.GcnSelf

open Idealize.ShloMosaic Idealize.ShloMosaic.ValueIdx Cert.GcnHost

/-! ## The layer, index by index -/

section Math

variable {N C M : ℕ} (A : Fin N → Finset (Fin M)) (sN dN : Fin M → Fin N) (d : Fin N → EReal)
  (H : Fin N → Fin C → EReal) (b : Fin C → EReal)

/-- The edge sum scaled after the fact: rows scaled at the source, summed, the sum scaled at the destination. -/
def layerK (p : Fin N) (q : Fin C) : EReal :=
  ((0 + ∑ e ∈ A p, H (sN e) q * d (sN e)) * d p + H p q * (d p * d p)) + b q

/-- Every summand times its edge's coefficient. -/
def layerR (p : Fin N) (q : Fin C) : EReal :=
  ((0 + ∑ e ∈ A p, H (sN e) q * (d (sN e) * d (dN e))) + H p q * (d p * d p)) + b q

/-- The two spellings agree when `d` is nonnegative and finite and every edge of `A p` names `p` as its destination. -/
theorem layer_eq (hd : ∀ p, 0 ≤ d p ∧ d p ≠ ⊤) (hdN : ∀ p, ∀ e ∈ A p, dN e = p) (p : Fin N) (q : Fin C) :
    layerK A sN d H b p q = layerR A sN dN d H b p q := by
  unfold layerK layerR
  congr 2
  rw [mul_comm]
  exact GcnFold.fold_out (A p) (d p) (hd p).1 (hd p).2 (fun e => H (sN e) q) (fun e => d (sN e)) (fun e => d (dN e))
    (fun e he => by rw [hdN p e he])

/-- Two layers with a rectifier between them and a matrix product in front of each: the hidden array before pooling. -/
def net {K0 : ℕ} (L : (Fin N → Fin C → EReal) → (Fin C → EReal) → Fin N → Fin C → EReal)
    (X : Fin N → Fin K0 → EReal) (W1 : Fin K0 → Fin C → EReal) (b1 : Fin C → EReal)
    (W2 : Fin C → Fin C → EReal) (b2 : Fin C → EReal) : Fin N → Fin C → EReal :=
  L (fun p q => ∑ k : Fin C, max (L (fun p' q' => ∑ k' : Fin K0, X p' k' * W1 k' q') b1 p k) 0 * W2 k q) b2

theorem net_congr {K0 : ℕ} (L L' : (Fin N → Fin C → EReal) → (Fin C → EReal) → Fin N → Fin C → EReal)
    (h : ∀ H b p q, L H b p q = L' H b p q)
    (X : Fin N → Fin K0 → EReal) (W1 : Fin K0 → Fin C → EReal) (b1 : Fin C → EReal)
    (W2 : Fin C → Fin C → EReal) (b2 : Fin C → EReal) (p : Fin N) (q : Fin C) :
    net L X W1 b1 W2 b2 p q = net L' X W1 b1 W2 b2 p q := by
  have e : L = L' := funext fun H => funext fun b => funext fun p => funext fun q => h H b p q
  rw [e]

end Math

/-! ## The degree factor -/

section Degree

variable {N M : ℕ}

/-- The factor at node `p`: the reciprocal square root of one plus the number of arriving edges. -/
def dinv (col : IVec ⟨1, ![M]⟩ 32) (p : Fin N) : EReal :=
  Ideal.rsqrt ((0 + ∑ _e ∈ arriving col p, (1 : EReal)) + 1)

theorem ofBits_one : Ideal.ofBits .f32 0x3F800000#32 = (1 : EReal) := by
  simp [Ideal.ofBits, Ideal.ieee, -EReal.coe_mul]; norm_num

/-- One plus a count is a positive real, so its reciprocal square root is a nonnegative real. -/
theorem dinv_facts (col : IVec ⟨1, ![M]⟩ 32) (p : Fin N) : 0 ≤ dinv col p ∧ dinv col p ≠ ⊤ := by
  unfold dinv
  have hs : (∑ _e ∈ arriving col p, (1 : EReal)) = (((arriving col p).card : ℝ) : EReal) := by
    simp
  have hd : ((0 : EReal) + ∑ _e ∈ arriving col p, (1 : EReal)) + 1 = ((((arriving col p).card : ℝ) + 1 : ℝ) : EReal) := by
    rw [zero_add, hs, EReal.coe_add, EReal.coe_one]
  have hpos : (0 : ℝ) < ((arriving col p).card : ℝ) + 1 := by positivity
  rw [hd, Ideal.rsqrt_coe, if_neg (not_lt.mpr hpos.le), if_neg hpos.ne']
  exact ⟨by exact_mod_cast inv_nonneg.mpr (Real.sqrt_nonneg _), EReal.coe_ne_top _⟩

theorem hostRsqrt_apply {s : Shape} (x : FVec Ideal s .f32) (i : s.Idx) :
    Host.rsqrt (F := Ideal) x i = Ideal.rsqrt (x i) := rfl

/-- The host's degree factor — ones summed per destination into a zero vector, plus one, reciprocal square root — at `p`. -/
theorem hostDinv_apply (sv : ScatterDims ⟨1, ![N]⟩ ⟨2, ![M, 1]⟩ ⟨1, ![M]⟩)
    (h1 : sv.updateWindowDims = []) (h2 : sv.insertedWindowDims = [0]) (h3 : sv.scatterDimsToOperandDims = [0])
    (h4 : sv.indexVectorDim = 1)
    (hzN : (⟨0, ![]⟩ : Shape).BroadcastsInDim ⟨1, ![N]⟩ ![]) (hzM : (⟨0, ![]⟩ : Shape).BroadcastsInDim ⟨1, ![M]⟩ ![])
    (hi : (⟨1, ![M]⟩ : Shape).BroadcastsInDim ⟨2, ![M, 1]⟩ ![0]) (col : IVec ⟨1, ![M]⟩ 32) (p : Fin N) :
    Host.rsqrt (F := Ideal) (addf (Host.scatterAdd sv (broadcastInDim ⟨1, ![N]⟩ ![] hzN (constant ⟨0, ![]⟩ .f32 0x00000000#32))
        (broadcastInDim ⟨2, ![M, 1]⟩ ![0] hi col) (broadcastInDim ⟨1, ![M]⟩ ![] hzM (constant ⟨0, ![]⟩ .f32 0x3F800000#32)))
      (broadcastInDim ⟨1, ![N]⟩ ![] hzN (constant ⟨0, ![]⟩ .f32 0x3F800000#32))) (ix1 p) = dinv col p := by
  rw [hostRsqrt_apply]
  unfold dinv arriving
  rw [addf_apply, SegmentSum.segSumVec_apply sv h1 h2 h3 h4,
    broadcastInDim_apply ![] hzN _ (ix1 p) ix0 (fun a => a.elim0),
    broadcastInDim_apply ![] hzN _ (ix1 p) ix0 (fun a => a.elim0), constant_apply, constant_apply,
    Ideal.ofBits_zero_f32, ofBits_one]
  congr 3
  refine Finset.sum_congr ?_ fun e _ => ?_
  · ext e
    simp only [Finset.mem_filter, Finset.mem_univ, true_and]
    rw [HostLayout.bcast_vec_col]
  · rw [broadcastInDim_apply ![] hzM _ (ix1 e) ix0 (fun a => a.elim0), constant_apply, ofBits_one]

end Degree

/-! ## The edge sums in the host's two spellings -/

section Sums

variable {N C M : ℕ}
  (gd : GatherDims ⟨2, ![N, C]⟩ ⟨2, ![M, 1]⟩ ⟨2, ![M, C]⟩) (sd : ScatterDims ⟨2, ![N, C]⟩ ⟨2, ![M, 1]⟩ ⟨2, ![M, C]⟩)
  (gv : GatherDims ⟨1, ![N]⟩ ⟨2, ![M, 1]⟩ ⟨1, ![M]⟩)
  (hi : (⟨1, ![M]⟩ : Shape).BroadcastsInDim ⟨2, ![M, 1]⟩ ![0])
  (hwc : (⟨2, ![M, 1]⟩ : Shape).BroadcastsInDim ⟨2, ![M, C]⟩ ![0, 1])
  (hz : (⟨0, ![]⟩ : Shape).BroadcastsInDim ⟨2, ![N, C]⟩ ![])
  (hN : 0 < N)
  (g1 : gd.offsetDims = [1]) (g2 : gd.collapsedSliceDims = [0]) (g3 : gd.operandBatchingDims = [])
  (g4 : gd.startIndicesBatchingDims = []) (g5 : gd.startIndexMap = [0]) (g6 : gd.indexVectorDim = 1)
  (g7 : gd.sliceSizes = ![1, C])
  (s1 : sd.updateWindowDims = [1]) (s2 : sd.insertedWindowDims = [0]) (s3 : sd.scatterDimsToOperandDims = [0])
  (s4 : sd.indexVectorDim = 1)
  (v1 : gv.offsetDims = []) (v2 : gv.collapsedSliceDims = [0]) (v3 : gv.operandBatchingDims = [])
  (v4 : gv.startIndicesBatchingDims = []) (v5 : gv.startIndexMap = [0]) (v6 : gv.indexVectorDim = 1)
  (v7 : gv.sliceSizes = ![1])

include g1 g2 g3 g4 g5 g6 g7 s1 s2 s3 s4 in
/-- Rows gathered along the edges (`rw`: the source entries) and summed per destination (`col`) into a zero array. -/
theorem aggK_apply (S : FVec Ideal ⟨2, ![N, C]⟩ .f32) (rw col : IVec ⟨1, ![M]⟩ 32) (p : Fin N) (q : Fin C) :
    Host.scatterAdd sd (broadcastInDim ⟨2, ![N, C]⟩ ![] hz (constant ⟨0, ![]⟩ .f32 0x00000000#32))
        (broadcastInDim ⟨2, ![M, 1]⟩ ![0] hi col) (Host.gather gd S (broadcastInDim ⟨2, ![M, 1]⟩ ![0] hi rw)) (ix2 p q)
      = 0 + ∑ e ∈ arriving col p, S (ix2 (node hN (rw (ix1 e))) q) := by
  unfold arriving
  rw [SegmentSum.segSumRows_apply sd s1 s2 s3 s4, HostLayout.bcast_scalar_mat, constant_apply, Ideal.ofBits_zero_f32]
  congr 1
  refine Finset.sum_congr ?_ fun e _ => ?_
  · ext e
    simp only [Finset.mem_filter, Finset.mem_univ, true_and]
    rw [HostLayout.bcast_vec_col]
  · rw [gather_rows_node hN gd g1 g2 g3 g4 g5 g6 g7, HostLayout.bcast_vec_col]

include g1 g2 g3 g4 g5 g6 g7 s1 s2 s3 s4 v1 v2 v3 v4 v5 v6 v7 in
/-- Rows gathered along the edges, each times the product of the factor gathered at its source entry (`rw`) and at its
    destination entry (`cw`), summed per destination (`col`) into a zero array. -/
theorem aggR_apply (H : FVec Ideal ⟨2, ![N, C]⟩ .f32) (dv : FVec Ideal ⟨1, ![N]⟩ .f32) (rw cw col : IVec ⟨1, ![M]⟩ 32)
    (p : Fin N) (q : Fin C) :
    Host.scatterAdd sd (broadcastInDim ⟨2, ![N, C]⟩ ![] hz (constant ⟨0, ![]⟩ .f32 0x00000000#32))
        (broadcastInDim ⟨2, ![M, 1]⟩ ![0] hi col)
        (mulf (Host.gather gd H (broadcastInDim ⟨2, ![M, 1]⟩ ![0] hi rw))
          (broadcastInDim ⟨2, ![M, C]⟩ ![0, 1] hwc (broadcastInDim ⟨2, ![M, 1]⟩ ![0] hi
            (mulf (Host.gather gv dv (broadcastInDim ⟨2, ![M, 1]⟩ ![0] hi rw))
              (Host.gather gv dv (broadcastInDim ⟨2, ![M, 1]⟩ ![0] hi cw)))))) (ix2 p q)
      = 0 + ∑ e ∈ arriving col p, H (ix2 (node hN (rw (ix1 e))) q)
          * (dv (ix1 (node hN (rw (ix1 e)))) * dv (ix1 (node hN (cw (ix1 e))))) := by
  unfold arriving
  rw [SegmentSum.segSumRows_apply sd s1 s2 s3 s4, HostLayout.bcast_scalar_mat, constant_apply, Ideal.ofBits_zero_f32]
  congr 1
  refine Finset.sum_congr ?_ fun e _ => ?_
  · ext e
    simp only [Finset.mem_filter, Finset.mem_univ, true_and]
    rw [HostLayout.bcast_vec_col]
  · rw [mulf_apply, gather_rows_node hN gd g1 g2 g3 g4 g5 g6 g7, HostLayout.bcast_col_mat, HostLayout.bcast_vec_col,
      HostLayout.bcast_vec_col, mulf_apply, gather_vec_node hN gv v1 v2 v3 v4 v5 v6 v7, gather_vec_node hN gv v1 v2 v3 v4 v5 v6 v7,
      HostLayout.bcast_vec_col, HostLayout.bcast_vec_col]

end Sums

end Cert.GcnSelf

end
-- ==== Proof.KernelHost.lean ====
/-
  The kernel program's four stretches of host operations, as functions of the buffers they read.

  Between its four device calls the kernel program runs plain host operations. From ANY buffer contents `W` at a
  stretch's entry, the contents after the stretch are:

  * stretch 0 — the source and destination entries (rows 0 and 1 of the edge array, as vectors), and the two-column array
    `dcomb` whose first column is the degree factor `d` (the reciprocal square root of one plus the number of arriving
    edges) and whose second column is `d · d`;
  * stretches 1 and 2 — the edge sum `aggOf S src dst`: the rows of `S` gathered at the wrapped source entries and summed
    per destination entry into a zero array; and a bias vector laid out as one row;
  * stretch 3 — mean pooling per graph `poolK Y g`, and the last bias as one row;

  every other buffer named below keeps its contents. Then the arrays read at an index: the two columns of `dcomb`, the
  edge sum as a sum over arriving edges, and a one-row bias at a column.
-/
import proofs.«175961_j41618233099022_2_alg».proof.Proof.KernelIdealLaunchP
import proofs.«175961_j41618233099022_2_alg».proof.Proof.LibGcnSelf
import Idealize.ShloMosaic.Lib.StableHlo.Run
import Idealize.ShloMosaic.Lib.Pipeline.Value
import Idealize.ShloMosaic.Lib.ValueIdx
import Idealize.ShloMosaic.Lib.ValueLayout

open scoped BigOperators

noncomputable section

namespace Cert.KernelIdeal.Host

open Cert.KernelIdeal Cert.KernelIdeal.Gen Cert.KernelIdeal.GenP Idealize.ShloMosaic Idealize.ShloMosaic.TcCoe Idealize.SL.Sem
  Idealize.ShloMosaic.ValueIdx

theorem hN : 0 < 50000 := by norm_num

/-! ## The stretches' results as functions -/

/-- The source entries: row 0 of the edge array, as a vector. -/
def srcOf (ei : IVec S2x800000 32) : IVec S800000 32 :=
  shapeCast S800000 (extractStridedSlice S1x800000 ![0, 0] ei slices_S2x800000_S1x800000_0_0) shapeCasts_S1x800000_S800000

/-- The destination entries: row 1 of the edge array, as a vector. -/
def dstOf (ei : IVec S2x800000 32) : IVec S800000 32 :=
  shapeCast S800000 (extractStridedSlice S1x800000 ![1, 0] ei slices_S2x800000_S1x800000_1_0) shapeCasts_S1x800000_S800000

/-- The degree factor as the host computes it: ones summed per destination entry into a zero vector, plus one,
    reciprocal square root. -/
def dinvV (ei : IVec S2x800000 32) : FVec Ideal S50000 .f32 :=
  Host.rsqrt (addf
    (Host.scatterAdd scatter_S50000_S800000x1_S800000_n_0_0_1
      (broadcastInDim S50000 ![] bcast_S_S50000 (constant (F := Ideal) S_ .f32 0x00000000#32))
      (broadcastInDim S800000x1 ![0] bcast_S800000_S800000x1_0 (dstOf ei))
      (broadcastInDim S800000 ![] bcast_S_S800000 (constant (F := Ideal) S_ .f32 0x3F800000#32)))
    (broadcastInDim S50000 ![] bcast_S_S50000 (constant (F := Ideal) S_ .f32 0x3F800000#32)))

/-- The two-column array of the degree factor and its square. -/
def dcomb (ei : IVec S2x800000 32) : FVec Ideal S50000x2 .f32 :=
  concatenate S50000x2 1
    [⟨S50000x1, broadcastInDim S50000x1 ![0] bcast_S50000_S50000x1_0 (dinvV ei)⟩,
     ⟨S50000x1, broadcastInDim S50000x1 ![0] bcast_S50000_S50000x1_0 (mulf (dinvV ei) (dinvV ei))⟩]
    concatenates_S50000x1_S50000x1_S50000x2_d1

/-- The edge sum: the rows of `S` gathered at the wrapped source entries, summed per destination entry into a zero array. -/
def aggOf (S : FVec Ideal S50000x64 .f32) (src dst : IVec S800000 32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 S
      (broadcastInDim S800000x1 ![0] bcast_S800000_S800000x1_0 (Cert.GcnHost.wrap 50000#32 bcast_S_S800000 src)))

/-- A 64-vector laid out as one row. -/
def row64 (b : FVec Ideal S64 .f32) : FVec Ideal S1x64 .f32 := shapeCast S1x64 b shapeCasts_S64_S1x64

/-- A 10-vector laid out as one row. -/
def row10 (b : FVec Ideal S10 .f32) : FVec Ideal S1x10 .f32 := shapeCast S1x10 b shapeCasts_S10_S1x10

/-- Mean pooling: the rows of `Y` summed per graph into a zero array, every row of the sums divided by the larger of the
    graph's node count (ones summed per graph into a zero vector) and one. -/
def poolK (Y : FVec Ideal S50000x64 .f32) (x3 : IVec S50000 32) : FVec Ideal S256x64 .f32 :=
  Host.divf
    (Host.scatterAdd scatter_S256x64_S50000x1_S50000x64_1_0_0_1
      (broadcastInDim S256x64 ![] bcast_S_S256x64 (constant (F := Ideal) S_ .f32 0x00000000#32))
      (broadcastInDim S50000x1 ![0] bcast_S50000_S50000x1_0 x3) Y)
    (broadcastInDim S256x64 ![0, 1] bcast_S256x1_S256x64_0_1
      (broadcastInDim S256x1 ![0] bcast_S256_S256x1_0
        (maximumf
          (Host.scatterAdd scatter_S256_S50000x1_S50000_n_0_0_1
            (broadcastInDim S256 ![] bcast_S_S256 (constant (F := Ideal) S_ .f32 0x00000000#32))
            (broadcastInDim S50000x1 ![0] bcast_S50000_S50000x1_0 x3)
            (broadcastInDim S50000 ![] bcast_S_S50000 (constant (F := Ideal) S_ .f32 0x3F800000#32)))
          (broadcastInDim S256 ![] bcast_S_S256 (constant (F := Ideal) S_ .f32 0x3F800000#32)))))

/-! ## Stretch 0 -/

theorem after0_v1 (W : Valuation τ sig (Elt Ideal)) :
    (StableHlo.after hostOps0 W (Proc.devRef .tc main_v1) : IVec S800000 32) = srcOf (W (Proc.devRef .tc main_arg1)) := by
  dsimp only [hostOps0]; after_results; rfl

theorem after0_v3 (W : Valuation τ sig (Elt Ideal)) :
    (StableHlo.after hostOps0 W (Proc.devRef .tc main_v3) : IVec S800000 32) = dstOf (W (Proc.devRef .tc main_arg1)) := by
  dsimp only [hostOps0]; after_results; rfl

theorem after0_v14 (W : Valuation τ sig (Elt Ideal)) :
    (StableHlo.after hostOps0 W (Proc.devRef .tc main_v14) : FVec Ideal S50000x2 .f32) = dcomb (W (Proc.devRef .tc main_arg1)) := by
  dsimp only [hostOps0]; after_results; rfl

/-! ## Stretch 1 -/

theorem after1_v25 (W : Valuation τ sig (Elt Ideal)) :
    (StableHlo.after hostOps1 W (Proc.devRef .tc main_v25) : FVec Ideal S50000x64 .f32)
      = aggOf (W (Proc.devRef .tc main_v15_1)) (W (Proc.devRef .tc main_v1)) (W (Proc.devRef .tc main_v3)) := by
  dsimp only [hostOps1]; after_results; rfl

theorem after1_v26 (W : Valuation τ sig (Elt Ideal)) :
    (StableHlo.after hostOps1 W (Proc.devRef .tc main_v26) : FVec Ideal S1x64 .f32) = row64 (W (Proc.devRef .tc main_arg5)) := by
  dsimp only [hostOps1]; after_results; rfl

/-! ## Stretch 2 -/

theorem after2_v37 (W : Valuation τ sig (Elt Ideal)) :
    (StableHlo.after hostOps2 W (Proc.devRef .tc main_v37) : FVec Ideal S50000x64 .f32)
      = aggOf (W (Proc.devRef .tc main_v27_1)) (W (Proc.devRef .tc main_v1)) (W (Proc.devRef .tc main_v3)) := by
  dsimp only [hostOps2]; after_results; rfl

theorem after2_v38 (W : Valuation τ sig (Elt Ideal)) :
    (StableHlo.after hostOps2 W (Proc.devRef .tc main_v38) : FVec Ideal S1x64 .f32) = row64 (W (Proc.devRef .tc main_arg7)) := by
  dsimp only [hostOps2]; after_results; rfl

/-! ## Stretch 3 -/

theorem after3_v51 (W : Valuation τ sig (Elt Ideal)) :
    (StableHlo.after hostOps3 W (Proc.devRef .tc main_v51) : FVec Ideal S256x64 .f32)
      = poolK (W (Proc.devRef .tc main_v39)) (W (Proc.devRef .tc main_arg3)) := by
  dsimp only [hostOps3]; after_results; rfl

theorem after3_v52 (W : Valuation τ sig (Elt Ideal)) :
    (StableHlo.after hostOps3 W (Proc.devRef .tc main_v52) : FVec Ideal S1x10 .f32) = row10 (W (Proc.devRef .tc main_arg9)) := by
  dsimp only [hostOps3]; after_results; rfl

/-! ## The buffers a stretch leaves as they were -/

theorem keep0_arg0 (W : Valuation τ sig (Elt Ideal)) :
    StableHlo.after hostOps0 W (Proc.devRef .tc main_arg0) = W (Proc.devRef .tc main_arg0) := by
  dsimp only [hostOps0]; after_results

theorem keep0_arg3 (W : Valuation τ sig (Elt Ideal)) :
    StableHlo.after hostOps0 W (Proc.devRef .tc main_arg3) = W (Proc.devRef .tc main_arg3) := by
  dsimp only [hostOps0]; after_results

theorem keep0_arg4 (W : Valuation τ sig (Elt Ideal)) :
    StableHlo.after hostOps0 W (Proc.devRef .tc main_arg4) = W (Proc.devRef .tc main_arg4) := by
  dsimp only [hostOps0]; after_results

theorem keep0_arg5 (W : Valuation τ sig (Elt Ideal)) :
    StableHlo.after hostOps0 W (Proc.devRef .tc main_arg5) = W (Proc.devRef .tc main_arg5) := by
  dsimp only [hostOps0]; after_results

theorem keep0_arg6 (W : Valuation τ sig (Elt Ideal)) :
    StableHlo.after hostOps0 W (Proc.devRef .tc main_arg6) = W (Proc.devRef .tc main_arg6) := by
  dsimp only [hostOps0]; after_results

theorem keep0_arg7 (W : Valuation τ sig (Elt Ideal)) :
    StableHlo.after hostOps0 W (Proc.devRef .tc main_arg7) = W (Proc.devRef .tc main_arg7) := by
  dsimp only [hostOps0]; after_results

theorem keep0_arg8 (W : Valuation τ sig (Elt Ideal)) :
    StableHlo.after hostOps0 W (Proc.devRef .tc main_arg8) = W (Proc.devRef .tc main_arg8) := by
  dsimp only [hostOps0]; after_results

theorem keep0_arg9 (W : Valuation τ sig (Elt Ideal)) :
    StableHlo.after hostOps0 W (Proc.devRef .tc main_arg9) = W (Proc.devRef .tc main_arg9) := by
  dsimp only [hostOps0]; after_results

theorem keep1_v14 (W : Valuation τ sig (Elt Ideal)) :
    StableHlo.after hostOps1 W (Proc.devRef .tc main_v14) = W (Proc.devRef .tc main_v14) := by
  dsimp only [hostOps1]; after_results

theorem keep1_v15_0 (W : Valuation τ sig (Elt Ideal)) :
    StableHlo.after hostOps1 W (Proc.devRef .tc main_v15_0) = W (Proc.devRef .tc main_v15_0) := by
  dsimp only [hostOps1]; after_results

theorem keep1_v1 (W : Valuation τ sig (Elt Ideal)) :
    StableHlo.after hostOps1 W (Proc.devRef .tc main_v1) = W (Proc.devRef .tc main_v1) := by
  dsimp only [hostOps1]; after_results

theorem keep1_v3 (W : Valuation τ sig (Elt Ideal)) :
    StableHlo.after hostOps1 W (Proc.devRef .tc main_v3) = W (Proc.devRef .tc main_v3) := by
  dsimp only [hostOps1]; after_results

theorem keep1_arg3 (W : Valuation τ sig (Elt Ideal)) :
    StableHlo.after hostOps1 W (Proc.devRef .tc main_arg3) = W (Proc.devRef .tc main_arg3) := by
  dsimp only [hostOps1]; after_results

theorem keep1_arg6 (W : Valuation τ sig (Elt Ideal)) :
    StableHlo.after hostOps1 W (Proc.devRef .tc main_arg6) = W (Proc.devRef .tc main_arg6) := by
  dsimp only [hostOps1]; after_results

theorem keep1_arg7 (W : Valuation τ sig (Elt Ideal)) :
    StableHlo.after hostOps1 W (Proc.devRef .tc main_arg7) = W (Proc.devRef .tc main_arg7) := by
  dsimp only [hostOps1]; after_results

theorem keep1_arg8 (W : Valuation τ sig (Elt Ideal)) :
    StableHlo.after hostOps1 W (Proc.devRef .tc main_arg8) = W (Proc.devRef .tc main_arg8) := by
  dsimp only [hostOps1]; after_results

theorem keep1_arg9 (W : Valuation τ sig (Elt Ideal)) :
    StableHlo.after hostOps1 W (Proc.devRef .tc main_arg9) = W (Proc.devRef .tc main_arg9) := by
  dsimp only [hostOps1]; after_results

theorem keep2_v14 (W : Valuation τ sig (Elt Ideal)) :
    StableHlo.after hostOps2 W (Proc.devRef .tc main_v14) = W (Proc.devRef .tc main_v14) := by
  dsimp only [hostOps2]; after_results

theorem keep2_v27_0 (W : Valuation τ sig (Elt Ideal)) :
    StableHlo.after hostOps2 W (Proc.devRef .tc main_v27_0) = W (Proc.devRef .tc main_v27_0) := by
  dsimp only [hostOps2]; after_results

theorem keep2_arg3 (W : Valuation τ sig (Elt Ideal)) :
    StableHlo.after hostOps2 W (Proc.devRef .tc main_arg3) = W (Proc.devRef .tc main_arg3) := by
  dsimp only [hostOps2]; after_results

theorem keep2_arg8 (W : Valuation τ sig (Elt Ideal)) :
    StableHlo.after hostOps2 W (Proc.devRef .tc main_arg8) = W (Proc.devRef .tc main_arg8) := by
  dsimp only [hostOps2]; after_results

theorem keep2_arg9 (W : Valuation τ sig (Elt Ideal)) :
    StableHlo.after hostOps2 W (Proc.devRef .tc main_arg9) = W (Proc.devRef .tc main_arg9) := by
  dsimp only [hostOps2]; after_results

theorem keep3_arg8 (W : Valuation τ sig (Elt Ideal)) :
    StableHlo.after hostOps3 W (Proc.devRef .tc main_arg8) = W (Proc.devRef .tc main_arg8) := by
  dsimp only [hostOps3]; after_results

/-! ## The results read at an index -/

/-- The host's degree factor at node `p`. -/
theorem dinvV_apply (ei : IVec S2x800000 32) (p : Fin 50000) :
    dinvV ei (ix1 p) = Cert.GcnSelf.dinv (dstOf ei) p :=
  Cert.GcnSelf.hostDinv_apply scatter_S50000_S800000x1_S800000_n_0_0_1 rfl rfl rfl rfl bcast_S_S50000 bcast_S_S800000
    bcast_S800000_S800000x1_0 (dstOf ei) p

/-- The first column of `dcomb` is the degree factor. -/
theorem dcomb_apply0 (ei : IVec S2x800000 32) (p : Fin 50000) :
    dcomb ei (ix2 p (0 : Fin 2)) = Cert.GcnSelf.dinv (dstOf ei) p := by
  unfold dcomb
  rw [concatenate_pair_apply_left (1 : Fin S50000x2.rank) _ _ concatenates_S50000x1_S50000x1_S50000x2_d1 (ix2 p (0 : Fin 2)) rfl
      (ix2 p (0 : Fin 1)) (fun b => by match b with | ⟨0, _⟩ => rfl | ⟨1, _⟩ => rfl),
    Cert.HostLayout.bcast_vec_col, dinvV_apply]

/-- The second column of `dcomb` is the square of the degree factor. -/
theorem dcomb_apply1 (ei : IVec S2x800000 32) (p : Fin 50000) :
    dcomb ei (ix2 p (1 : Fin 2)) = Cert.GcnSelf.dinv (dstOf ei) p * Cert.GcnSelf.dinv (dstOf ei) p := by
  unfold dcomb
  rw [concatenate_pair_apply_right (1 : Fin S50000x2.rank) _ _ concatenates_S50000x1_S50000x1_S50000x2_d1 (ix2 p (1 : Fin 2)) rfl rfl
      (ix2 p (0 : Fin 1)) (fun b hb => by match b with | ⟨0, _⟩ => rfl | ⟨1, _⟩ => exact absurd rfl hb) rfl,
    Cert.HostLayout.bcast_vec_col, mulf_apply, dinvV_apply]

/-- The edge sum at `(p, q)`: the sum over the edges that arrive at `p` of the row of `S` at the edge's wrapped source. -/
theorem aggOf_apply (S : FVec Ideal S50000x64 .f32) (src dst : IVec S800000 32) (p : Fin 50000) (q : Fin 64) :
    aggOf S src dst (ix2 p q)
      = 0 + ∑ e ∈ Cert.GcnHost.arriving dst p,
          S (ix2 (Cert.GcnHost.node hN (Cert.GcnHost.wrap 50000#32 bcast_S_S800000 src (ix1 e))) q) :=
  Cert.GcnSelf.aggK_apply gather_S50000x64_S800000x1_S800000x64_1_0_n_n_0_1_164 scatter_S50000x64_S800000x1_S800000x64_1_0_0_1
    bcast_S800000_S800000x1_0 bcast_S_S50000x64 hN rfl rfl rfl rfl rfl rfl rfl rfl rfl rfl rfl S
    (Cert.GcnHost.wrap 50000#32 bcast_S_S800000 src) dst p q

/-- A 64-vector laid out as one row, at column `q`. -/
theorem row64_apply (b : FVec Ideal S64 .f32) (q : Fin 64) : row64 b (ix2 (0 : Fin 1) q) = b (ix1 q) :=
  shapeCast_a_1a_apply b shapeCasts_S64_S1x64 (0 : Fin 1) q

/-- A 10-vector laid out as one row, at column `j`. -/
theorem row10_apply (b : FVec Ideal S10 .f32) (j : Fin 10) : row10 b (ix2 (0 : Fin 1) j) = b (ix1 j) :=
  shapeCast_a_1a_apply b shapeCasts_S10_S1x10 (0 : Fin 1) j

end Cert.KernelIdeal.Host

end
-- ==== Proof.KernelNet.lean ====
/-
  The idealized kernel's value as ONE function of its argument arrays, and that function read index by index.

  Composing what the regions and the host stretches compute: the first product `H1 = x·W1` and its copy scaled by the
  degree factor; the edge sum of the scaled rows; the layer's combination `agg·d + H1·d² + b1`, rectified, times `W2`
  (`H2`), and its scaled copy; the edge sum again; the combination again (`Y`); the mean pool; the classifier. Read at an
  entry, `Y` is two graph-convolution layers in the form that scales the edge sum after the fact (`layerK`), with the
  degree factor `dinv` of the destination entries, the arriving-edge sets of the destination entries, and the gathered
  node of the wrapped source entries.
-/
import proofs.«175961_j41618233099022_2_alg».proof.Proof.KernelRegions
import proofs.«175961_j41618233099022_2_alg».proof.Proof.KernelHost

open scoped BigOperators

noncomputable section

namespace Cert.KernelIdeal.Net

open Idealize.ShloMosaic Idealize.ShloMosaic.ValueIdx Cert.KernelIdeal Cert.KernelIdeal.Regions Cert.KernelIdeal.Host Cert.Dense

variable (x0 : FVec Ideal S50000x128 .f32) (x1 : IVec S2x800000 32) (x3 : IVec S50000 32) (x4 : FVec Ideal S128x64 .f32)
  (x5 : FVec Ideal S64 .f32) (x6 : FVec Ideal S64x64 .f32) (x7 : FVec Ideal S64 .f32) (x8 : FVec Ideal S64x10 .f32)
  (x9 : FVec Ideal S10 .f32)

def kH1 : FVec Ideal S50000x64 .f32 := lin0 x0 x4
def kS1 : FVec Ideal S50000x64 .f32 := sc0 x0 x4 (dcomb x1)
def kA1 : FVec Ideal S50000x64 .f32 := aggOf (kS1 x0 x1 x4) (srcOf x1) (dstOf x1)
def kH2 : FVec Ideal S50000x64 .f32 := lin1 (kA1 x0 x1 x4) (kH1 x0 x4) (dcomb x1) (row64 x5) x6
def kS2 : FVec Ideal S50000x64 .f32 := sc1 (kA1 x0 x1 x4) (kH1 x0 x4) (dcomb x1) (row64 x5) x6
def kA2 : FVec Ideal S50000x64 .f32 := aggOf (kS2 x0 x1 x4 x5 x6) (srcOf x1) (dstOf x1)
def kY : FVec Ideal S50000x64 .f32 := fin2 (kA2 x0 x1 x4 x5 x6) (kH2 x0 x1 x4 x5 x6) (dcomb x1) (row64 x7)
def kP : FVec Ideal S256x64 .f32 := poolK (kY x0 x1 x4 x5 x6 x7) x3
def kOUT : FVec Ideal S256x10 .f32 := out3 (kP x0 x1 x3 x4 x5 x6 x7) x8 (row10 x9)

/-- The arriving-edge sets, the gathered source node and the degree factor of an edge-index array. -/
abbrev arr (x1 : IVec S2x800000 32) (p : Fin 50000) : Finset (Fin 800000) := Cert.GcnHost.arriving (dstOf x1) p
abbrev sNode (x1 : IVec S2x800000 32) (e : Fin 800000) : Fin 50000 :=
  Cert.GcnHost.node Cert.KernelIdeal.Host.hN (Cert.GcnHost.wrap 50000#32 Cert.KernelIdeal.Gen.bcast_S_S800000 (srcOf x1) (ix1 e))
abbrev dfac (x1 : IVec S2x800000 32) (p : Fin 50000) : EReal := Cert.GcnSelf.dinv (dstOf x1) p

/-- The layer's combination over an edge sum of rows scaled at the source IS the layer in its scale-afterwards form. -/
theorem hid_layer (Sx Hx : FVec Ideal S50000x64 .f32) (b : FVec Ideal S64 .f32)
    (hS : ∀ (n : Fin 50000) (q : Fin 64), Sx (ix2 n q) = Hx (ix2 n q) * dcomb x1 (ix2 n (0 : Fin 2)))
    (p : Fin 50000) (q : Fin 64) :
    hid (aggOf Sx (srcOf x1) (dstOf x1)) Hx (dcomb x1) (row64 b) p q
      = Cert.GcnSelf.layerK (arr x1) (sNode x1) (dfac x1) (fun n q => Hx (ix2 n q)) (fun q => b (ix1 q)) p q := by
  unfold hid Cert.GcnSelf.layerK
  rw [aggOf_apply, dcomb_apply0, dcomb_apply1, row64_apply]
  have hsum : (∑ e ∈ Cert.GcnHost.arriving (dstOf x1) p,
        Sx (ix2 (Cert.GcnHost.node Cert.KernelIdeal.Host.hN (Cert.GcnHost.wrap 50000#32 Cert.KernelIdeal.Gen.bcast_S_S800000 (srcOf x1) (ix1 e))) q))
      = ∑ e ∈ arr x1 p, Hx (ix2 (sNode x1 e) q) * dfac x1 (sNode x1 e) :=
    Finset.sum_congr rfl fun e _ => by rw [hS, dcomb_apply0]
  rw [hsum]

/-- THE HIDDEN ARRAY at an entry: two layers, the first rectified, each after a matrix product. -/
theorem kY_apply (p : Fin 50000) (q : Fin 64) :
    kY x0 x1 x4 x5 x6 x7 (ix2 p q)
      = Cert.GcnSelf.net (Cert.GcnSelf.layerK (arr x1) (sNode x1) (dfac x1))
          (fun p k => x0 (ix2 p k)) (fun k q => x4 (ix2 k q)) (fun q => x5 (ix1 q)) (fun k q => x6 (ix2 k q))
          (fun q => x7 (ix1 q)) p q := by
  unfold Cert.GcnSelf.net
  have e1 : ∀ (n : Fin 50000) (k : Fin 64),
      hid (kA1 x0 x1 x4) (kH1 x0 x4) (dcomb x1) (row64 x5) n k
        = Cert.GcnSelf.layerK (arr x1) (sNode x1) (dfac x1)
            (fun p' q' => ∑ k' : Fin 128, x0 (ix2 p' k') * x4 (ix2 k' q')) (fun q => x5 (ix1 q)) n k :=
    fun n k => hid_layer x1 (kS1 x0 x1 x4) (kH1 x0 x4) x5 (fun _ _ => rfl) n k
  have e2 : ∀ (n : Fin 50000) (q : Fin 64),
      kH2 x0 x1 x4 x5 x6 (ix2 n q)
        = ∑ k : Fin 64, max (Cert.GcnSelf.layerK (arr x1) (sNode x1) (dfac x1)
            (fun p' q' => ∑ k' : Fin 128, x0 (ix2 p' k') * x4 (ix2 k' q')) (fun q => x5 (ix1 q)) n k) 0 * x6 (ix2 k q) := by
    intro n q
    show (∑ k : Fin 64, max (hid (kA1 x0 x1 x4) (kH1 x0 x4) (dcomb x1) (row64 x5) n k) 0 * x6 (ix2 k q)) = _
    exact Finset.sum_congr rfl fun k _ => by rw [e1]
  show hid (kA2 x0 x1 x4 x5 x6) (kH2 x0 x1 x4 x5 x6) (dcomb x1) (row64 x7) p q = _
  rw [show kA2 x0 x1 x4 x5 x6 = aggOf (kS2 x0 x1 x4 x5 x6) (srcOf x1) (dstOf x1) from rfl,
    hid_layer x1 (kS2 x0 x1 x4 x5 x6) (kH2 x0 x1 x4 x5 x6) x7 (fun _ _ => rfl) p q]
  exact congrArg (fun Hf => Cert.GcnSelf.layerK (arr x1) (sNode x1) (dfac x1) Hf (fun q => x7 (ix1 q)) p q)
    (funext fun n => funext fun q => e2 n q)

/-- THE RESULT at an entry: the pooled rows times the classifier's matrix, plus its bias. -/
theorem kOUT_apply (g : Fin 256) (j : Fin 10) :
    kOUT x0 x1 x3 x4 x5 x6 x7 x8 x9 (ix2 g j)
      = (∑ k : Fin 64, kP x0 x1 x3 x4 x5 x6 x7 (ix2 g k) * x8 (ix2 k j)) + x9 (ix1 j) := by
  show (∑ k : Fin 64, kP x0 x1 x3 x4 x5 x6 x7 (ix2 g k) * x8 (ix2 k j)) + row10 x9 (ix2 (0 : Fin 1) j) = _
  rw [row10_apply]

end Cert.KernelIdeal.Net

end
-- ==== Proof.KernelChain.lean ====
/-
  The idealized kernel's buffers at every boundary between its segments, as explicit functions of the launch memory.

  The run alternates stretches of host operations and kernel regions. A host stretch changes the buffers its operations
  write and keeps the others; a region changes its output arrays — to the whole-array functions of its inputs — and
  keeps every other buffer, its input arrays included. Walking the eight boundaries in order gives every intermediate
  array, and at the end the result array, as a composition of: the first product and its scaled copy, the edge sum of
  gathered rows, the layer's combination (rectified, then the second product and its scaled copy), the edge sum again,
  the combination again, the mean pool, and the classifier.
-/
import proofs.«175961_j41618233099022_2_alg».proof.Proof.KernelIdealFrameP
import proofs.«175961_j41618233099022_2_alg».proof.Proof.KernelRegions
import proofs.«175961_j41618233099022_2_alg».proof.Proof.KernelHost
import proofs.«175961_j41618233099022_2_alg».proof.Proof.KernelNet

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP
open Idealize.ShloMosaic.ValueIdx Cert.KernelIdeal.Regions Cert.KernelIdeal.Host

variable (m : (ℓ : Loc nD τ sig) → Buf (Elt Ideal) ℓ) (ρ : Dev nD → PrngReg) (c : Dev nD)

/-! ## The argument arrays and the arrays computed from them -/

def A0 : FVec Ideal S50000x128 .f32 := m ((c : Thread nD τ).loc main_arg0)
def EI : IVec S2x800000 32 := m ((c : Thread nD τ).loc main_arg1)
def A3 : IVec S50000 32 := m ((c : Thread nD τ).loc main_arg3)
def A4 : FVec Ideal S128x64 .f32 := m ((c : Thread nD τ).loc main_arg4)
def A5 : FVec Ideal S64 .f32 := m ((c : Thread nD τ).loc main_arg5)
def A6 : FVec Ideal S64x64 .f32 := m ((c : Thread nD τ).loc main_arg6)
def A7 : FVec Ideal S64 .f32 := m ((c : Thread nD τ).loc main_arg7)
def A8 : FVec Ideal S64x10 .f32 := m ((c : Thread nD τ).loc main_arg8)
def A9 : FVec Ideal S10 .f32 := m ((c : Thread nD τ).loc main_arg9)

/-- The edges' source entries, destination entries, and the two columns of degree factors. -/
def SRC : IVec S800000 32 := srcOf (EI m c)
def DST : IVec S800000 32 := dstOf (EI m c)
def DC : FVec Ideal S50000x2 .f32 := dcomb (EI m c)
def H1 : FVec Ideal S50000x64 .f32 := Net.kH1 (A0 m c) (A4 m c)
def S1 : FVec Ideal S50000x64 .f32 := Net.kS1 (A0 m c) (EI m c) (A4 m c)
def A1 : FVec Ideal S50000x64 .f32 := Net.kA1 (A0 m c) (EI m c) (A4 m c)
def H2 : FVec Ideal S50000x64 .f32 := Net.kH2 (A0 m c) (EI m c) (A4 m c) (A5 m c) (A6 m c)
def S2 : FVec Ideal S50000x64 .f32 := Net.kS2 (A0 m c) (EI m c) (A4 m c) (A5 m c) (A6 m c)
def A2 : FVec Ideal S50000x64 .f32 := Net.kA2 (A0 m c) (EI m c) (A4 m c) (A5 m c) (A6 m c)
def Y : FVec Ideal S50000x64 .f32 := Net.kY (A0 m c) (EI m c) (A4 m c) (A5 m c) (A6 m c) (A7 m c)
def P : FVec Ideal S256x64 .f32 := Net.kP (A0 m c) (EI m c) (A3 m c) (A4 m c) (A5 m c) (A6 m c) (A7 m c)
def OUT : FVec Ideal S256x10 .f32 := Net.kOUT (A0 m c) (EI m c) (A3 m c) (A4 m c) (A5 m c) (A6 m c) (A7 m c) (A8 m c) (A9 m c)

/-! ## The boundaries, in order -/

theorem w1_arg0 : (W1 m ρ c (Proc.devRef .tc main_arg0) : FVec Ideal S50000x128 .f32) = A0 m c :=
  Host.keep0_arg0 (W0 m ρ c)
theorem w1_arg3 : (W1 m ρ c (Proc.devRef .tc main_arg3) : IVec S50000 32) = A3 m c :=
  Host.keep0_arg3 (W0 m ρ c)
theorem w1_arg4 : (W1 m ρ c (Proc.devRef .tc main_arg4) : FVec Ideal S128x64 .f32) = A4 m c :=
  Host.keep0_arg4 (W0 m ρ c)
theorem w1_arg5 : (W1 m ρ c (Proc.devRef .tc main_arg5) : FVec Ideal S64 .f32) = A5 m c :=
  Host.keep0_arg5 (W0 m ρ c)
theorem w1_arg6 : (W1 m ρ c (Proc.devRef .tc main_arg6) : FVec Ideal S64x64 .f32) = A6 m c :=
  Host.keep0_arg6 (W0 m ρ c)
theorem w1_arg7 : (W1 m ρ c (Proc.devRef .tc main_arg7) : FVec Ideal S64 .f32) = A7 m c :=
  Host.keep0_arg7 (W0 m ρ c)
theorem w1_arg8 : (W1 m ρ c (Proc.devRef .tc main_arg8) : FVec Ideal S64x10 .f32) = A8 m c :=
  Host.keep0_arg8 (W0 m ρ c)
theorem w1_arg9 : (W1 m ρ c (Proc.devRef .tc main_arg9) : FVec Ideal S10 .f32) = A9 m c :=
  Host.keep0_arg9 (W0 m ρ c)
theorem w1_v1 : (W1 m ρ c (Proc.devRef .tc main_v1) : IVec S800000 32) = SRC m c :=
  Host.after0_v1 (W0 m ρ c)
theorem w1_v3 : (W1 m ρ c (Proc.devRef .tc main_v3) : IVec S800000 32) = DST m c :=
  Host.after0_v3 (W0 m ρ c)
theorem w1_v14 : (W1 m ρ c (Proc.devRef .tc main_v14) : FVec Ideal S50000x2 .f32) = DC m c :=
  Host.after0_v14 (W0 m ρ c)
theorem w2_v1 : (W2 m ρ c (Proc.devRef .tc main_v1) : IVec S800000 32) = SRC m c :=
  (W2_of_ne m ρ c main_v1 (by decide)).trans (w1_v1 m ρ c)
theorem w2_v3 : (W2 m ρ c (Proc.devRef .tc main_v3) : IVec S800000 32) = DST m c :=
  (W2_of_ne m ρ c main_v3 (by decide)).trans (w1_v3 m ρ c)
theorem w2_arg3 : (W2 m ρ c (Proc.devRef .tc main_arg3) : IVec S50000 32) = A3 m c :=
  (W2_of_ne m ρ c main_arg3 (by decide)).trans (w1_arg3 m ρ c)
theorem w2_arg5 : (W2 m ρ c (Proc.devRef .tc main_arg5) : FVec Ideal S64 .f32) = A5 m c :=
  (W2_of_ne m ρ c main_arg5 (by decide)).trans (w1_arg5 m ρ c)
theorem w2_arg6 : (W2 m ρ c (Proc.devRef .tc main_arg6) : FVec Ideal S64x64 .f32) = A6 m c :=
  (W2_of_ne m ρ c main_arg6 (by decide)).trans (w1_arg6 m ρ c)
theorem w2_arg7 : (W2 m ρ c (Proc.devRef .tc main_arg7) : FVec Ideal S64 .f32) = A7 m c :=
  (W2_of_ne m ρ c main_arg7 (by decide)).trans (w1_arg7 m ρ c)
theorem w2_arg8 : (W2 m ρ c (Proc.devRef .tc main_arg8) : FVec Ideal S64x10 .f32) = A8 m c :=
  (W2_of_ne m ρ c main_arg8 (by decide)).trans (w1_arg8 m ρ c)
theorem w2_arg9 : (W2 m ρ c (Proc.devRef .tc main_arg9) : FVec Ideal S10 .f32) = A9 m c :=
  (W2_of_ne m ρ c main_arg9 (by decide)).trans (w1_arg9 m ρ c)
theorem w2_v14 : (W2 m ρ c (Proc.devRef .tc main_v14) : FVec Ideal S50000x2 .f32) = DC m c :=
  ((W2_arr m ρ c 2).trans (((dat0 (V1 m ρ) c).arrAt_in 2 rfl _).trans (A_eq0 (V1 m ρ) c 2))).trans (w1_v14 m ρ c)
theorem w2_v15_0 : (W2 m ρ c (Proc.devRef .tc main_v15_0) : FVec Ideal S50000x64 .f32) = H1 m c :=
  ((W2_arr m ρ c 3).trans (arr0_3 (V1 m ρ) c)).trans (by
    show lin0 (W1 m ρ c (Proc.devRef .tc main_arg0)) (W1 m ρ c (Proc.devRef .tc main_arg4)) = _
    rw [w1_arg0 m ρ c, w1_arg4 m ρ c]
    rfl)
theorem w2_v15_1 : (W2 m ρ c (Proc.devRef .tc main_v15_1) : FVec Ideal S50000x64 .f32) = S1 m c :=
  ((W2_arr m ρ c 4).trans (arr0_4 (V1 m ρ) c)).trans (by
    show sc0 (W1 m ρ c (Proc.devRef .tc main_arg0)) (W1 m ρ c (Proc.devRef .tc main_arg4)) (W1 m ρ c (Proc.devRef .tc main_v14)) = _
    rw [w1_arg0 m ρ c, w1_arg4 m ρ c, w1_v14 m ρ c]
    rfl)
theorem w3_v14 : (W3 m ρ c (Proc.devRef .tc main_v14) : FVec Ideal S50000x2 .f32) = DC m c :=
  (Host.keep1_v14 (W2 m ρ c)).trans (w2_v14 m ρ c)
theorem w3_v15_0 : (W3 m ρ c (Proc.devRef .tc main_v15_0) : FVec Ideal S50000x64 .f32) = H1 m c :=
  (Host.keep1_v15_0 (W2 m ρ c)).trans (w2_v15_0 m ρ c)
theorem w3_v1 : (W3 m ρ c (Proc.devRef .tc main_v1) : IVec S800000 32) = SRC m c :=
  (Host.keep1_v1 (W2 m ρ c)).trans (w2_v1 m ρ c)
theorem w3_v3 : (W3 m ρ c (Proc.devRef .tc main_v3) : IVec S800000 32) = DST m c :=
  (Host.keep1_v3 (W2 m ρ c)).trans (w2_v3 m ρ c)
theorem w3_arg3 : (W3 m ρ c (Proc.devRef .tc main_arg3) : IVec S50000 32) = A3 m c :=
  (Host.keep1_arg3 (W2 m ρ c)).trans (w2_arg3 m ρ c)
theorem w3_arg6 : (W3 m ρ c (Proc.devRef .tc main_arg6) : FVec Ideal S64x64 .f32) = A6 m c :=
  (Host.keep1_arg6 (W2 m ρ c)).trans (w2_arg6 m ρ c)
theorem w3_arg7 : (W3 m ρ c (Proc.devRef .tc main_arg7) : FVec Ideal S64 .f32) = A7 m c :=
  (Host.keep1_arg7 (W2 m ρ c)).trans (w2_arg7 m ρ c)
theorem w3_arg8 : (W3 m ρ c (Proc.devRef .tc main_arg8) : FVec Ideal S64x10 .f32) = A8 m c :=
  (Host.keep1_arg8 (W2 m ρ c)).trans (w2_arg8 m ρ c)
theorem w3_arg9 : (W3 m ρ c (Proc.devRef .tc main_arg9) : FVec Ideal S10 .f32) = A9 m c :=
  (Host.keep1_arg9 (W2 m ρ c)).trans (w2_arg9 m ρ c)
theorem w3_v25 : (W3 m ρ c (Proc.devRef .tc main_v25) : FVec Ideal S50000x64 .f32) = A1 m c :=
  (Host.after1_v25 (W2 m ρ c)).trans (by rw [w2_v15_1 m ρ c, w2_v1 m ρ c, w2_v3 m ρ c]; rfl)
theorem w3_v26 : (W3 m ρ c (Proc.devRef .tc main_v26) : FVec Ideal S1x64 .f32) = row64 (A5 m c) :=
  (Host.after1_v26 (W2 m ρ c)).trans (by rw [w2_arg5 m ρ c])
theorem w4_v1 : (W4 m ρ c (Proc.devRef .tc main_v1) : IVec S800000 32) = SRC m c :=
  (W4_of_ne m ρ c main_v1 (by decide)).trans (w3_v1 m ρ c)
theorem w4_v3 : (W4 m ρ c (Proc.devRef .tc main_v3) : IVec S800000 32) = DST m c :=
  (W4_of_ne m ρ c main_v3 (by decide)).trans (w3_v3 m ρ c)
theorem w4_arg3 : (W4 m ρ c (Proc.devRef .tc main_arg3) : IVec S50000 32) = A3 m c :=
  (W4_of_ne m ρ c main_arg3 (by decide)).trans (w3_arg3 m ρ c)
theorem w4_arg7 : (W4 m ρ c (Proc.devRef .tc main_arg7) : FVec Ideal S64 .f32) = A7 m c :=
  (W4_of_ne m ρ c main_arg7 (by decide)).trans (w3_arg7 m ρ c)
theorem w4_arg8 : (W4 m ρ c (Proc.devRef .tc main_arg8) : FVec Ideal S64x10 .f32) = A8 m c :=
  (W4_of_ne m ρ c main_arg8 (by decide)).trans (w3_arg8 m ρ c)
theorem w4_arg9 : (W4 m ρ c (Proc.devRef .tc main_arg9) : FVec Ideal S10 .f32) = A9 m c :=
  (W4_of_ne m ρ c main_arg9 (by decide)).trans (w3_arg9 m ρ c)
theorem w4_v14 : (W4 m ρ c (Proc.devRef .tc main_v14) : FVec Ideal S50000x2 .f32) = DC m c :=
  ((W4_arr m ρ c 2).trans (((dat1 (V3 m ρ) c).arrAt_in 2 rfl _).trans (A_eq1 (V3 m ρ) c 2))).trans (w3_v14 m ρ c)
theorem w4_v27_0 : (W4 m ρ c (Proc.devRef .tc main_v27_0) : FVec Ideal S50000x64 .f32) = H2 m c :=
  ((W4_arr m ρ c 5).trans (arr1_5 (V3 m ρ) c)).trans (by
    show lin1 (W3 m ρ c (Proc.devRef .tc main_v25)) (W3 m ρ c (Proc.devRef .tc main_v15_0)) (W3 m ρ c (Proc.devRef .tc main_v14)) (W3 m ρ c (Proc.devRef .tc main_v26)) (W3 m ρ c (Proc.devRef .tc main_arg6)) = _
    rw [w3_v25 m ρ c, w3_v15_0 m ρ c, w3_v14 m ρ c, w3_v26 m ρ c, w3_arg6 m ρ c]
    rfl)
theorem w4_v27_1 : (W4 m ρ c (Proc.devRef .tc main_v27_1) : FVec Ideal S50000x64 .f32) = S2 m c :=
  ((W4_arr m ρ c 6).trans (arr1_6 (V3 m ρ) c)).trans (by
    show sc1 (W3 m ρ c (Proc.devRef .tc main_v25)) (W3 m ρ c (Proc.devRef .tc main_v15_0)) (W3 m ρ c (Proc.devRef .tc main_v14)) (W3 m ρ c (Proc.devRef .tc main_v26)) (W3 m ρ c (Proc.devRef .tc main_arg6)) = _
    rw [w3_v25 m ρ c, w3_v15_0 m ρ c, w3_v14 m ρ c, w3_v26 m ρ c, w3_arg6 m ρ c]
    rfl)
theorem w5_v14 : (W5 m ρ c (Proc.devRef .tc main_v14) : FVec Ideal S50000x2 .f32) = DC m c :=
  (Host.keep2_v14 (W4 m ρ c)).trans (w4_v14 m ρ c)
theorem w5_v27_0 : (W5 m ρ c (Proc.devRef .tc main_v27_0) : FVec Ideal S50000x64 .f32) = H2 m c :=
  (Host.keep2_v27_0 (W4 m ρ c)).trans (w4_v27_0 m ρ c)
theorem w5_arg3 : (W5 m ρ c (Proc.devRef .tc main_arg3) : IVec S50000 32) = A3 m c :=
  (Host.keep2_arg3 (W4 m ρ c)).trans (w4_arg3 m ρ c)
theorem w5_arg8 : (W5 m ρ c (Proc.devRef .tc main_arg8) : FVec Ideal S64x10 .f32) = A8 m c :=
  (Host.keep2_arg8 (W4 m ρ c)).trans (w4_arg8 m ρ c)
theorem w5_arg9 : (W5 m ρ c (Proc.devRef .tc main_arg9) : FVec Ideal S10 .f32) = A9 m c :=
  (Host.keep2_arg9 (W4 m ρ c)).trans (w4_arg9 m ρ c)
theorem w5_v37 : (W5 m ρ c (Proc.devRef .tc main_v37) : FVec Ideal S50000x64 .f32) = A2 m c :=
  (Host.after2_v37 (W4 m ρ c)).trans (by rw [w4_v27_1 m ρ c, w4_v1 m ρ c, w4_v3 m ρ c]; rfl)
theorem w5_v38 : (W5 m ρ c (Proc.devRef .tc main_v38) : FVec Ideal S1x64 .f32) = row64 (A7 m c) :=
  (Host.after2_v38 (W4 m ρ c)).trans (by rw [w4_arg7 m ρ c])
theorem w6_arg3 : (W6 m ρ c (Proc.devRef .tc main_arg3) : IVec S50000 32) = A3 m c :=
  (W6_of_ne m ρ c main_arg3 (by decide)).trans (w5_arg3 m ρ c)
theorem w6_arg8 : (W6 m ρ c (Proc.devRef .tc main_arg8) : FVec Ideal S64x10 .f32) = A8 m c :=
  (W6_of_ne m ρ c main_arg8 (by decide)).trans (w5_arg8 m ρ c)
theorem w6_arg9 : (W6 m ρ c (Proc.devRef .tc main_arg9) : FVec Ideal S10 .f32) = A9 m c :=
  (W6_of_ne m ρ c main_arg9 (by decide)).trans (w5_arg9 m ρ c)
theorem w6_v39 : (W6 m ρ c (Proc.devRef .tc main_v39) : FVec Ideal S50000x64 .f32) = Y m c :=
  ((W6_arr m ρ c 4).trans (arr2_4 (V5 m ρ) c)).trans (by
    show fin2 (W5 m ρ c (Proc.devRef .tc main_v37)) (W5 m ρ c (Proc.devRef .tc main_v27_0)) (W5 m ρ c (Proc.devRef .tc main_v14)) (W5 m ρ c (Proc.devRef .tc main_v38)) = _
    rw [w5_v37 m ρ c, w5_v27_0 m ρ c, w5_v14 m ρ c, w5_v38 m ρ c]
    rfl)
theorem w7_arg8 : (W7 m ρ c (Proc.devRef .tc main_arg8) : FVec Ideal S64x10 .f32) = A8 m c :=
  (Host.keep3_arg8 (W6 m ρ c)).trans (w6_arg8 m ρ c)
theorem w7_v51 : (W7 m ρ c (Proc.devRef .tc main_v51) : FVec Ideal S256x64 .f32) = P m c :=
  (Host.after3_v51 (W6 m ρ c)).trans (by rw [w6_v39 m ρ c, w6_arg3 m ρ c]; rfl)
theorem w7_v52 : (W7 m ρ c (Proc.devRef .tc main_v52) : FVec Ideal S1x10 .f32) = row10 (A9 m c) :=
  (Host.after3_v52 (W6 m ρ c)).trans (by rw [w6_arg9 m ρ c])
theorem w8_v53 : (W8 m ρ c (Proc.devRef .tc main_v53) : FVec Ideal S256x10 .f32) = OUT m c :=
  ((W8_arr m ρ c 3).trans (arr3_3 (V7 m ρ) c)).trans (by
    show out3 (W7 m ρ c (Proc.devRef .tc main_v51)) (W7 m ρ c (Proc.devRef .tc main_arg8)) (W7 m ρ c (Proc.devRef .tc main_v52)) = _
    rw [w7_v51 m ρ c, w7_arg8 m ρ c, w7_v52 m ρ c]
    rfl)

end Cert.KernelIdeal.Chain

end
-- ==== Proof.RefHidden.lean ====
/-
  The reference's hidden array, index by index.

  The reference is a two-layer graph convolution with self-loops. With `d p` the reciprocal square root of one plus the
  number of edges that arrive at node `p`, a layer maps an `[N, C]` array `H` and a bias `b` to

      out (p, q) = Σ over the edges e that arrive at p of  H (src e, q) · (d (src e) · d (dst e))
                   +  H (p, q) · (d p · d p)  +  b q ,

  and the hidden array is the layer of `max (layer (x · W1) b1, 0) · W2` with `b2`. This file reads the array the
  reference holds before pooling at `(p, q)` as exactly that function of the inputs:

  * every index vector the reference gathers with is the source (or destination) entries with negative entries counted
    from the end;
  * its degree vector at `p` is `d p`;
  * one layer as the host spells it (`refLayer`, over arbitrary extents and an arbitrary array) is the layer above at an
    index (`refLayer_apply`), and both of the reference's layers are that host layer of their inputs;
  * the two products are matrix products and the rectifier is the maximum with zero.

  Nothing is asked of the inputs.
-/
import proofs.«175961_j41618233099022_2_alg».proof.Proof.LibGcnSelf
import proofs.«175961_j41618233099022_2_alg».proof.Proof.LibDense
import proofs.«175961_j41618233099022_2_alg».proof.Proof.Gen.ReferenceIdeal.Read

open scoped BigOperators

noncomputable section

namespace Cert.RefValue

open Cert.ReferenceIdeal Cert.ReferenceIdeal.Gen Cert.ReferenceIdeal.Read Idealize.ShloMosaic Idealize.ShloMosaic.ValueIdx

theorem hN : 0 < 50000 := by norm_num

/-! ## The reference's index vectors and degree factor -/

/-- The first layer's source index for the factor gather is the wrapped source entries. -/
theorem src_wrap (x1 : (⟨S2x800000, .i32⟩ : BufTy).Contents (Elt Ideal)) :
    val_main_v16 (F := Ideal) x1 = Cert.GcnHost.wrap 50000#32 bcast_S_S800000 (val_main_v1 (F := Ideal) x1) := by
  unfold val_main_v16 val_main_v13 val_main_v15 val_main_v12 val_main_v14 val_main_c val_main_c_2 Cert.GcnHost.wrap
  rfl

/-- The first layer's destination index for the factor gather is the wrapped destination entries. -/
theorem dst_wrap (x1 : (⟨S2x800000, .i32⟩ : BufTy).Contents (Elt Ideal)) :
    val_main_v23 (F := Ideal) x1 = Cert.GcnHost.wrap 50000#32 bcast_S_S800000 (val_main_v3 (F := Ideal) x1) := by
  unfold val_main_v23 val_main_v20 val_main_v22 val_main_v19 val_main_v21 val_main_c_3 val_main_c_4 Cert.GcnHost.wrap
  rfl

/-- The first layer's source index for the row gather is the wrapped source entries. -/
theorem row_wrap (x1 : (⟨S2x800000, .i32⟩ : BufTy).Contents (Elt Ideal)) :
    val_main_v32 (F := Ideal) x1 = Cert.GcnHost.wrap 50000#32 bcast_S_S800000 (val_main_v1 (F := Ideal) x1) := by
  unfold val_main_v32 val_main_v29 val_main_v31 val_main_v28 val_main_v30 val_main_c_5 val_main_c_6 Cert.GcnHost.wrap
  rfl

/-- The second layer's source index for the factor gather. -/
theorem src_wrap2 (x1 : (⟨S2x800000, .i32⟩ : BufTy).Contents (Elt Ideal)) :
    val_main_v54 (F := Ideal) x1 = Cert.GcnHost.wrap 50000#32 bcast_S_S800000 (val_main_v1 (F := Ideal) x1) := by
  unfold val_main_v54 val_main_v51 val_main_v53 val_main_v50 val_main_v52 val_main_c_8 val_main_c_9 Cert.GcnHost.wrap
  rfl

/-- The second layer's destination index for the factor gather. -/
theorem dst_wrap2 (x1 : (⟨S2x800000, .i32⟩ : BufTy).Contents (Elt Ideal)) :
    val_main_v61 (F := Ideal) x1 = Cert.GcnHost.wrap 50000#32 bcast_S_S800000 (val_main_v3 (F := Ideal) x1) := by
  unfold val_main_v61 val_main_v58 val_main_v60 val_main_v57 val_main_v59 val_main_c_10 val_main_c_11 Cert.GcnHost.wrap
  rfl

/-- The second layer's source index for the row gather. -/
theorem row_wrap2 (x1 : (⟨S2x800000, .i32⟩ : BufTy).Contents (Elt Ideal)) :
    val_main_v70 (F := Ideal) x1 = Cert.GcnHost.wrap 50000#32 bcast_S_S800000 (val_main_v1 (F := Ideal) x1) := by
  unfold val_main_v70 val_main_v67 val_main_v69 val_main_v66 val_main_v68 val_main_c_12 val_main_c_13 Cert.GcnHost.wrap
  rfl

/-- The reference's degree factor at node `p`: the reciprocal square root of one plus the number of arriving edges. -/
theorem dinv_eq (x1 : (⟨S2x800000, .i32⟩ : BufTy).Contents (Elt Ideal)) (p : Fin 50000) :
    val_main_v10 (F := Ideal) x1 (ix1 p) = Cert.GcnSelf.dinv (val_main_v3 (F := Ideal) x1) p := by
  unfold val_main_v10 val_main_v9 val_main_v7 val_main_v8 val_main_v6 val_main_v5 val_main_v4 val_main_cst val_main_cst_0 val_main_cst_1
  exact Cert.GcnSelf.hostDinv_apply scatter_S50000_S800000x1_S800000_n_0_0_1 rfl rfl rfl rfl bcast_S_S50000 bcast_S_S800000
    bcast_S800000_S800000x1_0 (val_main_v3 (F := Ideal) x1) p

/-! ## One layer in the host's spelling -/

section Layer

variable {N C M : ℕ}
  (gd : GatherDims ⟨2, ![N, C]⟩ ⟨2, ![M, 1]⟩ ⟨2, ![M, C]⟩) (sd : ScatterDims ⟨2, ![N, C]⟩ ⟨2, ![M, 1]⟩ ⟨2, ![M, C]⟩)
  (gv : GatherDims ⟨1, ![N]⟩ ⟨2, ![M, 1]⟩ ⟨1, ![M]⟩)
  (hv : (⟨1, ![N]⟩ : Shape).BroadcastsInDim ⟨2, ![N, 1]⟩ ![0])
  (hc : (⟨2, ![N, 1]⟩ : Shape).BroadcastsInDim ⟨2, ![N, C]⟩ ![0, 1])
  (hi : (⟨1, ![M]⟩ : Shape).BroadcastsInDim ⟨2, ![M, 1]⟩ ![0])
  (hwc : (⟨2, ![M, 1]⟩ : Shape).BroadcastsInDim ⟨2, ![M, C]⟩ ![0, 1])
  (hz : (⟨0, ![]⟩ : Shape).BroadcastsInDim ⟨2, ![N, C]⟩ ![])
  (hb1 : (⟨1, ![C]⟩ : Shape).BroadcastsInDim ⟨2, ![1, C]⟩ ![1])
  (hb2 : (⟨2, ![1, C]⟩ : Shape).BroadcastsInDim ⟨2, ![N, C]⟩ ![0, 1])

/-- One layer as the host spells it: the rows of `H` gathered along the edges (`rw`: the source entries), each times the
    product of the factor `dv` gathered at the source entry and at the destination entry (`cw`), summed per destination
    (`col`) into a zero array; plus `H` with its rows scaled by the square of `dv`; plus the bias row. -/
def refLayer (H : FVec Ideal ⟨2, ![N, C]⟩ .f32) (dv : FVec Ideal ⟨1, ![N]⟩ .f32) (rw cw col : IVec ⟨1, ![M]⟩ 32)
    (b : FVec Ideal ⟨1, ![C]⟩ .f32) : FVec Ideal ⟨2, ![N, C]⟩ .f32 :=
  addf (addf (Host.scatterAdd sd (broadcastInDim ⟨2, ![N, C]⟩ ![] hz (constant ⟨0, ![]⟩ .f32 0x00000000#32))
        (broadcastInDim ⟨2, ![M, 1]⟩ ![0] hi col)
        (mulf (Host.gather gd H (broadcastInDim ⟨2, ![M, 1]⟩ ![0] hi rw))
          (broadcastInDim ⟨2, ![M, C]⟩ ![0, 1] hwc (broadcastInDim ⟨2, ![M, 1]⟩ ![0] hi
            (mulf (Host.gather gv dv (broadcastInDim ⟨2, ![M, 1]⟩ ![0] hi rw))
              (Host.gather gv dv (broadcastInDim ⟨2, ![M, 1]⟩ ![0] hi cw)))))))
      (mulf H (broadcastInDim ⟨2, ![N, C]⟩ ![0, 1] hc (broadcastInDim ⟨2, ![N, 1]⟩ ![0] hv (mulf dv dv)))))
    (broadcastInDim ⟨2, ![N, C]⟩ ![0, 1] hb2 (broadcastInDim ⟨2, ![1, C]⟩ ![1] hb1 b))

variable (hN : 0 < N)
  (g1 : gd.offsetDims = [1]) (g2 : gd.collapsedSliceDims = [0]) (g3 : gd.operandBatchingDims = [])
  (g4 : gd.startIndicesBatchingDims = []) (g5 : gd.startIndexMap = [0]) (g6 : gd.indexVectorDim = 1)
  (g7 : gd.sliceSizes = ![1, C])
  (s1 : sd.updateWindowDims = [1]) (s2 : sd.insertedWindowDims = [0]) (s3 : sd.scatterDimsToOperandDims = [0])
  (s4 : sd.indexVectorDim = 1)
  (v1 : gv.offsetDims = []) (v2 : gv.collapsedSliceDims = [0]) (v3 : gv.operandBatchingDims = [])
  (v4 : gv.startIndicesBatchingDims = []) (v5 : gv.startIndexMap = [0]) (v6 : gv.indexVectorDim = 1)
  (v7 : gv.sliceSizes = ![1])

include g1 g2 g3 g4 g5 g6 g7 s1 s2 s3 s4 v1 v2 v3 v4 v5 v6 v7 in
/-- The host's layer at `(p, q)` is the layer of the edge sum with every summand times its edge's coefficient. -/
theorem refLayer_apply (H : FVec Ideal ⟨2, ![N, C]⟩ .f32) (dv : FVec Ideal ⟨1, ![N]⟩ .f32) (rw cw col : IVec ⟨1, ![M]⟩ 32)
    (b : FVec Ideal ⟨1, ![C]⟩ .f32) (p : Fin N) (q : Fin C) :
    refLayer gd sd gv hv hc hi hwc hz hb1 hb2 H dv rw cw col b (ix2 p q)
      = Cert.GcnSelf.layerR (fun p => Cert.GcnHost.arriving col p) (fun e => Cert.GcnHost.node hN (rw (ix1 e)))
          (fun e => Cert.GcnHost.node hN (cw (ix1 e))) (fun p => dv (ix1 p)) (fun p q => H (ix2 p q)) (fun q => b (ix1 q)) p q := by
  unfold refLayer Cert.GcnSelf.layerR
  rw [addf_apply, addf_apply,
    Cert.GcnSelf.aggR_apply gd sd gv hi hwc hz hN g1 g2 g3 g4 g5 g6 g7 s1 s2 s3 s4 v1 v2 v3 v4 v5 v6 v7,
    mulf_apply, Cert.HostLayout.bcast_col_mat, Cert.HostLayout.bcast_vec_col, mulf_apply, Cert.HostLayout.bcast_vec_mat]

end Layer

/-! ## The two layers of the reference -/

/-- The reference's layer on an array `H` with bias `b`: the host's layer at the program's shapes, the factor the
    program's degree factor, the indices the wrapped source and destination entries, summed per destination entry. -/
def progLayer (x1 : (⟨S2x800000, .i32⟩ : BufTy).Contents (Elt Ideal)) (H : (⟨S50000x64, .f32⟩ : BufTy).Contents (Elt Ideal)) (b : (⟨S64, .f32⟩ : BufTy).Contents (Elt Ideal)) : (⟨S50000x64, .f32⟩ : BufTy).Contents (Elt Ideal) :=
  refLayer gather_S50000x64_S800000x1_S800000x64_1_0_n_n_0_1_164 scatter_S50000x64_S800000x1_S800000x64_1_0_0_1
    gather_S50000_S800000x1_S800000_n_0_n_n_0_1_1 bcast_S50000_S50000x1_0 bcast_S50000x1_S50000x64_0_1
    bcast_S800000_S800000x1_0 bcast_S800000x1_S800000x64_0_1 bcast_S_S50000x64 bcast_S64_S1x64_1 bcast_S1x64_S50000x64_0_1
    H (val_main_v10 (F := Ideal) x1)
    (Cert.GcnHost.wrap 50000#32 bcast_S_S800000 (val_main_v1 (F := Ideal) x1))
    (Cert.GcnHost.wrap 50000#32 bcast_S_S800000 (val_main_v3 (F := Ideal) x1)) (val_main_v3 (F := Ideal) x1) b

/-- The layer of the target, with the program's edge sets, nodes and degree factor. -/
abbrev tgtLayer (x1 : (⟨S2x800000, .i32⟩ : BufTy).Contents (Elt Ideal)) :
    (Fin 50000 → Fin 64 → EReal) → (Fin 64 → EReal) → Fin 50000 → Fin 64 → EReal :=
  Cert.GcnSelf.layerR
    (fun p => Cert.GcnHost.arriving (val_main_v3 (F := Ideal) x1) p)
    (fun e => Cert.GcnHost.node hN (Cert.GcnHost.wrap 50000#32 bcast_S_S800000 (val_main_v1 (F := Ideal) x1) (ix1 e)))
    (fun e => Cert.GcnHost.node hN (Cert.GcnHost.wrap 50000#32 bcast_S_S800000 (val_main_v3 (F := Ideal) x1) (ix1 e)))
    (fun p => Cert.GcnSelf.dinv (val_main_v3 (F := Ideal) x1) p)

theorem progLayer_apply (x1 : (⟨S2x800000, .i32⟩ : BufTy).Contents (Elt Ideal)) (H : (⟨S50000x64, .f32⟩ : BufTy).Contents (Elt Ideal)) (b : (⟨S64, .f32⟩ : BufTy).Contents (Elt Ideal)) (p : Fin 50000) (q : Fin 64) :
    progLayer x1 H b (ix2 p q) = tgtLayer x1 (fun p q => H (ix2 p q)) (fun q => b (ix1 q)) p q := by
  unfold progLayer
  rw [refLayer_apply _ _ _ _ _ _ _ _ _ _ hN rfl rfl rfl rfl rfl rfl rfl rfl rfl rfl rfl rfl rfl rfl rfl rfl rfl rfl]
  have hd : (fun p : Fin 50000 => val_main_v10 (F := Ideal) x1 (ix1 p))
      = fun p => Cert.GcnSelf.dinv (val_main_v3 (F := Ideal) x1) p := funext (dinv_eq x1)
  rw [hd]

/-- The first layer before the rectifier is the reference's layer on the first product. -/
theorem first_eq (x0 : (⟨S50000x128, .f32⟩ : BufTy).Contents (Elt Ideal)) (x1 : (⟨S2x800000, .i32⟩ : BufTy).Contents (Elt Ideal)) (x4 : (⟨S128x64, .f32⟩ : BufTy).Contents (Elt Ideal)) (x5 : (⟨S64, .f32⟩ : BufTy).Contents (Elt Ideal)) :
    val_main_v47 (F := Ideal) x0 x1 x4 x5 = progLayer x1 (val_main_v11 (F := Ideal) x0 x4) x5 := by
  unfold val_main_v47 val_main_v44 val_main_v39 val_main_v43 val_main_v46 val_main_v45 val_main_v42 val_main_v41 val_main_v40
    val_main_v36 val_main_v34 val_main_v35 val_main_v27 val_main_v26 val_main_v18 val_main_v25 val_main_v17 val_main_v24
    val_main_v33 val_main_v37 val_main_v38 val_main_cst_7
  rw [src_wrap, dst_wrap, row_wrap]
  rfl

/-- The array before pooling is the reference's layer on the second product. -/
theorem second_eq (x0 : (⟨S50000x128, .f32⟩ : BufTy).Contents (Elt Ideal)) (x1 : (⟨S2x800000, .i32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    val_main_v85 (F := Ideal) x0 x1 x4 x5 x6 x7 = progLayer x1 (val_main_v49 (F := Ideal) x0 x1 x4 x5 x6) x7 := by
  unfold val_main_v85 val_main_v82 val_main_v77 val_main_v81 val_main_v84 val_main_v83 val_main_v80 val_main_v79 val_main_v78
    val_main_v74 val_main_v72 val_main_v73 val_main_v65 val_main_v64 val_main_v56 val_main_v63 val_main_v55 val_main_v62
    val_main_v71 val_main_v75 val_main_v76 val_main_cst_14
  rw [src_wrap2, dst_wrap2, row_wrap2]
  rfl

/-- The first product at `(p, q)`. -/
theorem prod1_apply (x0 : (⟨S50000x128, .f32⟩ : BufTy).Contents (Elt Ideal)) (x4 : (⟨S128x64, .f32⟩ : BufTy).Contents (Elt Ideal)) (p : Fin 50000) (q : Fin 64) :
    val_main_v11 (F := Ideal) x0 x4 (ix2 p q) = ∑ k : Fin 128, x0 (ix2 p k) * x4 (ix2 k q) := by
  unfold val_main_v11
  rw [Cert.Dense.hostDot_eq_mm dot_S50000x128_S128x64_S50000x64_1_0_0_1_n_n rfl rfl rfl rfl rfl rfl, Cert.Dense.mm_apply]

/-- The rectified first layer at `(p, k)`. -/
theorem relu_apply (x0 : (⟨S50000x128, .f32⟩ : BufTy).Contents (Elt Ideal)) (x1 : (⟨S2x800000, .i32⟩ : BufTy).Contents (Elt Ideal)) (x4 : (⟨S128x64, .f32⟩ : BufTy).Contents (Elt Ideal)) (x5 : (⟨S64, .f32⟩ : BufTy).Contents (Elt Ideal)) (p : Fin 50000) (k : Fin 64) :
    val_main_v48 (F := Ideal) x0 x1 x4 x5 (ix2 p k)
      = max (tgtLayer x1 (fun p' q' => ∑ k' : Fin 128, x0 (ix2 p' k') * x4 (ix2 k' q')) (fun q => x5 (ix1 q)) p k) 0 := by
  unfold val_main_v48 val_main_call0_v0 val_main_call0_cst
  rw [maximumf_apply, Cert.HostLayout.bcast_scalar_mat, constant_apply, Ideal.ofBits_zero_f32, first_eq, progLayer_apply]
  have hH : (fun (p : Fin 50000) (q : Fin 64) => val_main_v11 (F := Ideal) x0 x4 (ix2 p q))
      = fun p' q' => ∑ k' : Fin 128, x0 (ix2 p' k') * x4 (ix2 k' q') := funext fun p => funext fun q => prod1_apply x0 x4 p q
  rw [hH]

/-- The second product at `(p, q)`. -/
theorem prod2_apply (x0 : (⟨S50000x128, .f32⟩ : BufTy).Contents (Elt Ideal)) (x1 : (⟨S2x800000, .i32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (p : Fin 50000) (q : Fin 64) :
    val_main_v49 (F := Ideal) x0 x1 x4 x5 x6 (ix2 p q)
      = ∑ k : Fin 64, max (tgtLayer x1 (fun p' q' => ∑ k' : Fin 128, x0 (ix2 p' k') * x4 (ix2 k' q')) (fun q => x5 (ix1 q)) p k) 0
          * x6 (ix2 k q) := by
  unfold val_main_v49
  rw [Cert.Dense.hostDot_eq_mm dot_S50000x64_S64x64_S50000x64_1_0_0_1_n_n rfl rfl rfl rfl rfl rfl, Cert.Dense.mm_apply]
  exact Finset.sum_congr rfl fun k _ => by rw [relu_apply]

/-- THE REFERENCE'S HIDDEN ARRAY. Before pooling, at node `p` and column `q`, the reference holds the two-layer network:
    each layer the sum over arriving edges of the source row times the edge's coefficient, plus the node's own row times
    the square of its factor, plus the bias; a matrix product before each layer and a rectifier between them. -/
theorem hidden_apply (x0 : (⟨S50000x128, .f32⟩ : BufTy).Contents (Elt Ideal)) (x1 : (⟨S2x800000, .i32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (p : Fin 50000) (q : Fin 64) :
    val_main_v85 (F := Ideal) x0 x1 x4 x5 x6 x7 (ix2 p q)
      = Cert.GcnSelf.net (Cert.GcnSelf.layerR
            (fun p => Cert.GcnHost.arriving (val_main_v3 (F := Ideal) x1) p)
            (fun e => Cert.GcnHost.node hN (Cert.GcnHost.wrap 50000#32 bcast_S_S800000 (val_main_v1 (F := Ideal) x1) (ix1 e)))
            (fun e => Cert.GcnHost.node hN (Cert.GcnHost.wrap 50000#32 bcast_S_S800000 (val_main_v3 (F := Ideal) x1) (ix1 e)))
            (fun p => Cert.GcnSelf.dinv (val_main_v3 (F := Ideal) x1) p))
          (fun p k => x0 (ix2 p k)) (fun k q => x4 (ix2 k q)) (fun q => x5 (ix1 q)) (fun k q => x6 (ix2 k q)) (fun q => x7 (ix1 q)) p q := by
  rw [second_eq, progLayer_apply]
  have hH : (fun (p : Fin 50000) (q : Fin 64) => val_main_v49 (F := Ideal) x0 x1 x4 x5 x6 (ix2 p q))
      = fun p q => ∑ k : Fin 64, max (tgtLayer x1 (fun p' q' => ∑ k' : Fin 128, x0 (ix2 p' k') * x4 (ix2 k' q')) (fun q => x5 (ix1 q)) p k) 0
          * x6 (ix2 k q) := funext fun p => funext fun q => prod2_apply x0 x1 x4 x5 x6 p q
  rw [hH]
  rfl

end Cert.RefValue

end
-- ==== Proof.RefTail.lean ====
/-
  The reference's tail: mean pooling per graph and the final affine map.

  After the hidden array `Y` (one row per node) the reference sums the rows of each graph (`x3` names a node's graph),
  divides every row of the sums by the larger of the graph's node count and one, multiplies by the last weight matrix
  and adds the last bias. `pool Y x3` is the pooled array as a function of `Y` alone; the output at `(g, j)` is the
  sum over `k` of `pool Y x3 (g, k) · W (k, j)` plus the bias at `j`; and `pool` depends on `Y` only through its values.
-/
import proofs.«175961_j41618233099022_2_alg».proof.Proof.LibHostLayout
import proofs.«175961_j41618233099022_2_alg».proof.Proof.LibDense
import proofs.«175961_j41618233099022_2_alg».proof.Proof.Gen.ReferenceIdeal.Read

open scoped BigOperators

noncomputable section

namespace Cert.RefValue

open Cert.ReferenceIdeal Cert.ReferenceIdeal.Gen Cert.ReferenceIdeal.Read Idealize.ShloMosaic Idealize.ShloMosaic.ValueIdx

/-- Mean pooling: the rows of `Y` summed per graph into a zero array, every row of the sums divided by the larger of the
    graph's node count (ones summed per graph into a zero vector) and one. -/
def pool (Y : FVec Ideal S50000x64 .f32) (x3 : IVec S50000 32) : FVec Ideal S256x64 .f32 :=
  Host.divf
    (Host.scatterAdd scatter_S256x64_S50000x1_S50000x64_1_0_0_1
      (broadcastInDim S256x64 ![] bcast_S_S256x64 (constant S_ .f32 0x00000000#32))
      (broadcastInDim S50000x1 ![0] bcast_S50000_S50000x1_0 x3) Y)
    (broadcastInDim S256x64 ![0, 1] bcast_S256x1_S256x64_0_1
      (broadcastInDim S256x1 ![0] bcast_S256_S256x1_0
        (maximumf
          (Host.scatterAdd scatter_S256_S50000x1_S50000_n_0_0_1
            (broadcastInDim S256 ![] bcast_S_S256 (constant S_ .f32 0x00000000#32))
            (broadcastInDim S50000x1 ![0] bcast_S50000_S50000x1_0 x3)
            (broadcastInDim S50000 ![] bcast_S_S50000 (constant S_ .f32 0x3F800000#32)))
          (broadcastInDim S256 ![] bcast_S_S256 (constant S_ .f32 0x3F800000#32)))))

/-- The reference's pooled array is `pool` of its hidden array. -/
theorem pooled_eq (x0 : (⟨S50000x128, .f32⟩ : BufTy).Contents (Elt Ideal)) (x1 : (⟨S2x800000, .i32⟩ : BufTy).Contents (Elt Ideal)) (x3 : (⟨S50000, .i32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    val_main_v97 (F := Ideal) x0 x1 x3 x4 x5 x6 x7 = pool (val_main_v85 (F := Ideal) x0 x1 x4 x5 x6 x7) x3 := by
  unfold val_main_v97 val_main_v92 val_main_v96 val_main_v95 val_main_v94 val_main_v89 val_main_v93 val_main_v90 val_main_v91
    val_main_v88 val_main_v87 val_main_v86 val_main_cst_15 val_main_cst_16 val_main_cst_17 val_main_cst_18 pool
  rfl

/-- The reference's output at graph `g` and class `j`. -/
theorem out_apply (x0 : (⟨S50000x128, .f32⟩ : BufTy).Contents (Elt Ideal)) (x1 : (⟨S2x800000, .i32⟩ : BufTy).Contents (Elt Ideal)) (x3 : (⟨S50000, .i32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x10, .f32⟩ : BufTy).Contents (Elt Ideal)) (x9 : (⟨S10, .f32⟩ : BufTy).Contents (Elt Ideal)) (g : Fin 256) (j : Fin 10) :
    val_main_v101 (F := Ideal) x0 x1 x3 x4 x5 x6 x7 x8 x9 (ix2 g j)
      = (∑ k : Fin 64, pool (val_main_v85 (F := Ideal) x0 x1 x4 x5 x6 x7) x3 (ix2 g k) * x8 (ix2 k j)) + x9 (ix1 j) := by
  unfold val_main_v101 val_main_v98 val_main_v100 val_main_v99
  rw [addf_apply, Cert.Dense.hostDot_eq_mm dot_S256x64_S64x10_S256x10_1_0_0_1_n_n rfl rfl rfl rfl rfl rfl, Cert.Dense.mm_apply,
    Cert.HostLayout.bcast_vec_mat, pooled_eq]

/-- `pool` reads its array only through its values. -/
theorem pool_congr (Y Y' : FVec Ideal S50000x64 .f32) (x3 : IVec S50000 32) (h : ∀ i, Y i = Y' i) :
    pool Y x3 = pool Y' x3 := by
  have e : Y = Y' := funext h
  rw [e]

end Cert.RefValue

end
-- ==== Proof.Bridge.lean ====
/-
  The two idealized programs compute one function of the argument arrays.

  Both hidden arrays are two graph-convolution layers with self-loops over the same arriving-edge sets, gathered source
  nodes and degree factor. The kernel scales the gathered rows at the source and the edge sum at the destination; the
  reference multiplies every gathered row by its edge's coefficient `dinv[src]·dinv[dst]`. On the edges that arrive at a
  node the destination factor is that node's own, and the factor — the reciprocal square root of one plus a count — is a
  nonnegative real, so it distributes over the edge sum whatever the summands are: the hidden arrays agree entry by
  entry. From there on both programs apply the same mean pool and the same classifier.
-/
import proofs.«175961_j41618233099022_2_alg».proof.Proof.RefHidden
import proofs.«175961_j41618233099022_2_alg».proof.Proof.RefTail
import proofs.«175961_j41618233099022_2_alg».proof.Proof.KernelNet

open scoped BigOperators

noncomputable section

namespace Cert.Bridge

open Idealize.ShloMosaic Idealize.ShloMosaic.ValueIdx Cert.KernelIdeal Cert.KernelIdeal.Host Cert.KernelIdeal.Net

variable (x0 : FVec Ideal S50000x128 .f32) (x1 : IVec S2x800000 32) (x3 : IVec S50000 32) (x4 : FVec Ideal S128x64 .f32)
  (x5 : FVec Ideal S64 .f32) (x6 : FVec Ideal S64x64 .f32) (x7 : FVec Ideal S64 .f32) (x8 : FVec Ideal S64x10 .f32)
  (x9 : FVec Ideal S10 .f32)

/-- The destination node an edge's wrapped destination entry names. -/
abbrev dNode (x1 : IVec S2x800000 32) (e : Fin 800000) : Fin 50000 :=
  Cert.GcnHost.node Cert.KernelIdeal.Host.hN (Cert.GcnHost.wrap 50000#32 Cert.KernelIdeal.Gen.bcast_S_S800000 (dstOf x1) (ix1 e))

/-- On the edges that arrive at `p` the destination entry names `p`. -/
theorem dNode_arriving (p : Fin 50000) (e : Fin 800000) (he : e ∈ arr x1 p) : dNode x1 e = p :=
  Cert.GcnHost.node_wrap Cert.KernelIdeal.Host.hN 50000#32 Cert.KernelIdeal.Gen.bcast_S_S800000 (dstOf x1) e p
    (Finset.mem_filter.mp he).2

/-- The hidden arrays agree entry by entry. -/
theorem hidden_eq (i : S50000x64.Idx) :
    kY x0 x1 x4 x5 x6 x7 i = Cert.ReferenceIdeal.Read.val_main_v85 (F := Ideal) x0 x1 x4 x5 x6 x7 i := by
  obtain ⟨p, q, rfl⟩ : ∃ (p : Fin 50000) (q : Fin 64), i = ix2 p q := ⟨i 0, i 1, eq_ix2 i⟩
  rw [kY_apply, Cert.RefValue.hidden_apply]
  refine (Cert.GcnSelf.net_congr _ (Cert.GcnSelf.layerR (arr x1) (sNode x1) (dNode x1) (dfac x1))
    (fun H b p q => Cert.GcnSelf.layer_eq (arr x1) (sNode x1) (dNode x1) (dfac x1) H b
      (fun p => Cert.GcnSelf.dinv_facts (dstOf x1) p) (fun p e he => dNode_arriving x1 p e he) p q) _ _ _ _ _ p q).trans ?_
  rfl

/-- THE RESULTS AGREE: the reference's result term is the kernel's function of the same arrays. -/
theorem result_eq :
    Cert.ReferenceIdeal.Read.val_main_v101 (F := Ideal) x0 x1 x3 x4 x5 x6 x7 x8 x9 = kOUT x0 x1 x3 x4 x5 x6 x7 x8 x9 := by
  funext i
  obtain ⟨g, j, rfl⟩ : ∃ (g : Fin 256) (j : Fin 10), i = ix2 g j := ⟨i 0, i 1, eq_ix2 i⟩
  have hp : Cert.RefValue.pool (Cert.ReferenceIdeal.Read.val_main_v85 (F := Ideal) x0 x1 x4 x5 x6 x7) x3
      = kP x0 x1 x3 x4 x5 x6 x7 :=
    (Cert.RefValue.pool_congr _ (kY x0 x1 x4 x5 x6 x7) x3 (fun i => (hidden_eq x0 x1 x4 x5 x6 x7 i).symm)).trans rfl
  rw [Cert.RefValue.out_apply, kOUT_apply, hp]

end Cert.Bridge

end
-- ==== Proof.lean ====
/-
  A two-layer graph convolution with self-loops, mean-pooled per graph and classified: the kernel against its reference.

  THE MATHEMATICS. With `deg p = 1 + #{edges arriving at p}` and `d = deg^(-1/2)`, one layer maps `H` to
  `Σ_{e → p} H[src e]·d[src e]·d[p] + H[p]·d[p]² + b`. The reference multiplies each gathered row by its edge's coefficient
  `d[src e]·d[dst e]` before the sum; the kernel scales the rows by `d` before gathering and the sum by `d[p]` after it. On
  the edges arriving at `p` the destination factor is `d[p]`, a nonnegative real, which distributes over the sum on the
  extended reals whatever the summands are. The matrix products (bf16 operands on the matrix unit against the host's dot
  product) are the same plain sums, a change of float format being the identity; the pool and the classifier are the
  same operations in both programs.

  THE PROGRAMS. The kernel is four regions among four stretches of host operations. Its frame (termination, no fault,
  arguments unchanged) is the chain of segments over the buffer contents at the eight boundaries; its value is read off
  the same chain: each region's output arrays are whole-array functions of its input arrays (blocks of 5000 rows tile
  the node axis), each host stretch is read operation by operation. The reference is one straight line of host
  operations. No precondition is used: the law needs finiteness only of the degree factor, which is a fact, not an
  assumption.
-/
import proofs.«175961_j41618233099022_2_alg».proof.Defs
import proofs.«175961_j41618233099022_2_alg».proof.Proof.Gen.Kernel
import proofs.«175961_j41618233099022_2_alg».proof.Proof.KernelFrameP
import proofs.«175961_j41618233099022_2_alg».proof.Proof.Gen.KernelIdeal
import proofs.«175961_j41618233099022_2_alg».proof.Proof.KernelIdealFrameP
import proofs.«175961_j41618233099022_2_alg».proof.Proof.Gen.ReferenceIdeal
import proofs.«175961_j41618233099022_2_alg».proof.Proof.Gen.Pre_finite_inputs
import proofs.«175961_j41618233099022_2_alg».proof.Proof.Gen.ReferenceIdeal.Run
import proofs.«175961_j41618233099022_2_alg».proof.Proof.Gen.ReferenceIdeal.Read
import proofs.«175961_j41618233099022_2_alg».proof.Proof.KernelRun
import proofs.«175961_j41618233099022_2_alg».proof.Proof.KernelChain
import proofs.«175961_j41618233099022_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read on the extended reals. -/
theorem preserves : Cert.preserves_Kernel_KernelIdeal := trivial

/-- Both runs end with the result array at the kernel's function of the arguments: the kernel's by its chain of
    boundaries, the reference's because its result term is that function (`Bridge.result_eq`) of arguments that agree. -/
theorem algebraic : Cert.algebraic_KernelIdeal_ReferenceIdeal := by
  intro m ρ m' ρ' _ hagree
  refine ⟨fun c => Cert.KernelIdeal.GenP.W8 m ρ c (Proc.devRef .tc Cert.KernelIdeal.main_v53),
    Cert.KernelIdeal.Value.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, _, h3, h4, h5, h6, h7, h8, h9⟩ := hagree c
  rw [Cert.ReferenceIdeal.Read.val_main_v101_eq, h0, h1, h3, h4, h5, h6, h7, h8, h9]
  exact (Cert.Bridge.result_eq _ _ _ _ _ _ _ _ _).trans (Cert.KernelIdeal.Chain.w8_v53 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
